-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x63 : Shape := ⟨2, ![16384, 63]⟩
abbrev S65536 : Shape := ⟨1, ![65536]⟩
abbrev S16384 : Shape := ⟨1, ![16384]⟩
abbrev S63x2048 : Shape := ⟨2, ![63, 2048]⟩
abbrev S2048 : Shape := ⟨1, ![2048]⟩
abbrev S2048x2048 : Shape := ⟨2, ![2048, 2048]⟩
abbrev S2048x1024 : Shape := ⟨2, ![2048, 1024]⟩
abbrev S1024 : Shape := ⟨1, ![1024]⟩
abbrev S1024x18 : Shape := ⟨2, ![1024, 18]⟩
abbrev S18 : Shape := ⟨1, ![18]⟩
abbrev S_ : Shape := ⟨0, ![]⟩

class Facts : Prop where
  bcast_S_S16384x63 : S_.BroadcastsInDim S16384x63 (![] : Fin 0 → Fin S16384x63.rank)
  reducesTo_S16384x63_S_d0_1 : S16384x63.ReducesTo [0, 1] S_
  h_S_ : 0 < S_.numel
  bcast_S_S63x2048 : S_.BroadcastsInDim S63x2048 (![] : Fin 0 → Fin S63x2048.rank)
  reducesTo_S63x2048_S_d0_1 : S63x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x18 : S_.BroadcastsInDim S1024x18 (![] : Fin 0 → Fin S1024x18.rank)
  reducesTo_S1024x18_S_d0_1 : S1024x18.ReducesTo [0, 1] S_
  bcast_S_S18 : S_.BroadcastsInDim S18 (![] : Fin 0 → Fin S18.rank)
  reducesTo_S18_S_d0 : S18.ReducesTo [0] S_

variable [Facts]

def fn_part6 {F : FTy → Type} [FloatOps F] (main_arg24 : FVec F S18 .f32) (main_v98 : IVec S_ 1) (main_v101 : IVec S1024x18 1) (main_c_39 : IVec S_ 1) : IVec S_ 1 :=
  let main_v102 : IVec S_ 1 := (fun x v => Host.reduce IntOp.andi x v reducesTo_S1024x18_S_d0_1 h_S_) main_v101 main_c_39
  let main_v103 : IVec S_ 1 := andi main_v98 main_v102
  let main_v104 : FVec F S18 .f32 := Host.absf main_arg24
  let main_cst_40 : FVec F S_ .f32 := constant S_ .f32 0x7F800000#32
  let main_v105 : FVec F S18 .f32 := broadcastInDim S18 ![] bcast_S_S18 main_cst_40
  let main_v106 : IVec S18 1 := cmpf .olt main_v104 main_v105
  let main_c_41 : IVec S_ 1 := constantI S_ 1 1#1
  let main_v107 : IVec S_ 1 := (fun x v => Host.reduce IntOp.andi x v reducesTo_S18_S_d0 h_S_) main_v106 main_c_41
  let main_v108 : IVec S_ 1 := andi main_v103 main_v107
  main_v108

def fn_part5 {F : FTy → Type} [FloatOps F] (main_arg21 : FVec F S2048x1024 .f32) (main_arg22 : FVec F S1024 .f32) (main_arg23 : FVec F S1024x18 .f32) (main_arg24 : FVec F S18 .f32) (main_v83 : IVec S_ 1) (main_v84 : FVec F S2048 .f32) (main_cst_32 : FVec F S_ .f32) : IVec S_ 1 :=
  let main_v85 : FVec F S2048 .f32 := broadcastInDim S2048 ![] bcast_S_S2048 main_cst_32
  let main_v86 : IVec S2048 1 := cmpf .olt main_v84 main_v85
  let main_c_33 : IVec S_ 1 := constantI S_ 1 1#1
  let main_v87 : IVec S_ 1 := (fun x v => Host.reduce IntOp.andi x v reducesTo_S2048_S_d0 h_S_) main_v86 main_c_33
  let main_v88 : IVec S_ 1 := andi main_v83 main_v87
  let main_v89 : FVec F S2048x1024 .f32 := Host.absf main_arg21
  let main_cst_34 : FVec F S_ .f32 := constant S_ .f32 0x7F800000#32
  let main_v90 : FVec F S2048x1024 .f32 := broadcastInDim S2048x1024 ![] bcast_S_S2048x1024 main_cst_34
  let main_v91 : IVec S2048x1024 1 := cmpf .olt main_v89 main_v90
  let main_c_35 : IVec S_ 1 := constantI S_ 1 1#1
  let main_v92 : IVec S_ 1 := (fun x v => Host.reduce IntOp.andi x v reducesTo_S2048x1024_S_d0_1 h_S_) main_v91 main_c_35
  let main_v93 : IVec S_ 1 := andi main_v88 main_v92
  let main_v94 : FVec F S1024 .f32 := Host.absf main_arg22
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S1024x18 .f32 := Host.absf main_arg23
  let main_cst_38 : FVec F S_ .f32 := constant S_ .f32 0x7F800000#32
  let main_v100 : FVec F S1024x18 .f32 := broadcastInDim S1024x18 ![] bcast_S_S1024x18 main_cst_38
  let main_v101 : IVec S1024x18 1 := cmpf .olt main_v99 main_v100
  let main_c_39 : IVec S_ 1 := constantI S_ 1 1#1
  fn_part6 (F := F) main_arg24 main_v98 main_v101 main_c_39

def fn_part4 {F : FTy → Type} [FloatOps F] (main_arg17 : FVec F S2048 .f32) (main_arg18 : FVec F S2048 .f32) (main_arg19 : FVec F S2048x2048 .f32) (main_arg20 : FVec F S2048 .f32) (main_arg21 : FVec F S2048x1024 .f32) (main_arg22 : FVec F S1024 .f32) (main_arg23 : FVec F S1024x18 .f32) (main_arg24 : FVec F S18 .f32) (main_v63 : IVec S_ 1) (main_v67 : IVec S_ 1) : IVec S_ 1 :=
  let main_v68 : IVec S_ 1 := andi main_v63 main_v67
  let main_v69 : FVec F S2048 .f32 := Host.absf main_arg17
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048 .f32 := Host.absf main_arg18
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  let main_v79 : FVec F S2048x2048 .f32 := Host.absf main_arg19
  let main_cst_30 : FVec F S_ .f32 := constant S_ .f32 0x7F800000#32
  let main_v80 : FVec F S2048x2048 .f32 := broadcastInDim S2048x2048 ![] bcast_S_S2048x2048 main_cst_30
  let main_v81 : IVec S2048x2048 1 := cmpf .olt main_v79 main_v80
  let main_c_31 : IVec S_ 1 := constantI S_ 1 1#1
  let main_v82 : IVec S_ 1 := (fun x v => Host.reduce IntOp.andi x v reducesTo_S2048x2048_S_d0_1 h_S_) main_v81 main_c_31
  let main_v83 : IVec S_ 1 := andi main_v78 main_v82
  let main_v84 : FVec F S2048 .f32 := Host.absf main_arg20
  let main_cst_32 : FVec F S_ .f32 := constant S_ .f32 0x7F800000#32
  fn_part5 (F := F) main_arg21 main_arg22 main_arg23 main_arg24 main_v83 main_v84 main_cst_32

def fn_part3 {F : FTy → Type} [FloatOps F] (main_arg14 : FVec F S2048 .f32) (main_arg15 : FVec F S2048 .f32) (main_arg16 : FVec F S2048 .f32) (main_arg17 : FVec F S2048 .f32) (main_arg18 : FVec F S2048 .f32) (main_arg19 : FVec F S2048x2048 .f32) (main_arg20 : FVec F S2048 .f32) (main_arg21 : FVec F S2048x1024 .f32) (main_arg22 : FVec F S1024 .f32) (main_arg23 : FVec F S1024x18 .f32) (main_arg24 : FVec F S18 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg14
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg15
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg16
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg17 main_arg18 main_arg19 main_arg20 main_arg21 main_arg22 main_arg23 main_arg24 main_v63 main_v67

def fn_part2 {F : FTy → Type} [FloatOps F] (main_arg10 : FVec F S2048x2048 .f32) (main_arg11 : FVec F S2048x2048 .f32) (main_arg12 : FVec F S2048 .f32) (main_arg13 : FVec F S2048 .f32) (main_arg14 : FVec F S2048 .f32) (main_arg15 : FVec F S2048 .f32) (main_arg16 : FVec F S2048 .f32) (main_arg17 : FVec F S2048 .f32) (main_arg18 : FVec F S2048 .f32) (main_arg19 : FVec F S2048x2048 .f32) (main_arg20 : FVec F S2048 .f32) (main_arg21 : FVec F S2048x1024 .f32) (main_arg22 : FVec F S1024 .f32) (main_arg23 : FVec F S1024x18 .f32) (main_arg24 : FVec F S18 .f32) (main_v33 : IVec S_ 1) : IVec S_ 1 :=
  let main_v34 : FVec F S2048x2048 .f32 := Host.absf main_arg10
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg11
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg12
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg13
  let main_cst_18 : FVec F S_ .f32 := constant S_ .f32 0x7F800000#32
  let main_v50 : FVec F S2048 .f32 := broadcastInDim S2048 ![] bcast_S_S2048 main_cst_18
  fn_part3 (F := F) main_arg14 main_arg15 main_arg16 main_arg17 main_arg18 main_arg19 main_arg20 main_arg21 main_arg22 main_arg23 main_arg24 main_v48 main_v49 main_v50

def fn_part1 {F : FTy → Type} [FloatOps F] (main_arg7 : FVec F S2048x2048 .f32) (main_arg8 : FVec F S2048x2048 .f32) (main_arg9 : FVec F S2048 .f32) (main_arg10 : FVec F S2048x2048 .f32) (main_arg11 : FVec F S2048x2048 .f32) (main_arg12 : FVec F S2048 .f32) (main_arg13 : FVec F S2048 .f32) (main_arg14 : FVec F S2048 .f32) (main_arg15 : FVec F S2048 .f32) (main_arg16 : FVec F S2048 .f32) (main_arg17 : FVec F S2048 .f32) (main_arg18 : FVec F S2048 .f32) (main_arg19 : FVec F S2048x2048 .f32) (main_arg20 : FVec F S2048 .f32) (main_arg21 : FVec F S2048x1024 .f32) (main_arg22 : FVec F S1024 .f32) (main_arg23 : FVec F S1024x18 .f32) (main_arg24 : FVec F S18 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg7
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg8
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg9
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S16384x63 .f32) (main_arg1 : IVec S65536 32) (main_arg2 : IVec S65536 32) (main_arg3 : IVec S16384 32) (main_arg4 : FVec F S63x2048 .f32) (main_arg5 : FVec F S63x2048 .f32) (main_arg6 : FVec F S2048 .f32) (main_arg7 : FVec F S2048x2048 .f32) (main_arg8 : FVec F S2048x2048 .f32) (main_arg9 : FVec F S2048 .f32) (main_arg10 : FVec F S2048x2048 .f32) (main_arg11 : FVec F S2048x2048 .f32) (main_arg12 : FVec F S2048 .f32) (main_arg13 : FVec F S2048 .f32) (main_arg14 : FVec F S2048 .f32) (main_arg15 : FVec F S2048 .f32) (main_arg16 : FVec F S2048 .f32) (main_arg17 : FVec F S2048 .f32) (main_arg18 : FVec F S2048 .f32) (main_arg19 : FVec F S2048x2048 .f32) (main_arg20 : FVec F S2048 .f32) (main_arg21 : FVec F S2048x1024 .f32) (main_arg22 : FVec F S1024 .f32) (main_arg23 : FVec F S1024x18 .f32) (main_arg24 : FVec F S18 .f32) : IVec S_ 1 :=
  let main_v0 : FVec F S16384x63 .f32 := Host.absf main_arg0
  let main_cst : FVec F S_ .f32 := constant S_ .f32 0x7F800000#32
  let main_v1 : FVec F S16384x63 .f32 := broadcastInDim S16384x63 ![] bcast_S_S16384x63 main_cst
  let main_v2 : IVec S16384x63 1 := cmpf .olt main_v0 main_v1
  let main_c : IVec S_ 1 := constantI S_ 1 1#1
  let main_v3 : IVec S_ 1 := (fun x v => Host.reduce IntOp.andi x v reducesTo_S16384x63_S_d0_1 h_S_) main_v2 main_c
  let main_v4 : FVec F S63x2048 .f32 := Host.absf main_arg4
  let main_cst_0 : FVec F S_ .f32 := constant S_ .f32 0x7F800000#32
  let main_v5 : FVec F S63x2048 .f32 := broadcastInDim S63x2048 ![] bcast_S_S63x2048 main_cst_0
  let main_v6 : IVec S63x2048 1 := cmpf .olt main_v4 main_v5
  let main_c_1 : IVec S_ 1 := constantI S_ 1 1#1
  let main_v7 : IVec S_ 1 := (fun x v => Host.reduce IntOp.andi x v reducesTo_S63x2048_S_d0_1 h_S_) main_v6 main_c_1
  let main_v8 : IVec S_ 1 := andi main_v3 main_v7
  let main_v9 : FVec F S63x2048 .f32 := Host.absf main_arg5
  let main_cst_2 : FVec F S_ .f32 := constant S_ .f32 0x7F800000#32
  let main_v10 : FVec F S63x2048 .f32 := broadcastInDim S63x2048 ![] bcast_S_S63x2048 main_cst_2
  let main_v11 : IVec S63x2048 1 := cmpf .olt main_v9 main_v10
  let main_c_3 : IVec S_ 1 := constantI S_ 1 1#1
  let main_v12 : IVec S_ 1 := (fun x v => Host.reduce IntOp.andi x v reducesTo_S63x2048_S_d0_1 h_S_) main_v11 main_c_3
  let main_v13 : IVec S_ 1 := andi main_v8 main_v12
  let main_v14 : FVec F S2048 .f32 := Host.absf main_arg6
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S16384x63 : Shape := ⟨2, ![16384, 63]⟩
abbrev S65536 : Shape := ⟨1, ![65536]⟩
abbrev S16384 : Shape := ⟨1, ![16384]⟩
abbrev S63x2048 : Shape := ⟨2, ![63, 2048]⟩
abbrev S2048 : Shape := ⟨1, ![2048]⟩
abbrev S2048x2048 : Shape := ⟨2, ![2048, 2048]⟩
abbrev S2048x1024 : Shape := ⟨2, ![2048, 1024]⟩
abbrev S1024 : Shape := ⟨1, ![1024]⟩
abbrev S1024x18 : Shape := ⟨2, ![1024, 18]⟩
abbrev S18 : Shape := ⟨1, ![18]⟩
abbrev S_ : Shape := ⟨0, ![]⟩
abbrev S65536x1 : Shape := ⟨2, ![65536, 1]⟩
abbrev S65536x63 : Shape := ⟨2, ![65536, 63]⟩
abbrev S16384x1 : Shape := ⟨2, ![16384, 1]⟩
abbrev S1x2048 : Shape := ⟨2, ![1, 2048]⟩
abbrev S16384x2048 : Shape := ⟨2, ![16384, 2048]⟩
abbrev S512x63 : Shape := ⟨2, ![512, 63]⟩
abbrev S512x2048 : Shape := ⟨2, ![512, 2048]⟩
abbrev S65536x2048 : Shape := ⟨2, ![65536, 2048]⟩
abbrev S64 : Shape := ⟨1, ![64]⟩
abbrev S64x2048 : Shape := ⟨2, ![64, 2048]⟩
abbrev S64x1 : Shape := ⟨2, ![64, 1]⟩
abbrev S1x1024 : Shape := ⟨2, ![1, 1024]⟩
abbrev S1x18 : Shape := ⟨2, ![1, 18]⟩
abbrev S64x18 : Shape := ⟨2, ![64, 18]⟩
abbrev S64x1024 : Shape := ⟨2, ![64, 1024]⟩

abbrev nBuf : Space → Nat
  | .hbm => 184
  | .vmem => 59
  | .smem => 0
  | _ => 0

abbrev hbmTy0_0 (i : Nat) : BufTy := match i % 128 with
  | 0 => ⟨S16384x63, .f32⟩
  | 1 => ⟨S65536, .i32⟩
  | 2 => ⟨S65536, .i32⟩
  | 3 => ⟨S16384, .i32⟩
  | 4 => ⟨S63x2048, .f32⟩
  | 5 => ⟨S63x2048, .f32⟩
  | 6 => ⟨S2048, .f32⟩
  | 7 => ⟨S2048x2048, .f32⟩
  | 8 => ⟨S2048x2048, .f32⟩
  | 9 => ⟨S2048, .f32⟩
  | 10 => ⟨S2048x2048, .f32⟩
  | 11 => ⟨S2048x2048, .f32⟩
  | 12 => ⟨S2048, .f32⟩
  | 13 => ⟨S2048, .f32⟩
  | 14 => ⟨S2048, .f32⟩
  | 15 => ⟨S2048, .f32⟩
  | 16 => ⟨S2048, .f32⟩
  | 17 => ⟨S2048, .f32⟩
  | 18 => ⟨S2048, .f32⟩
  | 19 => ⟨S2048x2048, .f32⟩
  | 20 => ⟨S2048, .f32⟩
  | 21 => ⟨S2048x1024, .f32⟩
  | 22 => ⟨S1024, .f32⟩
  | 23 => ⟨S1024x18, .f32⟩
  | 24 => ⟨S18, .f32⟩
  | 25 => ⟨S_, .f32⟩
  | 26 => ⟨S65536, .f32⟩
  | 27 => ⟨S_, .f32⟩
  | 28 => ⟨S16384, .f32⟩
  | 29 => ⟨S65536x1, .i32⟩
  | 30 => ⟨S16384, .f32⟩
  | 31 => ⟨S_, .i32⟩
  | 32 => ⟨S65536, .i32⟩
  | 33 => ⟨S65536, .i1⟩
  | 34 => ⟨S_, .i32⟩
  | 35 => ⟨S65536, .i32⟩
  | 36 => ⟨S65536, .i32⟩
  | 37 => ⟨S65536, .i32⟩
  | 38 => ⟨S65536x1, .i32⟩
  | 39 => ⟨S65536x63, .f32⟩
  | 40 => ⟨S_, .f32⟩
  | 41 => ⟨S16384x63, .f32⟩
  | 42 => ⟨S65536x1, .i32⟩
  | 43 => ⟨S16384x63, .f32⟩
  | 44 => ⟨S_, .f32⟩
  | 45 => ⟨S16384, .f32⟩
  | 46 => ⟨S16384, .f32⟩
  | 47 => ⟨S16384x1, .f32⟩
  | 48 => ⟨S16384x63, .f32⟩
  | 49 => ⟨S16384x63, .f32⟩
  | 50 => ⟨S16384x63, .bf16⟩
  | 51 => ⟨S16384x63, .bf16⟩
  | 52 => ⟨S63x2048, .bf16⟩
  | 53 => ⟨S63x2048, .bf16⟩
  | 54 => ⟨S1x2048, .f32⟩
  | 55 => ⟨S16384x2048, .f32⟩
  | 56 => ⟨S_, .f32⟩
  | 57 => ⟨S2048, .f32⟩
  | 58 => ⟨S1x2048, .f32⟩
  | 59 => ⟨S_, .f32⟩
  | 60 => ⟨S1x2048, .f32⟩
  | 61 => ⟨S1x2048, .f32⟩
  | 62 => ⟨S16384x2048, .f32⟩
  | 63 => ⟨S16384x2048, .f32⟩
  | 64 => ⟨S16384x2048, .f32⟩
  | 65 => ⟨S_, .f32⟩
  | 66 => ⟨S2048, .f32⟩
  | 67 => ⟨S1x2048, .f32⟩
  | 68 => ⟨S_, .f32⟩
  | 69 => ⟨S1x2048, .f32⟩
  | 70 => ⟨S1x2048, .f32⟩
  | 71 => ⟨S1x2048, .f32⟩
  | 72 => ⟨S1x2048, .f32⟩
  | 73 => ⟨S16384x2048, .f32⟩
  | 74 => ⟨S_, .i32⟩
  | 75 => ⟨S65536, .i32⟩
  | 76 => ⟨S65536, .i1⟩
  | 77 => ⟨S_, .i32⟩
  | 78 => ⟨S65536, .i32⟩
  | 79 => ⟨S65536, .i32⟩
  | 80 => ⟨S65536, .i32⟩
  | 81 => ⟨S65536x1, .i32⟩
  | 82 => ⟨S65536x2048, .f32⟩
  | 83 => ⟨S_, .f32⟩
  | 84 => ⟨S16384x2048, .f32⟩
  | 85 => ⟨S65536x1, .i32⟩
  | 86 => ⟨S16384x2048, .f32⟩
  | 87 => ⟨S_, .f32⟩
  | 88 => ⟨S16384, .f32⟩
  | 89 => ⟨S16384, .f32⟩
  | 90 => ⟨S16384x1, .f32⟩
  | 91 => ⟨S16384x2048, .f32⟩
  | 92 => ⟨S16384x2048, .f32⟩
  | 93 => ⟨S16384x2048, .bf16⟩
  | 94 => ⟨S16384x2048, .bf16⟩
  | 95 => ⟨S2048x2048, .bf16⟩
  | 96 => ⟨S2048x2048, .bf16⟩
  | 97 => ⟨S1x2048, .f32⟩
  | 98 => ⟨S16384x2048, .f32⟩
  | 99 => ⟨S_, .f32⟩
  | 100 => ⟨S2048, .f32⟩
  | 101 => ⟨S1x2048, .f32⟩
  | 102 => ⟨S_, .f32⟩
  | 103 => ⟨S1x2048, .f32⟩
  | 104 => ⟨S1x2048, .f32⟩
  | 105 => ⟨S16384x2048, .f32⟩
  | 106 => ⟨S16384x2048, .f32⟩
  | 107 => ⟨S16384x2048, .f32⟩
  | 108 => ⟨S_, .f32⟩
  | 109 => ⟨S2048, .f32⟩
  | 110 => ⟨S1x2048, .f32⟩
  | 111 => ⟨S_, .f32⟩
  | 112 => ⟨S1x2048, .f32⟩
  | 113 => ⟨S1x2048, .f32⟩
  | 114 => ⟨S1x2048, .f32⟩
  | 115 => ⟨S1x2048, .f32⟩
  | 116 => ⟨S16384x2048, .f32⟩
  | 117 => ⟨S_, .i32⟩
  | 118 => ⟨S65536, .i32⟩
  | 119 => ⟨S65536, .i1⟩
  | 120 => ⟨S_, .i32⟩
  | 121 => ⟨S65536, .i32⟩
  | 122 => ⟨S65536, .i32⟩
  | 123 => ⟨S65536, .i32⟩
  | 124 => ⟨S65536x1, .i32⟩
  | 125 => ⟨S65536x2048, .f32⟩
  | 126 => ⟨S_, .f32⟩
  | 127 => ⟨S16384x2048, .f32⟩
  | _ => ⟨S16384x63, .f32⟩

abbrev hbmTy0_1 (i : Nat) : BufTy := match i % 128 with
  | 0 => ⟨S65536x1, .i32⟩
  | 1 => ⟨S16384x2048, .f32⟩
  | 2 => ⟨S_, .f32⟩
  | 3 => ⟨S16384, .f32⟩
  | 4 => ⟨S16384, .f32⟩
  | 5 => ⟨S16384x1, .f32⟩
  | 6 => ⟨S16384x2048, .f32⟩
  | 7 => ⟨S16384x2048, .f32⟩
  | 8 => ⟨S16384x2048, .bf16⟩
  | 9 => ⟨S16384x2048, .bf16⟩
  | 10 => ⟨S2048x2048, .bf16⟩
  | 11 => ⟨S2048x2048, .bf16⟩
  | 12 => ⟨S1x2048, .f32⟩
  | 13 => ⟨S16384x2048, .f32⟩
  | 14 => ⟨S_, .f32⟩
  | 15 => ⟨S2048, .f32⟩
  | 16 => ⟨S1x2048, .f32⟩
  | 17 => ⟨S_, .f32⟩
  | 18 => ⟨S1x2048, .f32⟩
  | 19 => ⟨S1x2048, .f32⟩
  | 20 => ⟨S16384x2048, .f32⟩
  | 21 => ⟨S16384x2048, .f32⟩
  | 22 => ⟨S16384x2048, .f32⟩
  | 23 => ⟨S_, .f32⟩
  | 24 => ⟨S2048, .f32⟩
  | 25 => ⟨S1x2048, .f32⟩
  | 26 => ⟨S_, .f32⟩
  | 27 => ⟨S1x2048, .f32⟩
  | 28 => ⟨S1x2048, .f32⟩
  | 29 => ⟨S1x2048, .f32⟩
  | 30 => ⟨S1x2048, .f32⟩
  | 31 => ⟨S16384x2048, .f32⟩
  | 32 => ⟨S_, .f32⟩
  | 33 => ⟨S16384, .f32⟩
  | 34 => ⟨S_, .f32⟩
  | 35 => ⟨S64, .f32⟩
  | 36 => ⟨S16384x1, .i32⟩
  | 37 => ⟨S64, .f32⟩
  | 38 => ⟨S_, .f32⟩
  | 39 => ⟨S64x2048, .f32⟩
  | 40 => ⟨S16384x1, .i32⟩
  | 41 => ⟨S64x2048, .f32⟩
  | 42 => ⟨S_, .f32⟩
  | 43 => ⟨S64, .f32⟩
  | 44 => ⟨S64, .f32⟩
  | 45 => ⟨S64x1, .f32⟩
  | 46 => ⟨S64x2048, .f32⟩
  | 47 => ⟨S64x2048, .f32⟩
  | 48 => ⟨S64x2048, .bf16⟩
  | 49 => ⟨S2048x2048, .bf16⟩
  | 50 => ⟨S2048x1024, .bf16⟩
  | 51 => ⟨S1024x18, .bf16⟩
  | 52 => ⟨S1x2048, .f32⟩
  | 53 => ⟨S1x1024, .f32⟩
  | 54 => ⟨S1x18, .f32⟩
  | 55 => ⟨S64x18, .f32⟩
  | _ => ⟨S16384x63, .f32⟩

abbrev hbmTy (i : Nat) : BufTy := match i / 128 with
  | 0 => hbmTy0_0 i
  | 1 => hbmTy0_1 i
  | _ => ⟨S16384x63, .f32⟩

abbrev bufTy : (tb : Table) → Fin (tcTables nBuf tb) → BufTy
  | .hbm, ⟨i, _⟩ => hbmTy i
  | .local _ .vmem, ⟨0, _⟩ => ⟨S512x63, .bf16⟩
  | .local _ .vmem, ⟨1, _⟩ => ⟨S512x63, .bf16⟩
  | .local _ .vmem, ⟨2, _⟩ => ⟨S512x63, .bf16⟩
  | .local _ .vmem, ⟨3, _⟩ => ⟨S512x63, .bf16⟩
  | .local _ .vmem, ⟨4, _⟩ => ⟨S63x2048, .bf16⟩
  | .local _ .vmem, ⟨5, _⟩ => ⟨S63x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S2048x2048, .bf16⟩
  | .local _ .vmem, ⟨22, _⟩ => ⟨S2048x2048, .bf16⟩
  | .local _ .vmem, ⟨23, _⟩ => ⟨S1x2048, .f32⟩
  | .local _ .vmem, ⟨24, _⟩ => ⟨S512x2048, .f32⟩
  | .local _ .vmem, ⟨25, _⟩ => ⟨S512x2048, .f32⟩
  | .local _ .vmem, ⟨26, _⟩ => ⟨S512x2048, .f32⟩
  | .local _ .vmem, ⟨27, _⟩ => ⟨S512x2048, .f32⟩
  | .local _ .vmem, ⟨28, _⟩ => ⟨S1x2048, .f32⟩
  | .local _ .vmem, ⟨29, _⟩ => ⟨S1x2048, .f32⟩
  | .local _ .vmem, ⟨30, _⟩ => ⟨S1x2048, .f32⟩
  | .local _ .vmem, ⟨31, _⟩ => ⟨S1x2048, .f32⟩
  | .local _ .vmem, ⟨32, _⟩ => ⟨S512x2048, .f32⟩
  | .local _ .vmem, ⟨33, _⟩ => ⟨S512x2048, .f32⟩
  | .local _ .vmem, ⟨34, _⟩ => ⟨S512x2048, .bf16⟩
  | .local _ .vmem, ⟨35, _⟩ => ⟨S512x2048, .bf16⟩
  | .local _ .vmem, ⟨36, _⟩ => ⟨S512x2048, .bf16⟩
  | .local _ .vmem, ⟨37, _⟩ => ⟨S512x2048, .bf16⟩
  | .local _ .vmem, ⟨38, _⟩ => ⟨S2048x2048, .bf16⟩
  | .local _ .vmem, ⟨39, _⟩ => ⟨S2048x2048, .bf16⟩
  | .local _ .vmem, ⟨40, _⟩ => ⟨S1x2048, .f32⟩
  | .local _ .vmem, ⟨41, _⟩ => ⟨S512x2048, .f32⟩
  | .local _ .vmem, ⟨42, _⟩ => ⟨S512x2048, .f32⟩
  | .local _ .vmem, ⟨43, _⟩ => ⟨S512x2048, .f32⟩
  | .local _ .vmem, ⟨44, _⟩ => ⟨S512x2048, .f32⟩
  | .local _ .vmem, ⟨45, _⟩ => ⟨S1x2048, .f32⟩
  | .local _ .vmem, ⟨46, _⟩ => ⟨S1x2048, .f32⟩
  | .local _ .vmem, ⟨47, _⟩ => ⟨S1x2048, .f32⟩
  | .local _ .vmem, ⟨48, _⟩ => ⟨S1x2048, .f32⟩
  | .local _ .vmem, ⟨49, _⟩ => ⟨S512x2048, .f32⟩
  | .local _ .vmem, ⟨50, _⟩ => ⟨S512x2048, .f32⟩
  | .local _ .vmem, ⟨51, _⟩ => ⟨S64x2048, .bf16⟩
  | .local _ .vmem, ⟨52, _⟩ => ⟨S2048x2048, .bf16⟩
  | .local _ .vmem, ⟨53, _⟩ => ⟨S1x2048, .f32⟩
  | .local _ .vmem, ⟨54, _⟩ => ⟨S2048x1024, .bf16⟩
  | .local _ .vmem, ⟨55, _⟩ => ⟨S1x1024, .f32⟩
  | .local _ .vmem, ⟨56, _⟩ => ⟨S1024x18, .bf16⟩
  | .local _ .vmem, ⟨57, _⟩ => ⟨S1x18, .f32⟩
  | .local _ .vmem, ⟨58, _⟩ => ⟨S64x18, .f32⟩
  | _, _ => ⟨S16384x63, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_cst_0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_1 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_2 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_3 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_6 : Ref sig .tc := ⟨.hbm, 65, rfl⟩
abbrev main_v32 : Ref sig .tc := ⟨.hbm, 66, rfl⟩
abbrev main_v33 : Ref sig .tc := ⟨.hbm, 67, rfl⟩
abbrev main_cst_7 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_8 : Ref sig .tc := ⟨.hbm, 74, rfl⟩
abbrev main_v39 : Ref sig .tc := ⟨.hbm, 75, rfl⟩
abbrev main_v40 : Ref sig .tc := ⟨.hbm, 76, rfl⟩
abbrev main_c_9 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_10 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_11 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_12 : Ref sig .tc := ⟨.hbm, 99, rfl⟩
abbrev main_v60 : Ref sig .tc := ⟨.hbm, 100, rfl⟩
abbrev main_v61 : Ref sig .tc := ⟨.hbm, 101, rfl⟩
abbrev main_cst_13 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_14 : Ref sig .tc := ⟨.hbm, 108, rfl⟩
abbrev main_v67 : Ref sig .tc := ⟨.hbm, 109, rfl⟩
abbrev main_v68 : Ref sig .tc := ⟨.hbm, 110, rfl⟩
abbrev main_cst_15 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_16 : Ref sig .tc := ⟨.hbm, 117, rfl⟩
abbrev main_v74 : Ref sig .tc := ⟨.hbm, 118, rfl⟩
abbrev main_v75 : Ref sig .tc := ⟨.hbm, 119, rfl⟩
abbrev main_c_17 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_18 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_19 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_20 : Ref sig .tc := ⟨.hbm, 142, rfl⟩
abbrev main_v95 : Ref sig .tc := ⟨.hbm, 143, rfl⟩
abbrev main_v96 : Ref sig .tc := ⟨.hbm, 144, rfl⟩
abbrev main_cst_21 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_22 : Ref sig .tc := ⟨.hbm, 151, rfl⟩
abbrev main_v102 : Ref sig .tc := ⟨.hbm, 152, rfl⟩
abbrev main_v103 : Ref sig .tc := ⟨.hbm, 153, rfl⟩
abbrev main_cst_23 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_24 : Ref sig .tc := ⟨.hbm, 160, rfl⟩
abbrev main_v109 : Ref sig .tc := ⟨.hbm, 161, rfl⟩
abbrev main_cst_25 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_26 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_cst_27 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc6_stg0_0 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg5_0 : Ref sig .tc := ⟨.vmem, 56, rfl⟩
abbrev cc6_stg6_0 : Ref sig .tc := ⟨.vmem, 57, rfl⟩
abbrev cc6_stg7_0 : Ref sig .tc := ⟨.vmem, 58, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc6_sem0_0 : DmaSem sig := 51
abbrev cc6_sem1_0 : DmaSem sig := 52
abbrev cc6_sem2_0 : DmaSem sig := 53
abbrev cc6_sem3_0 : DmaSem sig := 54
abbrev cc6_sem4_0 : DmaSem sig := 55
abbrev cc6_sem5_0 : DmaSem sig := 56
abbrev cc6_sem6_0 : DmaSem sig := 57
abbrev cc6_sem7_0 : DmaSem sig := 58

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x63 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x63 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S63x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S63x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2048x2048 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2048x2048 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2048 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S512x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x2048 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x2048 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x2048 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S512x2048 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x2048 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S2048x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2048 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S2048x1024 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1024x18 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x18 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64x18 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  bcast_S_S65536 : S_.BroadcastsInDim S65536 (![] : Fin 0 → Fin S65536.rank)
  bcast_S_S16384 : S_.BroadcastsInDim S16384 (![] : Fin 0 → Fin S16384.rank)
  bcast_S65536_S65536x1_0 : S65536.BroadcastsInDim S65536x1 (![0] : Fin 1 → Fin S65536x1.rank)
  bcast_S_S16384x63 : S_.BroadcastsInDim S16384x63 (![] : Fin 0 → Fin S16384x63.rank)
  bcast_S16384_S16384x1_0 : S16384.BroadcastsInDim S16384x1 (![0] : Fin 1 → Fin S16384x1.rank)
  bcast_S16384x1_S16384x63_0_1 : S16384x1.BroadcastsInDim S16384x63 (![0, 1] : Fin 2 → Fin S16384x63.rank)
  bitsLt_bf16_f32 : FTy.bits .bf16 < FTy.bits .f32
  shapeCasts_S2048_S1x2048 : S2048.ShapeCasts S1x2048
  inb_S512x63_S512x63_0_0 : ∀ a, (![0, 0] : Fin 2 → Nat) a + S512x63.size a ≤ S512x63.size a
  h_S512x63 : 0 < S512x63.numel
  shapeCasts_S512x63_S512x63 : S512x63.ShapeCasts S512x63
  inb_S63x2048_S63x2048_0_0 : ∀ a, (![0, 0] : Fin 2 → Nat) a + S63x2048.size a ≤ S63x2048.size a
  h_S63x2048 : 0 < S63x2048.numel
  shapeCasts_S63x2048_S63x2048 : S63x2048.ShapeCasts S63x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  reducesTo_S16384x2048_S2048_d0 : S16384x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S16384x2048_0_1 : S1x2048.BroadcastsInDim S16384x2048 (![0, 1] : Fin 2 → Fin S16384x2048.rank)
  shapeCasts_S512x2048_S512x2048 : S512x2048.ShapeCasts S512x2048
  bcast_S_S16384x2048 : S_.BroadcastsInDim S16384x2048 (![] : Fin 0 → Fin S16384x2048.rank)
  bcast_S16384x1_S16384x2048_0_1 : S16384x1.BroadcastsInDim S16384x2048 (![0, 1] : Fin 2 → Fin S16384x2048.rank)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  bcast_S_S64 : S_.BroadcastsInDim S64 (![] : Fin 0 → Fin S64.rank)
  bcast_S_S64x2048 : S_.BroadcastsInDim S64x2048 (![] : Fin 0 → Fin S64x2048.rank)
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  shapeCasts_S1024_S1x1024 : S1024.ShapeCasts S1x1024
  shapeCasts_S18_S1x18 : S18.ShapeCasts S1x18
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  broadcasts_S1x2048_S64x2048 : S1x2048.Broadcasts S64x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S1024x18_S1024x18_0_0 : ∀ a, (![0, 0] : Fin 2 → Nat) a + S1024x18.size a ≤ S1024x18.size a
  h_S1024x18 : 0 < S1024x18.numel
  shapeCasts_S1024x18_S1024x18 : S1024x18.ShapeCasts S1024x18
  inb_S1x18_S1x18_0_0 : ∀ a, (![0, 0] : Fin 2 → Nat) a + S1x18.size a ≤ S1x18.size a
  h_S1x18 : 0 < S1x18.numel
  shapeCasts_S1x18_S1x18 : S1x18.ShapeCasts S1x18
  broadcasts_S1x18_S64x18 : S1x18.Broadcasts S64x18
  inb_S64x18_S64x18_0_0 : ∀ a, (![0, 0] : Fin 2 → Nat) a + S64x18.size a ≤ S64x18.size a
  h_S64x18 : 0 < S64x18.numel
  scatter_S16384_S65536x1_S65536_n_0_0_1_wf : ScatterDims.WF S16384 S65536x1 S65536 [] [0] [0] 1
  gather_S16384x63_S65536x1_S65536x63_1_0_n_n_0_1_163_wf : GatherDims.WF S16384x63 S65536x1 S65536x63 [1] [0] [] [0] [] 1 ![1, 63]
  scatter_S16384x63_S65536x1_S65536x63_1_0_0_1_wf : ScatterDims.WF S16384x63 S65536x1 S65536x63 [1] [0] [0] 1
  dot_S512x63_S63x2048_S512x2048_1_0_0_1_n_n_wf : DotDims.WF S512x63 S63x2048 S512x2048 [1] [0] [0] [1] [] []
  gather_S16384x2048_S65536x1_S65536x2048_1_0_n_n_0_1_12048_wf : GatherDims.WF S16384x2048 S65536x1 S65536x2048 [1] [0] [] [0] [] 1 ![1, 2048]
  scatter_S16384x2048_S65536x1_S65536x2048_1_0_0_1_wf : ScatterDims.WF S16384x2048 S65536x1 S65536x2048 [1] [0] [0] 1
  dot_S512x2048_S2048x2048_S512x2048_1_0_0_1_n_n_wf : DotDims.WF S512x2048 S2048x2048 S512x2048 [1] [0] [0] [1] [] []
  scatter_S64_S16384x1_S16384_n_0_0_1_wf : ScatterDims.WF S64 S16384x1 S16384 [] [0] [0] 1
  scatter_S64x2048_S16384x1_S16384x2048_1_0_0_1_wf : ScatterDims.WF S64x2048 S16384x1 S16384x2048 [1] [0] [0] 1
  dot_S64x2048_S2048x2048_S64x2048_1_0_0_1_n_n_wf : DotDims.WF S64x2048 S2048x2048 S64x2048 [1] [0] [0] [1] [] []
  dot_S64x2048_S2048x1024_S64x1024_1_0_0_1_n_n_wf : DotDims.WF S64x2048 S2048x1024 S64x1024 [1] [0] [0] [1] [] []
  dot_S64x1024_S1024x18_S64x18_1_0_0_1_n_n_wf : DotDims.WF S64x1024 S1024x18 S64x18 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x63.size a ≤ S16384x63.size a
  hwx0_0 : ∀ i : grid0.Coords, EltTy.bits .bf16 = 32 ∨ (Rect.block (s := S16384x63) S512x63.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x63.size a ≤ S16384x63.size a
  hwx0_1 : ∀ i : grid0.Coords, EltTy.bits .bf16 = 32 ∨ (Rect.block (s := S16384x63) S512x63.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S63x2048.size a ≤ S63x2048.size a
  hwx0_2 : ∀ i : grid0.Coords, EltTy.bits .bf16 = 32 ∨ (Rect.block (s := S63x2048) S63x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S63x2048.size a ≤ S63x2048.size a
  hwx0_3 : ∀ i : grid0.Coords, EltTy.bits .bf16 = 32 ∨ (Rect.block (s := S63x2048) S63x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S16384x2048.size a
  hwx0_5 : ∀ i : grid0.Coords, EltTy.bits .f32 = 32 ∨ (Rect.block (s := S16384x2048) S512x2048.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x2048.size a ≤ S16384x2048.size a
  hwx1_5 : ∀ i : grid1.Coords, EltTy.bits .f32 = 32 ∨ (Rect.block (s := S16384x2048) S512x2048.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S16384x2048.size a
  hwx2_0 : ∀ i : grid2.Coords, EltTy.bits .bf16 = 32 ∨ (Rect.block (s := S16384x2048) S512x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S16384x2048.size a
  hwx2_1 : ∀ i : grid2.Coords, EltTy.bits .bf16 = 32 ∨ (Rect.block (s := S16384x2048) S512x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S2048x2048.size a
  hwx2_2 : ∀ i : grid2.Coords, EltTy.bits .bf16 = 32 ∨ (Rect.block (s := S2048x2048) S2048x2048.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x2048.size a ≤ S2048x2048.size a
  hwx2_3 : ∀ i : grid2.Coords, EltTy.bits .bf16 = 32 ∨ (Rect.block (s := S2048x2048) S2048x2048.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x2048.size a
  hwx2_4 : ∀ i : grid2.Coords, EltTy.bits .f32 = 32 ∨ (Rect.block (s := S1x2048) S1x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x2048.size a ≤ S16384x2048.size a
  hwx2_5 : ∀ i : grid2.Coords, EltTy.bits .f32 = 32 ∨ (Rect.block (s := S16384x2048) S512x2048.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S16384x2048.size a
  hwx3_0 : ∀ i : grid3.Coords, EltTy.bits .f32 = 32 ∨ (Rect.block (s := S16384x2048) S512x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2048.size a ≤ S1x2048.size a
  hwx3_1 : ∀ i : grid3.Coords, EltTy.bits .f32 = 32 ∨ (Rect.block (s := S1x2048) S1x2048.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x2048.size a
  hwx3_2 : ∀ i : grid3.Coords, EltTy.bits .f32 = 32 ∨ (Rect.block (s := S1x2048) S1x2048.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2048.size a ≤ S1x2048.size a
  hwx3_3 : ∀ i : grid3.Coords, EltTy.bits .f32 = 32 ∨ (Rect.block (s := S1x2048) S1x2048.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x2048.size a ≤ S1x2048.size a
  hwx3_4 : ∀ i : grid3.Coords, EltTy.bits .f32 = 32 ∨ (Rect.block (s := S1x2048) S1x2048.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x2048.size a ≤ S16384x2048.size a
  hwx3_5 : ∀ i : grid3.Coords, EltTy.bits .f32 = 32 ∨ (Rect.block (s := S16384x2048) S512x2048.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S16384x2048.size a
  hwx4_0 : ∀ i : grid4.Coords, EltTy.bits .bf16 = 32 ∨ (Rect.block (s := S16384x2048) S512x2048.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x2048.size a ≤ S16384x2048.size a
  hwx4_1 : ∀ i : grid4.Coords, EltTy.bits .bf16 = 32 ∨ (Rect.block (s := S16384x2048) S512x2048.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2048x2048.size a ≤ S2048x2048.size a
  hwx4_2 : ∀ i : grid4.Coords, EltTy.bits .bf16 = 32 ∨ (Rect.block (s := S2048x2048) S2048x2048.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S2048x2048.size a ≤ S2048x2048.size a
  hwx4_3 : ∀ i : grid4.Coords, EltTy.bits .bf16 = 32 ∨ (Rect.block (s := S2048x2048) S2048x2048.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2048.size a ≤ S1x2048.size a
  hwx4_4 : ∀ i : grid4.Coords, EltTy.bits .f32 = 32 ∨ (Rect.block (s := S1x2048) S1x2048.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x2048.size a ≤ S16384x2048.size a
  hwx4_5 : ∀ i : grid4.Coords, EltTy.bits .f32 = 32 ∨ (Rect.block (s := S16384x2048) S512x2048.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x2048.size a ≤ S16384x2048.size a
  hwx5_0 : ∀ i : grid5.Coords, EltTy.bits .f32 = 32 ∨ (Rect.block (s := S16384x2048) S512x2048.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2048.size a ≤ S1x2048.size a
  hwx5_1 : ∀ i : grid5.Coords, EltTy.bits .f32 = 32 ∨ (Rect.block (s := S1x2048) S1x2048.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2048.size a ≤ S1x2048.size a
  hwx5_2 : ∀ i : grid5.Coords, EltTy.bits .f32 = 32 ∨ (Rect.block (s := S1x2048) S1x2048.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x2048.size a ≤ S1x2048.size a
  hwx5_3 : ∀ i : grid5.Coords, EltTy.bits .f32 = 32 ∨ (Rect.block (s := S1x2048) S1x2048.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x2048.size a ≤ S1x2048.size a
  hwx5_4 : ∀ i : grid5.Coords, EltTy.bits .f32 = 32 ∨ (Rect.block (s := S1x2048) S1x2048.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S512x2048.size a ≤ S16384x2048.size a
  hwx5_5 : ∀ i : grid5.Coords, EltTy.bits .f32 = 32 ∨ (Rect.block (s := S16384x2048) S512x2048.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x2048.size a ≤ S64x2048.size a
  hwx6_0 : ∀ i : grid6.Coords, EltTy.bits .bf16 = 32 ∨ (Rect.block (s := S64x2048) S64x2048.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2048x2048.size a ≤ S2048x2048.size a
  hwx6_1 : ∀ i : grid6.Coords, EltTy.bits .bf16 = 32 ∨ (Rect.block (s := S2048x2048) S2048x2048.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2048.size a ≤ S1x2048.size a
  hwx6_2 : ∀ i : grid6.Coords, EltTy.bits .f32 = 32 ∨ (Rect.block (s := S1x2048) S1x2048.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S2048x1024.size a ≤ S2048x1024.size a
  hwx6_3 : ∀ i : grid6.Coords, EltTy.bits .bf16 = 32 ∨ (Rect.block (s := S2048x1024) S2048x1024.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1024.size a ≤ S1x1024.size a
  hwx6_4 : ∀ i : grid6.Coords, EltTy.bits .f32 = 32 ∨ (Rect.block (s := S1x1024) S1x1024.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1024x18.size a ≤ S1024x18.size a
  hwx6_5 : ∀ i : grid6.Coords, EltTy.bits .bf16 = 32 ∨ (Rect.block (s := S1024x18) S1024x18.size (cc6_transform_5 i) (hinb6_5 i)).WholeWords (EltTy.packing .bf16)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x18.size a ≤ S1x18.size a
  hwx6_6 : ∀ i : grid6.Coords, EltTy.bits .f32 = 32 ∨ (Rect.block (s := S1x18) S1x18.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64x18.size a ≤ S64x18.size a
  hwx6_7 : ∀ i : grid6.Coords, EltTy.bits .f32 = 32 ∨ (Rect.block (s := S64x18) S64x18.size (cc6_transform_7 i) (hinb6_7 i)).WholeWords (EltTy.packing .f32)

variable [Facts₀]

def scatter_S16384_S65536x1_S65536_n_0_0_1 : ScatterDims S16384 S65536x1 S65536 where
  updateWindowDims := []
  insertedWindowDims := [0]
  scatterDimsToOperandDims := [0]
  indexVectorDim := 1
  wf := scatter_S16384_S65536x1_S65536_n_0_0_1_wf
def gather_S16384x63_S65536x1_S65536x63_1_0_n_n_0_1_163 : GatherDims S16384x63 S65536x1 S65536x63 where
  offsetDims := [1]
  collapsedSliceDims := [0]
  operandBatchingDims := []
  startIndicesBatchingDims := []
  startIndexMap := [0]
  indexVectorDim := 1
  sliceSizes := ![1, 63]
  wf := gather_S16384x63_S65536x1_S65536x63_1_0_n_n_0_1_163_wf
def scatter_S16384x63_S65536x1_S65536x63_1_0_0_1 : ScatterDims S16384x63 S65536x1 S65536x63 where
  updateWindowDims := [1]
  insertedWindowDims := [0]
  scatterDimsToOperandDims := [0]
  indexVectorDim := 1
  wf := scatter_S16384x63_S65536x1_S65536x63_1_0_0_1_wf
def dot_S512x63_S63x2048_S512x2048_1_0_0_1_n_n : DotDims S512x63 S63x2048 S512x2048 where
  lhsContracting := [1]
  rhsContracting := [0]
  lhsNonContracting := [0]
  rhsNonContracting := [1]
  lhsBatch := []
  rhsBatch := []
  wf := dot_S512x63_S63x2048_S512x2048_1_0_0_1_n_n_wf
def gather_S16384x2048_S65536x1_S65536x2048_1_0_n_n_0_1_12048 : GatherDims S16384x2048 S65536x1 S65536x2048 where
  offsetDims := [1]
  collapsedSliceDims := [0]
  operandBatchingDims := []
  startIndicesBatchingDims := []
  startIndexMap := [0]
  indexVectorDim := 1
  sliceSizes := ![1, 2048]
  wf := gather_S16384x2048_S65536x1_S65536x2048_1_0_n_n_0_1_12048_wf
def scatter_S16384x2048_S65536x1_S65536x2048_1_0_0_1 : ScatterDims S16384x2048 S65536x1 S65536x2048 where
  updateWindowDims := [1]
  insertedWindowDims := [0]
  scatterDimsToOperandDims := [0]
  indexVectorDim := 1
  wf := scatter_S16384x2048_S65536x1_S65536x2048_1_0_0_1_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def scatter_S64_S16384x1_S16384_n_0_0_1 : ScatterDims S64 S16384x1 S16384 where
  updateWindowDims := []
  insertedWindowDims := [0]
  scatterDimsToOperandDims := [0]
  indexVectorDim := 1
  wf := scatter_S64_S16384x1_S16384_n_0_0_1_wf
def scatter_S64x2048_S16384x1_S16384x2048_1_0_0_1 : ScatterDims S64x2048 S16384x1 S16384x2048 where
  updateWindowDims := [1]
  insertedWindowDims := [0]
  scatterDimsToOperandDims := [0]
  indexVectorDim := 1
  wf := scatter_S64x2048_S16384x1_S16384x2048_1_0_0_1_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf
def dot_S64x1024_S1024x18_S64x18_1_0_0_1_n_n : DotDims S64x1024 S1024x18 S64x18 where
  lhsContracting := [1]
  rhsContracting := [0]
  lhsNonContracting := [0]
  rhsNonContracting := [1]
  lhsBatch := []
  rhsBatch := []
  wf := dot_S64x1024_S1024x18_S64x18_1_0_0_1_n_n_wf

abbrev win0_0 : Pipeline.Window sig grid0 :=
  Pipeline.Window.ofSpec (Memref.whole main_v19) S512x63.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S512x63.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S63x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S63x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S512x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v56) S2048x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S2048x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S512x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1x2048.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S1x2048.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S512x2048.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v89) S512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S512x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v91) S2048x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v92) S2048x2048.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v93) S1x2048.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v94) S512x2048.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v94) S512x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v98) S1x2048.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v105) S1x2048.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v106) S1x2048.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v107) S1x2048.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v108) S512x2048.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v121) S64x2048.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v122) S2048x2048.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v125) S1x2048.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v123) S2048x1024.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v126) S1x1024.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v124) S1024x18.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v127) S1x18.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v128) S64x18.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S16384x63 : Shape := ⟨2, ![16384, 63]⟩
abbrev S65536 : Shape := ⟨1, ![65536]⟩
abbrev S16384 : Shape := ⟨1, ![16384]⟩
abbrev S63x2048 : Shape := ⟨2, ![63, 2048]⟩
abbrev S2048 : Shape := ⟨1, ![2048]⟩
abbrev S2048x2048 : Shape := ⟨2, ![2048, 2048]⟩
abbrev S2048x1024 : Shape := ⟨2, ![2048, 1024]⟩
abbrev S1024 : Shape := ⟨1, ![1024]⟩
abbrev S1024x18 : Shape := ⟨2, ![1024, 18]⟩
abbrev S18 : Shape := ⟨1, ![18]⟩
abbrev S_ : Shape := ⟨0, ![]⟩
abbrev S65536x1 : Shape := ⟨2, ![65536, 1]⟩
abbrev S65536x63 : Shape := ⟨2, ![65536, 63]⟩
abbrev S16384x1 : Shape := ⟨2, ![16384, 1]⟩
abbrev S16384x2048 : Shape := ⟨2, ![16384, 2048]⟩
abbrev S1x2048 : Shape := ⟨2, ![1, 2048]⟩
abbrev S65536x2048 : Shape := ⟨2, ![65536, 2048]⟩
abbrev S64 : Shape := ⟨1, ![64]⟩
abbrev S64x2048 : Shape := ⟨2, ![64, 2048]⟩
abbrev S64x1 : Shape := ⟨2, ![64, 1]⟩
abbrev S64x1024 : Shape := ⟨2, ![64, 1024]⟩
abbrev S1x1024 : Shape := ⟨2, ![1, 1024]⟩
abbrev S64x18 : Shape := ⟨2, ![64, 18]⟩
abbrev S1x18 : Shape := ⟨2, ![1, 18]⟩

abbrev nBuf : Space → Nat
  | .hbm => 276
  | .vmem => 0
  | .smem => 0
  | _ => 0

abbrev hbmTy0_0 (i : Nat) : BufTy := match i % 128 with
  | 0 => ⟨S16384x63, .f32⟩
  | 1 => ⟨S65536, .i32⟩
  | 2 => ⟨S65536, .i32⟩
  | 3 => ⟨S16384, .i32⟩
  | 4 => ⟨S63x2048, .f32⟩
  | 5 => ⟨S63x2048, .f32⟩
  | 6 => ⟨S2048, .f32⟩
  | 7 => ⟨S2048x2048, .f32⟩
  | 8 => ⟨S2048x2048, .f32⟩
  | 9 => ⟨S2048, .f32⟩
  | 10 => ⟨S2048x2048, .f32⟩
  | 11 => ⟨S2048x2048, .f32⟩
  | 12 => ⟨S2048, .f32⟩
  | 13 => ⟨S2048, .f32⟩
  | 14 => ⟨S2048, .f32⟩
  | 15 => ⟨S2048, .f32⟩
  | 16 => ⟨S2048, .f32⟩
  | 17 => ⟨S2048, .f32⟩
  | 18 => ⟨S2048, .f32⟩
  | 19 => ⟨S2048x2048, .f32⟩
  | 20 => ⟨S2048, .f32⟩
  | 21 => ⟨S2048x1024, .f32⟩
  | 22 => ⟨S1024, .f32⟩
  | 23 => ⟨S1024x18, .f32⟩
  | 24 => ⟨S18, .f32⟩
  | 25 => ⟨S_, .f32⟩
  | 26 => ⟨S65536, .f32⟩
  | 27 => ⟨S_, .f32⟩
  | 28 => ⟨S16384, .f32⟩
  | 29 => ⟨S65536x1, .i32⟩
  | 30 => ⟨S16384, .f32⟩
  | 31 => ⟨S_, .i32⟩
  | 32 => ⟨S65536, .i32⟩
  | 33 => ⟨S65536, .i1⟩
  | 34 => ⟨S_, .i32⟩
  | 35 => ⟨S65536, .i32⟩
  | 36 => ⟨S65536, .i32⟩
  | 37 => ⟨S65536, .i32⟩
  | 38 => ⟨S65536x1, .i32⟩
  | 39 => ⟨S65536x63, .f32⟩
  | 40 => ⟨S_, .f32⟩
  | 41 => ⟨S16384x63, .f32⟩
  | 42 => ⟨S65536x1, .i32⟩
  | 43 => ⟨S16384x63, .f32⟩
  | 44 => ⟨S_, .f32⟩
  | 45 => ⟨S16384, .f32⟩
  | 46 => ⟨S16384, .f32⟩
  | 47 => ⟨S16384x1, .f32⟩
  | 48 => ⟨S16384x63, .f32⟩
  | 49 => ⟨S16384x63, .f32⟩
  | 50 => ⟨S16384x2048, .f32⟩
  | 51 => ⟨S16384x2048, .f32⟩
  | 52 => ⟨S16384x2048, .f32⟩
  | 53 => ⟨S1x2048, .f32⟩
  | 54 => ⟨S16384x2048, .f32⟩
  | 55 => ⟨S16384x2048, .f32⟩
  | 56 => ⟨S_, .f32⟩
  | 57 => ⟨S2048, .f32⟩
  | 58 => ⟨S_, .f32⟩
  | 59 => ⟨S2048, .f32⟩
  | 60 => ⟨S2048, .f32⟩
  | 61 => ⟨S1x2048, .f32⟩
  | 62 => ⟨S16384x2048, .f32⟩
  | 63 => ⟨S16384x2048, .f32⟩
  | 64 => ⟨S16384x2048, .f32⟩
  | 65 => ⟨S_, .f32⟩
  | 66 => ⟨S2048, .f32⟩
  | 67 => ⟨S_, .f32⟩
  | 68 => ⟨S2048, .f32⟩
  | 69 => ⟨S2048, .f32⟩
  | 70 => ⟨S1x2048, .f32⟩
  | 71 => ⟨S16384x2048, .f32⟩
  | 72 => ⟨S16384x2048, .f32⟩
  | 73 => ⟨S_, .f32⟩
  | 74 => ⟨S2048, .f32⟩
  | 75 => ⟨S2048, .f32⟩
  | 76 => ⟨S2048, .f32⟩
  | 77 => ⟨S1x2048, .f32⟩
  | 78 => ⟨S16384x2048, .f32⟩
  | 79 => ⟨S16384x2048, .f32⟩
  | 80 => ⟨S1x2048, .f32⟩
  | 81 => ⟨S16384x2048, .f32⟩
  | 82 => ⟨S16384x2048, .f32⟩
  | 83 => ⟨S1x2048, .f32⟩
  | 84 => ⟨S16384x2048, .f32⟩
  | 85 => ⟨S16384x2048, .f32⟩
  | 86 => ⟨S_, .f32⟩
  | 87 => ⟨S_, .f32⟩
  | 88 => ⟨S16384x2048, .f32⟩
  | 89 => ⟨S16384x2048, .i1⟩
  | 90 => ⟨S_, .f32⟩
  | 91 => ⟨S16384x2048, .f32⟩
  | 92 => ⟨S16384x2048, .f32⟩
  | 93 => ⟨S16384x2048, .f32⟩
  | 94 => ⟨S_, .f32⟩
  | 95 => ⟨S65536, .f32⟩
  | 96 => ⟨S_, .f32⟩
  | 97 => ⟨S16384, .f32⟩
  | 98 => ⟨S65536x1, .i32⟩
  | 99 => ⟨S16384, .f32⟩
  | 100 => ⟨S_, .i32⟩
  | 101 => ⟨S65536, .i32⟩
  | 102 => ⟨S65536, .i1⟩
  | 103 => ⟨S_, .i32⟩
  | 104 => ⟨S65536, .i32⟩
  | 105 => ⟨S65536, .i32⟩
  | 106 => ⟨S65536, .i32⟩
  | 107 => ⟨S65536x1, .i32⟩
  | 108 => ⟨S65536x2048, .f32⟩
  | 109 => ⟨S_, .f32⟩
  | 110 => ⟨S16384x2048, .f32⟩
  | 111 => ⟨S65536x1, .i32⟩
  | 112 => ⟨S16384x2048, .f32⟩
  | 113 => ⟨S_, .f32⟩
  | 114 => ⟨S16384, .f32⟩
  | 115 => ⟨S16384, .f32⟩
  | 116 => ⟨S16384x1, .f32⟩
  | 117 => ⟨S16384x2048, .f32⟩
  | 118 => ⟨S16384x2048, .f32⟩
  | 119 => ⟨S16384x2048, .f32⟩
  | 120 => ⟨S16384x2048, .f32⟩
  | 121 => ⟨S16384x2048, .f32⟩
  | 122 => ⟨S1x2048, .f32⟩
  | 123 => ⟨S16384x2048, .f32⟩
  | 124 => ⟨S16384x2048, .f32⟩
  | 125 => ⟨S_, .f32⟩
  | 126 => ⟨S2048, .f32⟩
  | 127 => ⟨S_, .f32⟩
  | _ => ⟨S16384x63, .f32⟩

abbrev hbmTy0_1 (i : Nat) : BufTy := match i % 128 with
  | 0 => ⟨S2048, .f32⟩
  | 1 => ⟨S2048, .f32⟩
  | 2 => ⟨S1x2048, .f32⟩
  | 3 => ⟨S16384x2048, .f32⟩
  | 4 => ⟨S16384x2048, .f32⟩
  | 5 => ⟨S16384x2048, .f32⟩
  | 6 => ⟨S_, .f32⟩
  | 7 => ⟨S2048, .f32⟩
  | 8 => ⟨S_, .f32⟩
  | 9 => ⟨S2048, .f32⟩
  | 10 => ⟨S2048, .f32⟩
  | 11 => ⟨S1x2048, .f32⟩
  | 12 => ⟨S16384x2048, .f32⟩
  | 13 => ⟨S16384x2048, .f32⟩
  | 14 => ⟨S_, .f32⟩
  | 15 => ⟨S2048, .f32⟩
  | 16 => ⟨S2048, .f32⟩
  | 17 => ⟨S2048, .f32⟩
  | 18 => ⟨S1x2048, .f32⟩
  | 19 => ⟨S16384x2048, .f32⟩
  | 20 => ⟨S16384x2048, .f32⟩
  | 21 => ⟨S1x2048, .f32⟩
  | 22 => ⟨S16384x2048, .f32⟩
  | 23 => ⟨S16384x2048, .f32⟩
  | 24 => ⟨S1x2048, .f32⟩
  | 25 => ⟨S16384x2048, .f32⟩
  | 26 => ⟨S16384x2048, .f32⟩
  | 27 => ⟨S_, .f32⟩
  | 28 => ⟨S_, .f32⟩
  | 29 => ⟨S16384x2048, .f32⟩
  | 30 => ⟨S16384x2048, .i1⟩
  | 31 => ⟨S_, .f32⟩
  | 32 => ⟨S16384x2048, .f32⟩
  | 33 => ⟨S16384x2048, .f32⟩
  | 34 => ⟨S16384x2048, .f32⟩
  | 35 => ⟨S_, .f32⟩
  | 36 => ⟨S65536, .f32⟩
  | 37 => ⟨S_, .f32⟩
  | 38 => ⟨S16384, .f32⟩
  | 39 => ⟨S65536x1, .i32⟩
  | 40 => ⟨S16384, .f32⟩
  | 41 => ⟨S_, .i32⟩
  | 42 => ⟨S65536, .i32⟩
  | 43 => ⟨S65536, .i1⟩
  | 44 => ⟨S_, .i32⟩
  | 45 => ⟨S65536, .i32⟩
  | 46 => ⟨S65536, .i32⟩
  | 47 => ⟨S65536, .i32⟩
  | 48 => ⟨S65536x1, .i32⟩
  | 49 => ⟨S65536x2048, .f32⟩
  | 50 => ⟨S_, .f32⟩
  | 51 => ⟨S16384x2048, .f32⟩
  | 52 => ⟨S65536x1, .i32⟩
  | 53 => ⟨S16384x2048, .f32⟩
  | 54 => ⟨S_, .f32⟩
  | 55 => ⟨S16384, .f32⟩
  | 56 => ⟨S16384, .f32⟩
  | 57 => ⟨S16384x1, .f32⟩
  | 58 => ⟨S16384x2048, .f32⟩
  | 59 => ⟨S16384x2048, .f32⟩
  | 60 => ⟨S16384x2048, .f32⟩
  | 61 => ⟨S16384x2048, .f32⟩
  | 62 => ⟨S16384x2048, .f32⟩
  | 63 => ⟨S1x2048, .f32⟩
  | 64 => ⟨S16384x2048, .f32⟩
  | 65 => ⟨S16384x2048, .f32⟩
  | 66 => ⟨S_, .f32⟩
  | 67 => ⟨S2048, .f32⟩
  | 68 => ⟨S_, .f32⟩
  | 69 => ⟨S2048, .f32⟩
  | 70 => ⟨S2048, .f32⟩
  | 71 => ⟨S1x2048, .f32⟩
  | 72 => ⟨S16384x2048, .f32⟩
  | 73 => ⟨S16384x2048, .f32⟩
  | 74 => ⟨S16384x2048, .f32⟩
  | 75 => ⟨S_, .f32⟩
  | 76 => ⟨S2048, .f32⟩
  | 77 => ⟨S_, .f32⟩
  | 78 => ⟨S2048, .f32⟩
  | 79 => ⟨S2048, .f32⟩
  | 80 => ⟨S1x2048, .f32⟩
  | 81 => ⟨S16384x2048, .f32⟩
  | 82 => ⟨S16384x2048, .f32⟩
  | 83 => ⟨S_, .f32⟩
  | 84 => ⟨S2048, .f32⟩
  | 85 => ⟨S2048, .f32⟩
  | 86 => ⟨S2048, .f32⟩
  | 87 => ⟨S1x2048, .f32⟩
  | 88 => ⟨S16384x2048, .f32⟩
  | 89 => ⟨S16384x2048, .f32⟩
  | 90 => ⟨S1x2048, .f32⟩
  | 91 => ⟨S16384x2048, .f32⟩
  | 92 => ⟨S16384x2048, .f32⟩
  | 93 => ⟨S1x2048, .f32⟩
  | 94 => ⟨S16384x2048, .f32⟩
  | 95 => ⟨S16384x2048, .f32⟩
  | 96 => ⟨S_, .f32⟩
  | 97 => ⟨S_, .f32⟩
  | 98 => ⟨S16384x2048, .f32⟩
  | 99 => ⟨S16384x2048, .i1⟩
  | 100 => ⟨S_, .f32⟩
  | 101 => ⟨S16384x2048, .f32⟩
  | 102 => ⟨S16384x2048, .f32⟩
  | 103 => ⟨S16384x2048, .f32⟩
  | 104 => ⟨S_, .f32⟩
  | 105 => ⟨S16384, .f32⟩
  | 106 => ⟨S_, .f32⟩
  | 107 => ⟨S64, .f32⟩
  | 108 => ⟨S16384x1, .i32⟩
  | 109 => ⟨S64, .f32⟩
  | 110 => ⟨S_, .f32⟩
  | 111 => ⟨S64x2048, .f32⟩
  | 112 => ⟨S16384x1, .i32⟩
  | 113 => ⟨S64x2048, .f32⟩
  | 114 => ⟨S_, .f32⟩
  | 115 => ⟨S64, .f32⟩
  | 116 => ⟨S64, .f32⟩
  | 117 => ⟨S64x1, .f32⟩
  | 118 => ⟨S64x2048, .f32⟩
  | 119 => ⟨S64x2048, .f32⟩
  | 120 => ⟨S64x2048, .f32⟩
  | 121 => ⟨S1x2048, .f32⟩
  | 122 => ⟨S64x2048, .f32⟩
  | 123 => ⟨S64x2048, .f32⟩
  | 124 => ⟨S_, .f32⟩
  | 125 => ⟨S_, .f32⟩
  | 126 => ⟨S64x2048, .f32⟩
  | 127 => ⟨S64x2048, .i1⟩
  | _ => ⟨S16384x63, .f32⟩

abbrev hbmTy0_2 (i : Nat) : BufTy := match i % 128 with
  | 0 => ⟨S_, .f32⟩
  | 1 => ⟨S64x2048, .f32⟩
  | 2 => ⟨S64x2048, .f32⟩
  | 3 => ⟨S64x2048, .f32⟩
  | 4 => ⟨S64x1024, .f32⟩
  | 5 => ⟨S1x1024, .f32⟩
  | 6 => ⟨S64x1024, .f32⟩
  | 7 => ⟨S64x1024, .f32⟩
  | 8 => ⟨S_, .f32⟩
  | 9 => ⟨S_, .f32⟩
  | 10 => ⟨S64x1024, .f32⟩
  | 11 => ⟨S64x1024, .i1⟩
  | 12 => ⟨S_, .f32⟩
  | 13 => ⟨S64x1024, .f32⟩
  | 14 => ⟨S64x1024, .f32⟩
  | 15 => ⟨S64x1024, .f32⟩
  | 16 => ⟨S64x18, .f32⟩
  | 17 => ⟨S1x18, .f32⟩
  | 18 => ⟨S64x18, .f32⟩
  | 19 => ⟨S64x18, .f32⟩
  | _ => ⟨S16384x63, .f32⟩

abbrev hbmTy (i : Nat) : BufTy := match i / 128 with
  | 0 => hbmTy0_0 i
  | 1 => hbmTy0_1 i
  | 2 => hbmTy0_2 i
  | _ => ⟨S16384x63, .f32⟩

abbrev bufTy : (tb : Table) → Fin (tcTables nBuf tb) → BufTy
  | .hbm, ⟨i, _⟩ => hbmTy i
  | _, _ => ⟨S16384x63, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_cst_0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_c : Ref sig .tc := ⟨.hbm, 31, rfl⟩
abbrev main_v4 : Ref sig .tc := ⟨.hbm, 32, rfl⟩
abbrev main_v5 : Ref sig .tc := ⟨.hbm, 33, rfl⟩
abbrev main_c_1 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_2 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_3 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_4 : Ref sig .tc := ⟨.hbm, 56, rfl⟩
abbrev main_v25 : Ref sig .tc := ⟨.hbm, 57, rfl⟩
abbrev main_cst_5 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_6 : Ref sig .tc := ⟨.hbm, 65, rfl⟩
abbrev main_v32 : Ref sig .tc := ⟨.hbm, 66, rfl⟩
abbrev main_cst_7 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_8 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst_9 : Ref sig .tc := ⟨.hbm, 86, rfl⟩
abbrev main_call0_cst : Ref sig .tc := ⟨.hbm, 87, rfl⟩
abbrev main_call0_v0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_v50 : Ref sig .tc := ⟨.hbm, 93, rfl⟩
abbrev main_cst_10 : Ref sig .tc := ⟨.hbm, 94, rfl⟩
abbrev main_v51 : Ref sig .tc := ⟨.hbm, 95, rfl⟩
abbrev main_cst_11 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_c_12 : Ref sig .tc := ⟨.hbm, 100, rfl⟩
abbrev main_v55 : Ref sig .tc := ⟨.hbm, 101, rfl⟩
abbrev main_v56 : Ref sig .tc := ⟨.hbm, 102, rfl⟩
abbrev main_c_13 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_14 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_15 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_16 : Ref sig .tc := ⟨.hbm, 125, rfl⟩
abbrev main_v76 : Ref sig .tc := ⟨.hbm, 126, rfl⟩
abbrev main_cst_17 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_18 : Ref sig .tc := ⟨.hbm, 134, rfl⟩
abbrev main_v83 : Ref sig .tc := ⟨.hbm, 135, rfl⟩
abbrev main_cst_19 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_20 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_21 : Ref sig .tc := ⟨.hbm, 155, rfl⟩
abbrev main_call1_cst : Ref sig .tc := ⟨.hbm, 156, rfl⟩
abbrev main_call1_v0 : Ref sig .tc := ⟨.hbm, 157, rfl⟩
abbrev main_call1_v1 : Ref sig .tc := ⟨.hbm, 158, rfl⟩
abbrev main_call1_v2 : Ref sig .tc := ⟨.hbm, 159, rfl⟩
abbrev main_call1_v3 : Ref sig .tc := ⟨.hbm, 160, rfl⟩
abbrev main_call1_v4 : Ref sig .tc := ⟨.hbm, 161, rfl⟩
abbrev main_v101 : Ref sig .tc := ⟨.hbm, 162, rfl⟩
abbrev main_cst_22 : Ref sig .tc := ⟨.hbm, 163, rfl⟩
abbrev main_v102 : Ref sig .tc := ⟨.hbm, 164, rfl⟩
abbrev main_cst_23 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_c_24 : Ref sig .tc := ⟨.hbm, 169, rfl⟩
abbrev main_v106 : Ref sig .tc := ⟨.hbm, 170, rfl⟩
abbrev main_v107 : Ref sig .tc := ⟨.hbm, 171, rfl⟩
abbrev main_c_25 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_cst_26 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_cst_27 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_cst_28 : Ref sig .tc := ⟨.hbm, 194, rfl⟩
abbrev main_v127 : Ref sig .tc := ⟨.hbm, 195, rfl⟩
abbrev main_cst_29 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_cst_30 : Ref sig .tc := ⟨.hbm, 203, rfl⟩
abbrev main_v134 : Ref sig .tc := ⟨.hbm, 204, rfl⟩
abbrev main_cst_31 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_cst_32 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_cst_33 : Ref sig .tc := ⟨.hbm, 224, rfl⟩
abbrev main_call2_cst : Ref sig .tc := ⟨.hbm, 225, rfl⟩
abbrev main_call2_v0 : Ref sig .tc := ⟨.hbm, 226, rfl⟩
abbrev main_call2_v1 : Ref sig .tc := ⟨.hbm, 227, rfl⟩
abbrev main_call2_v2 : Ref sig .tc := ⟨.hbm, 228, rfl⟩
abbrev main_call2_v3 : Ref sig .tc := ⟨.hbm, 229, rfl⟩
abbrev main_call2_v4 : Ref sig .tc := ⟨.hbm, 230, rfl⟩
abbrev main_v152 : Ref sig .tc := ⟨.hbm, 231, rfl⟩
abbrev main_cst_34 : Ref sig .tc := ⟨.hbm, 232, rfl⟩
abbrev main_v153 : Ref sig .tc := ⟨.hbm, 233, rfl⟩
abbrev main_cst_35 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_cst_36 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_cst_37 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_cst_38 : Ref sig .tc := ⟨.hbm, 252, rfl⟩
abbrev main_call3_cst : Ref sig .tc := ⟨.hbm, 253, rfl⟩
abbrev main_call3_v0 : Ref sig .tc := ⟨.hbm, 254, rfl⟩
abbrev main_call3_v1 : Ref sig .tc := ⟨.hbm, 255, rfl⟩
abbrev main_call3_v2 : Ref sig .tc := ⟨.hbm, 256, rfl⟩
abbrev main_call3_v3 : Ref sig .tc := ⟨.hbm, 257, rfl⟩
abbrev main_call3_v4 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_cst_39 : Ref sig .tc := ⟨.hbm, 264, rfl⟩
abbrev main_call4_cst : Ref sig .tc := ⟨.hbm, 265, rfl⟩
abbrev main_call4_v0 : Ref sig .tc := ⟨.hbm, 266, rfl⟩
abbrev main_call4_v1 : Ref sig .tc := ⟨.hbm, 267, rfl⟩
abbrev main_call4_v2 : Ref sig .tc := ⟨.hbm, 268, rfl⟩
abbrev main_call4_v3 : Ref sig .tc := ⟨.hbm, 269, rfl⟩
abbrev main_call4_v4 : Ref sig .tc := ⟨.hbm, 270, rfl⟩
abbrev main_v174 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S16384 : S_.BroadcastsInDim S16384 (![] : Fin 0 → Fin S16384.rank)
  bcast_S65536_S65536x1_0 : S65536.BroadcastsInDim S65536x1 (![0] : Fin 1 → Fin S65536x1.rank)
  bcast_S_S16384x63 : S_.BroadcastsInDim S16384x63 (![] : Fin 0 → Fin S16384x63.rank)
  bcast_S16384_S16384x1_0 : S16384.BroadcastsInDim S16384x1 (![0] : Fin 1 → Fin S16384x1.rank)
  bcast_S16384x1_S16384x63_0_1 : S16384x1.BroadcastsInDim S16384x63 (![0, 1] : Fin 2 → Fin S16384x63.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x2048_S2048_d0 : S16384x2048.ReducesTo [0] S2048
  h_S_ : 0 < S_.numel
  bcast_S_S2048 : S_.BroadcastsInDim S2048 (![] : Fin 0 → Fin S2048.rank)
  bcast_S_S16384x2048 : S_.BroadcastsInDim S16384x2048 (![] : Fin 0 → Fin S16384x2048.rank)
  bcast_S16384x1_S16384x2048_0_1 : S16384x1.BroadcastsInDim S16384x2048 (![0, 1] : Fin 2 → Fin S16384x2048.rank)
  bcast_S_S64 : S_.BroadcastsInDim S64 (![] : Fin 0 → Fin S64.rank)
  bcast_S_S64x2048 : S_.BroadcastsInDim S64x2048 (![] : Fin 0 → Fin S64x2048.rank)
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  bcast_S1x2048_S64x2048_0_1 : S1x2048.BroadcastsInDim S64x2048 (![0, 1] : Fin 2 → Fin S64x2048.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S_S64x1024 : S_.BroadcastsInDim S64x1024 (![] : Fin 0 → Fin S64x1024.rank)
  bcast_S18_S1x18_1 : S18.BroadcastsInDim S1x18 (![1] : Fin 1 → Fin S1x18.rank)
  bcast_S1x18_S64x18_0_1 : S1x18.BroadcastsInDim S64x18 (![0, 1] : Fin 2 → Fin S64x18.rank)
  scatter_S16384_S65536x1_S65536_n_0_0_1_wf : ScatterDims.WF S16384 S65536x1 S65536 [] [0] [0] 1
  gather_S16384x63_S65536x1_S65536x63_1_0_n_n_0_1_163_wf : GatherDims.WF S16384x63 S65536x1 S65536x63 [1] [0] [] [0] [] 1 ![1, 63]
  scatter_S16384x63_S65536x1_S65536x63_1_0_0_1_wf : ScatterDims.WF S16384x63 S65536x1 S65536x63 [1] [0] [0] 1
  dot_S16384x63_S63x2048_S16384x2048_1_0_0_1_n_n_wf : DotDims.WF S16384x63 S63x2048 S16384x2048 [1] [0] [0] [1] [] []
  gather_S16384x2048_S65536x1_S65536x2048_1_0_n_n_0_1_12048_wf : GatherDims.WF S16384x2048 S65536x1 S65536x2048 [1] [0] [] [0] [] 1 ![1, 2048]
  scatter_S16384x2048_S65536x1_S65536x2048_1_0_0_1_wf : ScatterDims.WF S16384x2048 S65536x1 S65536x2048 [1] [0] [0] 1
  dot_S16384x2048_S2048x2048_S16384x2048_1_0_0_1_n_n_wf : DotDims.WF S16384x2048 S2048x2048 S16384x2048 [1] [0] [0] [1] [] []
  scatter_S64_S16384x1_S16384_n_0_0_1_wf : ScatterDims.WF S64 S16384x1 S16384 [] [0] [0] 1
  scatter_S64x2048_S16384x1_S16384x2048_1_0_0_1_wf : ScatterDims.WF S64x2048 S16384x1 S16384x2048 [1] [0] [0] 1
  dot_S64x2048_S2048x2048_S64x2048_1_0_0_1_n_n_wf : DotDims.WF S64x2048 S2048x2048 S64x2048 [1] [0] [0] [1] [] []
  dot_S64x2048_S2048x1024_S64x1024_1_0_0_1_n_n_wf : DotDims.WF S64x2048 S2048x1024 S64x1024 [1] [0] [0] [1] [] []
  dot_S64x1024_S1024x18_S64x18_1_0_0_1_n_n_wf : DotDims.WF S64x1024 S1024x18 S64x18 [1] [0] [0] [1] [] []

variable [Facts₀]

def scatter_S16384_S65536x1_S65536_n_0_0_1 : ScatterDims S16384 S65536x1 S65536 where
  updateWindowDims := []
  insertedWindowDims := [0]
  scatterDimsToOperandDims := [0]
  indexVectorDim := 1
  wf := scatter_S16384_S65536x1_S65536_n_0_0_1_wf
def gather_S16384x63_S65536x1_S65536x63_1_0_n_n_0_1_163 : GatherDims S16384x63 S65536x1 S65536x63 where
  offsetDims := [1]
  collapsedSliceDims := [0]
  operandBatchingDims := []
  startIndicesBatchingDims := []
  startIndexMap := [0]
  indexVectorDim := 1
  sliceSizes := ![1, 63]
  wf := gather_S16384x63_S65536x1_S65536x63_1_0_n_n_0_1_163_wf
def scatter_S16384x63_S65536x1_S65536x63_1_0_0_1 : ScatterDims S16384x63 S65536x1 S65536x63 where
  updateWindowDims := [1]
  insertedWindowDims := [0]
  scatterDimsToOperandDims := [0]
  indexVectorDim := 1
  wf := scatter_S16384x63_S65536x1_S65536x63_1_0_0_1_wf
def dot_S16384x63_S63x2048_S16384x2048_1_0_0_1_n_n : DotDims S16384x63 S63x2048 S16384x2048 where
  lhsContracting := [1]
  rhsContracting := [0]
  lhsNonContracting := [0]
  rhsNonContracting := [1]
  lhsBatch := []
  rhsBatch := []
  wf := dot_S16384x63_S63x2048_S16384x2048_1_0_0_1_n_n_wf
def gather_S16384x2048_S65536x1_S65536x2048_1_0_n_n_0_1_12048 : GatherDims S16384x2048 S65536x1 S65536x2048 where
  offsetDims := [1]
  collapsedSliceDims := [0]
  operandBatchingDims := []
  startIndicesBatchingDims := []
  startIndexMap := [0]
  indexVectorDim := 1
  sliceSizes := ![1, 2048]
  wf := gather_S16384x2048_S65536x1_S65536x2048_1_0_n_n_0_1_12048_wf
def scatter_S16384x2048_S65536x1_S65536x2048_1_0_0_1 : ScatterDims S16384x2048 S65536x1 S65536x2048 where
  updateWindowDims := [1]
  insertedWindowDims := [0]
  scatterDimsToOperandDims := [0]
  indexVectorDim := 1
  wf := scatter_S16384x2048_S65536x1_S65536x2048_1_0_0_1_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def scatter_S64_S16384x1_S16384_n_0_0_1 : ScatterDims S64 S16384x1 S16384 where
  updateWindowDims := []
  insertedWindowDims := [0]
  scatterDimsToOperandDims := [0]
  indexVectorDim := 1
  wf := scatter_S64_S16384x1_S16384_n_0_0_1_wf
def scatter_S64x2048_S16384x1_S16384x2048_1_0_0_1 : ScatterDims S64x2048 S16384x1 S16384x2048 where
  updateWindowDims := [1]
  insertedWindowDims := [0]
  scatterDimsToOperandDims := [0]
  indexVectorDim := 1
  wf := scatter_S64x2048_S16384x1_S16384x2048_1_0_0_1_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf
def dot_S64x1024_S1024x18_S64x18_1_0_0_1_n_n : DotDims S64x1024 S1024x18 S64x18 where
  lhsContracting := [1]
  rhsContracting := [0]
  lhsNonContracting := [0]
  rhsNonContracting := [1]
  lhsBatch := []
  rhsBatch := []
  wf := dot_S64x1024_S1024x18_S64x18_1_0_0_1_n_n_wf

class Facts : Prop extends Facts₀ where

variable [Facts]
-- ==== Proof.KernelRun.lean ====
/-
  The idealized kernel program's run with its result named.

  The program is seven kernel launches among stretches of host operations. Its buffer contents at the fourteen segment
  boundaries are a fold from the launch memory: a stretch applies its host operations, a launch replaces its arrays by
  what its write-backs leave and keeps every other buffer. At the last boundary every unscoped buffer holds the fold's
  final contents; read at the result buffer this names the program's result, and read at an argument it is the launch
  contents, because no host operation and no launch writes an argument.
-/
import proofs.«114295_j84782654423394_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; in the final state the result buffer holds the
    last boundary's contents at that buffer, and every argument array is as launched. -/
theorem run : θ_run defs (onTc (τ := τ) (main (F := F))) ⟨m, fun _ => 0, ρ⟩ (fun r => ∀ c : Dev nD,
      r.2.mem ((c.tc : Thread nD τ).loc main_v128) = W14 m ρ c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v128 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c),
       (h c _ (mem_uc main_arg23 (by decide))).trans (W14_main_arg23 m ρ c),
       (h c _ (mem_uc main_arg24 (by decide))).trans (W14_main_arg24 m ρ c)⟩)

end Cert.KernelIdeal.RunValue

end
-- ==== Proof.RefSpec.lean ====
/-
  The reference network as one composed term of its argument arrays, grouped by what each group of its host
  operations computes:

  * `degFloor`   — the number of edges arriving at each node (a scatter-sum of ones), floored at one;
  * `srcIdx`     — the source node of each edge, a negative index wrapped once, as a column of gather indices;
  * `neighMean63`, `neighMean` — the sum of the source rows over the edges arriving at each node, divided by `degFloor`;
  * `biasRows`   — a length-2048 row repeated down 16384 rows;
  * `sage63`, `sage` — own features times the self weights, plus the neighbour mean times the neighbour weights, plus bias;
  * `colMean`    — a column's sum over the 16384 rows, divided by 16384;
  * `bn`         — centring by the column mean, scaling by the reciprocal square root of the column variance plus 1e-5
                     (as binary32), then the affine pair;
  * `leakyN`, `leakyG`, `leakyM` — `v` where `v ≥ 0`, else the slope (0.01 as binary32) times `v`, at three shapes;
  * `pooled`     — per graph, the sum of its nodes' rows divided by its node count floored at one;
  * `head`       — the three-layer perceptron;
  * `result`     — the whole network.
  Generic in the float instance: the terms are the reference program's own operations.
-/
import proofs.«114295_j84782654423394_1_alg».proof.ReferenceIdeal

noncomputable section

namespace Cert.RefSpec

open Cert.ReferenceIdeal Cert.ReferenceIdeal.Facts₀ Cert.ReferenceIdeal.Facts Idealize.ShloMosaic

/-- The contents type of a buffer of shape `s` and element type `e`. -/
abbrev Arr (F : FTy → Type) (s : Shape) (e : EltTy) : Type := (⟨s, e⟩ : BufTy).Contents (Elt F)

variable {F : FTy → Type} [FloatOps F] [Cert.ReferenceIdeal.Facts]

def degFloor (dst : Arr F S65536 .i32) : Arr F S16384 .f32 :=
  maximumf
    (Host.scatterAdd scatter_S16384_S65536x1_S65536_n_0_0_1
      (broadcastInDim S16384 ![] bcast_S_S16384 (constant S_ .f32 0x00000000#32))
      (broadcastInDim S65536x1 ![0] bcast_S65536_S65536x1_0 dst)
      (broadcastInDim S65536 ![] bcast_S_S65536 (constant S_ .f32 0x3F800000#32)))
    (broadcastInDim S16384 ![] bcast_S_S16384 (constant S_ .f32 0x3F800000#32))

def srcIdx (src : Arr F S65536 .i32) : Arr F S65536x1 .i32 :=
  broadcastInDim S65536x1 ![0] bcast_S65536_S65536x1_0
    (select (cmpi .slt src (broadcastInDim S65536 ![] bcast_S_S65536 (constantI S_ 32 0#32)))
      (addi src (broadcastInDim S65536 ![] bcast_S_S65536 (constantI S_ 32 16384#32))) src)

def neighMean63 (x : Arr F S16384x63 .f32) (src dst : Arr F S65536 .i32) : Arr F S16384x63 .f32 :=
  Host.divf
    (Host.scatterAdd scatter_S16384x63_S65536x1_S65536x63_1_0_0_1
      (broadcastInDim S16384x63 ![] bcast_S_S16384x63 (constant S_ .f32 0x00000000#32))
      (broadcastInDim S65536x1 ![0] bcast_S65536_S65536x1_0 dst)
      (Host.gather gather_S16384x63_S65536x1_S65536x63_1_0_n_n_0_1_163 x (srcIdx src)))
    (broadcastInDim S16384x63 ![0, 1] bcast_S16384x1_S16384x63_0_1 (broadcastInDim S16384x1 ![0] bcast_S16384_S16384x1_0 (degFloor dst)))

def neighMean (x : Arr F S16384x2048 .f32) (src dst : Arr F S65536 .i32) : Arr F S16384x2048 .f32 :=
  Host.divf
    (Host.scatterAdd scatter_S16384x2048_S65536x1_S65536x2048_1_0_0_1
      (broadcastInDim S16384x2048 ![] bcast_S_S16384x2048 (constant S_ .f32 0x00000000#32))
      (broadcastInDim S65536x1 ![0] bcast_S65536_S65536x1_0 dst)
      (Host.gather gather_S16384x2048_S65536x1_S65536x2048_1_0_n_n_0_1_12048 x (srcIdx src)))
    (broadcastInDim S16384x2048 ![0, 1] bcast_S16384x1_S16384x2048_0_1 (broadcastInDim S16384x1 ![0] bcast_S16384_S16384x1_0 (degFloor dst)))

def biasRows (b : Arr F S2048 .f32) : Arr F S16384x2048 .f32 :=
  broadcastInDim S16384x2048 ![0, 1] bcast_S1x2048_S16384x2048_0_1 (broadcastInDim S1x2048 ![1] bcast_S2048_S1x2048_1 b)

def sage63 (x nm : Arr F S16384x63 .f32) (ws wn : Arr F S63x2048 .f32) (b : Arr F S2048 .f32) : Arr F S16384x2048 .f32 :=
  addf (addf (Host.dotGeneral dot_S16384x63_S63x2048_S16384x2048_1_0_0_1_n_n none x ws)
    (Host.dotGeneral dot_S16384x63_S63x2048_S16384x2048_1_0_0_1_n_n none nm wn)) (biasRows b)

def sage (x nm : Arr F S16384x2048 .f32) (ws wn : Arr F S2048x2048 .f32) (b : Arr F S2048 .f32) : Arr F S16384x2048 .f32 :=
  addf (addf (Host.dotGeneral dot_S16384x2048_S2048x2048_S16384x2048_1_0_0_1_n_n none x ws)
    (Host.dotGeneral dot_S16384x2048_S2048x2048_S16384x2048_1_0_0_1_n_n none nm wn)) (biasRows b)

def colMean (x : Arr F S16384x2048 .f32) : Arr F S2048 .f32 :=
  Host.divf (Host.reduceAdd x (constant S_ .f32 0x00000000#32) reducesTo_S16384x2048_S2048_d0 h_S_)
    (broadcastInDim S2048 ![] bcast_S_S2048 (constant S_ .f32 0x46800000#32))

def bn (x : Arr F S16384x2048 .f32) (g be : Arr F S2048 .f32) : Arr F S16384x2048 .f32 :=
  addf (mulf (mulf (subf x (biasRows (colMean x)))
      (biasRows (Host.rsqrt (addf (colMean (mulf (subf x (biasRows (colMean x))) (subf x (biasRows (colMean x)))))
        (broadcastInDim S2048 ![] bcast_S_S2048 (constant S_ .f32 0x3727C5AC#32))))))
    (biasRows g)) (biasRows be)

def leakyN (v : Arr F S16384x2048 .f32) : Arr F S16384x2048 .f32 :=
  select (cmpf .oge v (broadcastInDim S16384x2048 ![] bcast_S_S16384x2048 (constant S_ .f32 0x00000000#32))) v
    (mulf (broadcastInDim S16384x2048 ![] bcast_S_S16384x2048 (constant S_ .f32 0x3C23D70A#32)) v)

def leakyG (v : Arr F S64x2048 .f32) : Arr F S64x2048 .f32 :=
  select (cmpf .oge v (broadcastInDim S64x2048 ![] bcast_S_S64x2048 (constant S_ .f32 0x00000000#32))) v
    (mulf (broadcastInDim S64x2048 ![] bcast_S_S64x2048 (constant S_ .f32 0x3C23D70A#32)) v)

def leakyM (v : Arr F S64x1024 .f32) : Arr F S64x1024 .f32 :=
  select (cmpf .oge v (broadcastInDim S64x1024 ![] bcast_S_S64x1024 (constant S_ .f32 0x00000000#32))) v
    (mulf (broadcastInDim S64x1024 ![] bcast_S_S64x1024 (constant S_ .f32 0x3C23D70A#32)) v)

def layer1 (x : Arr F S16384x63 .f32) (src dst : Arr F S65536 .i32) (ws wn : Arr F S63x2048 .f32)
    (b g be : Arr F S2048 .f32) : Arr F S16384x2048 .f32 :=
  leakyN (bn (sage63 x (neighMean63 x src dst) ws wn b) g be)

def layer (x : Arr F S16384x2048 .f32) (src dst : Arr F S65536 .i32) (ws wn : Arr F S2048x2048 .f32)
    (b g be : Arr F S2048 .f32) : Arr F S16384x2048 .f32 :=
  leakyN (bn (sage x (neighMean x src dst) ws wn b) g be)

def pooled (x : Arr F S16384x2048 .f32) (gid : Arr F S16384 .i32) : Arr F S64x2048 .f32 :=
  Host.divf
    (Host.scatterAdd scatter_S64x2048_S16384x1_S16384x2048_1_0_0_1
      (broadcastInDim S64x2048 ![] bcast_S_S64x2048 (constant S_ .f32 0x00000000#32))
      (broadcastInDim S16384x1 ![0] bcast_S16384_S16384x1_0 gid) x)
    (broadcastInDim S64x2048 ![0, 1] bcast_S64x1_S64x2048_0_1
      (broadcastInDim S64x1 ![0] bcast_S64_S64x1_0
        (maximumf
          (Host.scatterAdd scatter_S64_S16384x1_S16384_n_0_0_1
            (broadcastInDim S64 ![] bcast_S_S64 (constant S_ .f32 0x00000000#32))
            (broadcastInDim S16384x1 ![0] bcast_S16384_S16384x1_0 gid)
            (broadcastInDim S16384 ![] bcast_S_S16384 (constant S_ .f32 0x3F800000#32)))
          (broadcastInDim S64 ![] bcast_S_S64 (constant S_ .f32 0x3F800000#32)))))

def head (hg : Arr F S64x2048 .f32) (w1 : Arr F S2048x2048 .f32) (b1 : Arr F S2048 .f32)
    (w2 : Arr F S2048x1024 .f32) (b2 : Arr F S1024 .f32) (w3 : Arr F S1024x18 .f32) (b3 : Arr F S18 .f32) :
    Arr F S64x18 .f32 :=
  addf (Host.dotGeneral dot_S64x1024_S1024x18_S64x18_1_0_0_1_n_n none
      (leakyM (addf (Host.dotGeneral dot_S64x2048_S2048x1024_S64x1024_1_0_0_1_n_n none
          (leakyG (addf (Host.dotGeneral dot_S64x2048_S2048x2048_S64x2048_1_0_0_1_n_n none hg w1)
            (broadcastInDim S64x2048 ![0, 1] bcast_S1x2048_S64x2048_0_1 (broadcastInDim S1x2048 ![1] bcast_S2048_S1x2048_1 b1))))
          w2)
        (broadcastInDim S64x1024 ![0, 1] bcast_S1x1024_S64x1024_0_1 (broadcastInDim S1x1024 ![1] bcast_S1024_S1x1024_1 b2))))
      w3)
    (broadcastInDim S64x18 ![0, 1] bcast_S1x18_S64x18_0_1 (broadcastInDim S1x18 ![1] bcast_S18_S1x18_1 b3))

/-- The whole reference network, of the 25 argument arrays in the program's order. -/
def result (a0 : Arr F S16384x63 .f32) (a1 a2 : Arr F S65536 .i32) (a3 : Arr F S16384 .i32)
    (a4 a5 : Arr F S63x2048 .f32) (a6 : Arr F S2048 .f32) (a7 a8 : Arr F S2048x2048 .f32) (a9 : Arr F S2048 .f32)
    (a10 a11 : Arr F S2048x2048 .f32) (a12 a13 a14 a15 a16 a17 a18 : Arr F S2048 .f32)
    (a19 : Arr F S2048x2048 .f32) (a20 : Arr F S2048 .f32) (a21 : Arr F S2048x1024 .f32) (a22 : Arr F S1024 .f32)
    (a23 : Arr F S1024x18 .f32) (a24 : Arr F S18 .f32) : Arr F S64x18 .f32 :=
  head (pooled (layer (layer (layer1 a0 a1 a2 a4 a5 a6 a13 a14) a1 a2 a7 a8 a9 a15 a16) a1 a2 a10 a11 a12 a17 a18) a3)
    a19 a20 a21 a22 a23 a24

end Cert.RefSpec

end
-- ==== Proof.KernelSpec.lean ====
/-
  What each launched kernel leaves in its output array, as one function of its operand arrays, entry by entry, on the
  extended reals.

  * `sageLin`: a node's new features are its own row times the self weights, plus its neighbour-mean row times the
    neighbour weights, plus the bias row: `∑ k, x (r, k) · ws (k, j) + ∑ k, nm (r, k) · wn (k, j) + b (0, j)`.
  * `bnLeaky`: each entry is centred by its column's mean, scaled by the reciprocal square root of the column's variance
    plus the stabiliser, scaled and shifted by the column's affine pair, and passed through the leaky rectifier.
  * `dense`, `leakyV`, `head`: the three-layer perceptron on the pooled features — a product plus a bias row, the
    leaky rectifier entrywise, twice, and a last product plus bias row.
  The statistics rows (`mu`, `var`) are operands here: they are computed outside the kernels.
-/
import Idealize.ShloMosaic.PureOps.Ideal.Laws
import Idealize.ShloMosaic.Lib.ValueIdx

noncomputable section

namespace Cert.KernelSpec

open Idealize.ShloMosaic Idealize.ShloMosaic.ValueIdx

/-- The leaky rectifier in the kernels' form: `v` where `v > 0`, otherwise `v` times the slope (the binary32 value
    nearest one hundredth). -/
def leaky (v : EReal) : EReal :=
  Scalar.select (Ideal.cmp .ogt v (Ideal.ofBits .f32 0x00000000#32)) v (v * Ideal.ofBits .f32 0x3C23D70A#32)

/-- Self product plus neighbour product plus the bias row. -/
def sageLin {N D H : Nat} {φ₁ φ₂ : FTy} (x nm : FVec Ideal ⟨2, ![N, D]⟩ φ₁) (ws wn : FVec Ideal ⟨2, ![D, H]⟩ φ₂)
    (b : FVec Ideal ⟨2, ![1, H]⟩ .f32) : FVec Ideal ⟨2, ![N, H]⟩ .f32 :=
  fun i => (∑ k : Fin D, x (ix2 (i 0) k) * ws (ix2 k (i 1))) + (∑ k : Fin D, nm (ix2 (i 0) k) * wn (ix2 k (i 1)))
    + b (ix2 0 (i 1))

/-- Normalisation by the column statistics `mu`, `var`, the affine pair `g`, `be`, then the leaky rectifier. The
    stabiliser is the binary32 value nearest 1e-5. -/
def bnLeaky {N H : Nat} (x : FVec Ideal ⟨2, ![N, H]⟩ .f32) (mu var g be : FVec Ideal ⟨2, ![1, H]⟩ .f32) :
    FVec Ideal ⟨2, ![N, H]⟩ .f32 :=
  fun i => leaky ((x i - mu (ix2 0 (i 1))) * Ideal.rsqrt (var (ix2 0 (i 1)) + Ideal.ofBits .f32 0x3727C5AC#32)
    * g (ix2 0 (i 1)) + be (ix2 0 (i 1)))

/-- A product plus a bias row. -/
def dense {N D H : Nat} {φ₁ φ₂ : FTy} (x : FVec Ideal ⟨2, ![N, D]⟩ φ₁) (w : FVec Ideal ⟨2, ![D, H]⟩ φ₂)
    (b : FVec Ideal ⟨2, ![1, H]⟩ .f32) : FVec Ideal ⟨2, ![N, H]⟩ .f32 :=
  fun i => (∑ k : Fin D, x (ix2 (i 0) k) * w (ix2 k (i 1))) + b (ix2 0 (i 1))

/-- The leaky rectifier, entrywise. -/
def leakyV {s : Shape} (x : FVec Ideal s .f32) : FVec Ideal s .f32 := fun i => leaky (x i)

/-- The perceptron head on the pooled features. -/
def head {G D1 D2 D3 D4 : Nat} {φ φ₁ φ₂ φ₃ : FTy} (hg : FVec Ideal ⟨2, ![G, D1]⟩ φ)
    (w1 : FVec Ideal ⟨2, ![D1, D2]⟩ φ₁) (b1 : FVec Ideal ⟨2, ![1, D2]⟩ .f32)
    (w2 : FVec Ideal ⟨2, ![D2, D3]⟩ φ₂) (b2 : FVec Ideal ⟨2, ![1, D3]⟩ .f32)
    (w3 : FVec Ideal ⟨2, ![D3, D4]⟩ φ₃) (b3 : FVec Ideal ⟨2, ![1, D4]⟩ .f32) : FVec Ideal ⟨2, ![G, D4]⟩ .f32 :=
  dense (leakyV (dense (leakyV (dense hg w1 b1)) w2 b2)) w3 b3

end Cert.KernelSpec

end
-- ==== Proof.KKeep.lean ====
/-
  Which buffers each segment of the kernel program leaves alone.

  A stretch of host operations writes only its operations' result buffers; a launch writes only its windows' arrays.
  So a buffer outside those lists holds at a later segment boundary what it held at an earlier one: the program's
  arguments (weights, indices, affine pairs) reach the stretch that reads them unchanged, and so does the in-degree sum
  computed before the first launch.
-/
import proofs.«114295_j84782654423394_1_alg».proof.Proof.Gen.KernelIdeal.Frame

set_option maxRecDepth 16384

noncomputable section

namespace Cert.KernelIdeal.Chain

open Cert.KernelIdeal Cert.KernelIdeal.Gen Idealize.ShloMosaic Idealize.ShloMosaic.TcCoe Idealize.ShloMosaic.StableHlo

variable {F : FTy → Type} [FloatOps F]

theorem sub_of_mem {W : List (Ref sig .tc)} {x : Ref sig .tc} (h : x ∈ W) :
    ({Proc.devRef (τ := τ) .tc x} : Finset (DevRef τ sig)) ⊆ (W.map (Proc.devRef (τ := τ) .tc)).toFinset :=
  Finset.singleton_subset_iff.mpr (List.mem_toFinset.mpr (List.mem_map.mpr ⟨x, h, rfl⟩))

variable (m : (ℓ : Loc nD τ sig) → Buf (Elt F) ℓ) (ρ : Dev nD → PrngReg)

/-- The buffers written by the host operations of stretch 0. -/
abbrev wr0 : List (Ref sig .tc) := [main_cst, main_v0, main_cst_0, main_v1, main_v2, main_v3, main_c, main_v4, main_v5, main_c_1, main_v6, main_v7, main_v8, main_v9, main_v10, main_cst_2, main_v11, main_v12, main_v13, main_cst_3, main_v14, main_v15, main_v16, main_v17, main_v18, main_v19, main_v20, main_v21, main_v22, main_v23]

theorem wr0_sub : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact sub_of_mem (by decide)

/-- A buffer stretch 0 does not write holds after it what it held before. -/
theorem step1 (c : Dev nD) (b : Ref sig .tc) (hb : b ∉ wr0) :
    W1 m ρ c (Proc.devRef .tc b) = W0 m ρ c (Proc.devRef .tc b) :=
  StableHlo.after_of_writes_sub hostOps0 _ wr0_sub hb

/-- The buffers written by the host operations of stretch 1. -/
abbrev wr1 : List (Ref sig .tc) := [main_cst_4, main_v25, main_v26, main_cst_5, main_v27, main_v28, main_v29, main_v30, main_v31, main_cst_6, main_v32, main_v33, main_cst_7, main_v34, main_v35, main_v36, main_v37]

theorem wr1_sub : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact sub_of_mem (by decide)

/-- A buffer stretch 1 does not write holds after it what it held before. -/
theorem step3 (c : Dev nD) (b : Ref sig .tc) (hb : b ∉ wr1) :
    W3 m ρ c (Proc.devRef .tc b) = W2 m ρ c (Proc.devRef .tc b) :=
  StableHlo.after_of_writes_sub hostOps1 _ wr1_sub hb

/-- The buffers written by the host operations of stretch 2. -/
abbrev wr2 : List (Ref sig .tc) := [main_c_8, main_v39, main_v40, main_c_9, main_v41, main_v42, main_v43, main_v44, main_v45, main_cst_10, main_v46, main_v47, main_v48, main_cst_11, main_v49, main_v50, main_v51, main_v52, main_v53, main_v54, main_v55, main_v56, main_v57, main_v58]

theorem wr2_sub : (hostOps2 : List (HloOp τ sig (Elt F))).Forall fun op => op.writes ⊆ (wr2.map (Proc.devRef (τ := τ) .tc)).toFinset := by
  simp only [hostOps2, List.Forall, StableHlo.nullary_writes, StableHlo.unary_writes, StableHlo.binary_writes, StableHlo.ternary_writes, StableHlo.reshape_writes]
  repeat' apply And.intro
  all_goals exact sub_of_mem (by decide)

/-- A buffer stretch 2 does not write holds after it what it held before. -/
theorem step5 (c : Dev nD) (b : Ref sig .tc) (hb : b ∉ wr2) :
    W5 m ρ c (Proc.devRef .tc b) = W4 m ρ c (Proc.devRef .tc b) :=
  StableHlo.after_of_writes_sub hostOps2 _ wr2_sub hb

/-- The buffers written by the host operations of stretch 3. -/
abbrev wr3 : List (Ref sig .tc) := [main_cst_12, main_v60, main_v61, main_cst_13, main_v62, main_v63, main_v64, main_v65, main_v66, main_cst_14, main_v67, main_v68, main_cst_15, main_v69, main_v70, main_v71, main_v72]

theorem wr3_sub : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes, StableHlo.ternary_writes, StableHlo.reshape_writes]
  repeat' apply And.intro
  all_goals exact sub_of_mem (by decide)

/-- A buffer stretch 3 does not write holds after it what it held before. -/
theorem step7 (c : Dev nD) (b : Ref sig .tc) (hb : b ∉ wr3) :
    W7 m ρ c (Proc.devRef .tc b) = W6 m ρ c (Proc.devRef .tc b) :=
  StableHlo.after_of_writes_sub hostOps3 _ wr3_sub hb

/-- The buffers written by the host operations of stretch 4. -/
abbrev wr4 : List (Ref sig .tc) := [main_c_16, main_v74, main_v75, main_c_17, main_v76, main_v77, main_v78, main_v79, main_v80, main_cst_18, main_v81, main_v82, main_v83, main_cst_19, main_v84, main_v85, main_v86, main_v87, main_v88, main_v89, main_v90, main_v91, main_v92, main_v93]

theorem wr4_sub : (hostOps4 : List (HloOp τ sig (Elt F))).Forall fun op => op.writes ⊆ (wr4.map (Proc.devRef (τ := τ) .tc)).toFinset := by
  simp only [hostOps4, List.Forall, StableHlo.nullary_writes, StableHlo.unary_writes, StableHlo.binary_writes, StableHlo.ternary_writes, StableHlo.reshape_writes]
  repeat' apply And.intro
  all_goals exact sub_of_mem (by decide)

/-- A buffer stretch 4 does not write holds after it what it held before. -/
theorem step9 (c : Dev nD) (b : Ref sig .tc) (hb : b ∉ wr4) :
    W9 m ρ c (Proc.devRef .tc b) = W8 m ρ c (Proc.devRef .tc b) :=
  StableHlo.after_of_writes_sub hostOps4 _ wr4_sub hb

/-- The buffers written by the host operations of stretch 5. -/
abbrev wr5 : List (Ref sig .tc) := [main_cst_20, main_v95, main_v96, main_cst_21, main_v97, main_v98, main_v99, main_v100, main_v101, main_cst_22, main_v102, main_v103, main_cst_23, main_v104, main_v105, main_v106, main_v107]

theorem wr5_sub : (hostOps5 : List (HloOp τ sig (Elt F))).Forall fun op => op.writes ⊆ (wr5.map (Proc.devRef (τ := τ) .tc)).toFinset := by
  simp only [hostOps5, List.Forall, StableHlo.nullary_writes, StableHlo.unary_writes, StableHlo.binary_writes, StableHlo.ternary_writes, StableHlo.reshape_writes]
  repeat' apply And.intro
  all_goals exact sub_of_mem (by decide)

/-- A buffer stretch 5 does not write holds after it what it held before. -/
theorem step11 (c : Dev nD) (b : Ref sig .tc) (hb : b ∉ wr5) :
    W11 m ρ c (Proc.devRef .tc b) = W10 m ρ c (Proc.devRef .tc b) :=
  StableHlo.after_of_writes_sub hostOps5 _ wr5_sub hb

/-- The buffers written by the host operations of stretch 6. -/
abbrev wr6 : List (Ref sig .tc) := [main_cst_24, main_v109, main_cst_25, main_v110, main_v111, main_v112, main_cst_26, main_v113, main_v114, main_v115, main_cst_27, main_v116, main_v117, main_v118, main_v119, main_v120, main_v121, main_v122, main_v123, main_v124, main_v125, main_v126, main_v127]

theorem wr6_sub : (hostOps6 : List (HloOp τ sig (Elt F))).Forall fun op => op.writes ⊆ (wr6.map (Proc.devRef (τ := τ) .tc)).toFinset := by
  simp only [hostOps6, List.Forall, StableHlo.nullary_writes, StableHlo.unary_writes, StableHlo.binary_writes, StableHlo.ternary_writes, StableHlo.reshape_writes]
  repeat' apply And.intro
  all_goals exact sub_of_mem (by decide)

/-- A buffer stretch 6 does not write holds after it what it held before. -/
theorem step13 (c : Dev nD) (b : Ref sig .tc) (hb : b ∉ wr6) :
    W13 m ρ c (Proc.devRef .tc b) = W12 m ρ c (Proc.devRef .tc b) :=
  StableHlo.after_of_writes_sub hostOps6 _ wr6_sub hb

/-- A buffer written by none of the segments between boundaries 0 and 2 holds at boundary 2 what it held at boundary 0. -/
theorem W2_from0 (c : Dev nD) (b : Ref sig .tc) (h1 : b ∉ wr0) (h2 : ∀ w, Pipeline.arrRef spec0 w ≠ b) :
    W2 m ρ c (Proc.devRef .tc b) = W0 m ρ c (Proc.devRef .tc b) :=
  ((W2_of_ne m ρ c b h2).trans (step1 m ρ c b h1))

/-- A buffer written by none of the segments between boundaries 0 and 4 holds at boundary 4 what it held at boundary 0. -/
theorem W4_from0 (c : Dev nD) (b : Ref sig .tc) (h1 : b ∉ wr0) (h2 : ∀ w, Pipeline.arrRef spec0 w ≠ b) (h3 : b ∉ wr1) (h4 : ∀ w, Pipeline.arrRef spec1 w ≠ b) :
    W4 m ρ c (Proc.devRef .tc b) = W0 m ρ c (Proc.devRef .tc b) :=
  ((W4_of_ne m ρ c b h4).trans ((step3 m ρ c b h3).trans ((W2_of_ne m ρ c b h2).trans (step1 m ρ c b h1))))

/-- A buffer written by none of the segments between boundaries 1 and 4 holds at boundary 4 what it held at boundary 1. -/
theorem W4_from1 (c : Dev nD) (b : Ref sig .tc) (h2 : ∀ w, Pipeline.arrRef spec0 w ≠ b) (h3 : b ∉ wr1) (h4 : ∀ w, Pipeline.arrRef spec1 w ≠ b) :
    W4 m ρ c (Proc.devRef .tc b) = W1 m ρ c (Proc.devRef .tc b) :=
  ((W4_of_ne m ρ c b h4).trans ((step3 m ρ c b h3).trans (W2_of_ne m ρ c b h2)))

/-- A buffer written by none of the segments between boundaries 0 and 6 holds at boundary 6 what it held at boundary 0. -/
theorem W6_from0 (c : Dev nD) (b : Ref sig .tc) (h1 : b ∉ wr0) (h2 : ∀ w, Pipeline.arrRef spec0 w ≠ b) (h3 : b ∉ wr1) (h4 : ∀ w, Pipeline.arrRef spec1 w ≠ b) (h5 : b ∉ wr2) (h6 : ∀ w, Pipeline.arrRef spec2 w ≠ b) :
    W6 m ρ c (Proc.devRef .tc b) = W0 m ρ c (Proc.devRef .tc b) :=
  ((W6_of_ne m ρ c b h6).trans ((step5 m ρ c b h5).trans ((W4_of_ne m ρ c b h4).trans ((step3 m ρ c b h3).trans ((W2_of_ne m ρ c b h2).trans (step1 m ρ c b h1))))))

/-- A buffer written by none of the segments between boundaries 0 and 8 holds at boundary 8 what it held at boundary 0. -/
theorem W8_from0 (c : Dev nD) (b : Ref sig .tc) (h1 : b ∉ wr0) (h2 : ∀ w, Pipeline.arrRef spec0 w ≠ b) (h3 : b ∉ wr1) (h4 : ∀ w, Pipeline.arrRef spec1 w ≠ b) (h5 : b ∉ wr2) (h6 : ∀ w, Pipeline.arrRef spec2 w ≠ b) (h7 : b ∉ wr3) (h8 : ∀ w, Pipeline.arrRef spec3 w ≠ b) :
    W8 m ρ c (Proc.devRef .tc b) = W0 m ρ c (Proc.devRef .tc b) :=
  ((W8_of_ne m ρ c b h8).trans ((step7 m ρ c b h7).trans ((W6_of_ne m ρ c b h6).trans ((step5 m ρ c b h5).trans ((W4_of_ne m ρ c b h4).trans ((step3 m ρ c b h3).trans ((W2_of_ne m ρ c b h2).trans (step1 m ρ c b h1))))))))

/-- A buffer written by none of the segments between boundaries 1 and 8 holds at boundary 8 what it held at boundary 1. -/
theorem W8_from1 (c : Dev nD) (b : Ref sig .tc) (h2 : ∀ w, Pipeline.arrRef spec0 w ≠ b) (h3 : b ∉ wr1) (h4 : ∀ w, Pipeline.arrRef spec1 w ≠ b) (h5 : b ∉ wr2) (h6 : ∀ w, Pipeline.arrRef spec2 w ≠ b) (h7 : b ∉ wr3) (h8 : ∀ w, Pipeline.arrRef spec3 w ≠ b) :
    W8 m ρ c (Proc.devRef .tc b) = W1 m ρ c (Proc.devRef .tc b) :=
  ((W8_of_ne m ρ c b h8).trans ((step7 m ρ c b h7).trans ((W6_of_ne m ρ c b h6).trans ((step5 m ρ c b h5).trans ((W4_of_ne m ρ c b h4).trans ((step3 m ρ c b h3).trans (W2_of_ne m ρ c b h2)))))))

/-- A buffer written by none of the segments between boundaries 0 and 10 holds at boundary 10 what it held at boundary 0. -/
theorem W10_from0 (c : Dev nD) (b : Ref sig .tc) (h1 : b ∉ wr0) (h2 : ∀ w, Pipeline.arrRef spec0 w ≠ b) (h3 : b ∉ wr1) (h4 : ∀ w, Pipeline.arrRef spec1 w ≠ b) (h5 : b ∉ wr2) (h6 : ∀ w, Pipeline.arrRef spec2 w ≠ b) (h7 : b ∉ wr3) (h8 : ∀ w, Pipeline.arrRef spec3 w ≠ b) (h9 : b ∉ wr4) (h10 : ∀ w, Pipeline.arrRef spec4 w ≠ b) :
    W10 m ρ c (Proc.devRef .tc b) = W0 m ρ c (Proc.devRef .tc b) :=
  ((W10_of_ne m ρ c b h10).trans ((step9 m ρ c b h9).trans ((W8_of_ne m ρ c b h8).trans ((step7 m ρ c b h7).trans ((W6_of_ne m ρ c b h6).trans ((step5 m ρ c b h5).trans ((W4_of_ne m ρ c b h4).trans ((step3 m ρ c b h3).trans ((W2_of_ne m ρ c b h2).trans (step1 m ρ c b h1))))))))))

/-- A buffer written by none of the segments between boundaries 0 and 12 holds at boundary 12 what it held at boundary 0. -/
theorem W12_from0 (c : Dev nD) (b : Ref sig .tc) (h1 : b ∉ wr0) (h2 : ∀ w, Pipeline.arrRef spec0 w ≠ b) (h3 : b ∉ wr1) (h4 : ∀ w, Pipeline.arrRef spec1 w ≠ b) (h5 : b ∉ wr2) (h6 : ∀ w, Pipeline.arrRef spec2 w ≠ b) (h7 : b ∉ wr3) (h8 : ∀ w, Pipeline.arrRef spec3 w ≠ b) (h9 : b ∉ wr4) (h10 : ∀ w, Pipeline.arrRef spec4 w ≠ b) (h11 : b ∉ wr5) (h12 : ∀ w, Pipeline.arrRef spec5 w ≠ b) :
    W12 m ρ c (Proc.devRef .tc b) = W0 m ρ c (Proc.devRef .tc b) :=
  ((W12_of_ne m ρ c b h12).trans ((step11 m ρ c b h11).trans ((W10_of_ne m ρ c b h10).trans ((step9 m ρ c b h9).trans ((W8_of_ne m ρ c b h8).trans ((step7 m ρ c b h7).trans ((W6_of_ne m ρ c b h6).trans ((step5 m ρ c b h5).trans ((W4_of_ne m ρ c b h4).trans ((step3 m ρ c b h3).trans ((W2_of_ne m ρ c b h2).trans (step1 m ρ c b h1))))))))))))

end Cert.KernelIdeal.Chain

end
-- ==== Proof.LibPlainProduct.lean ====
/-
  A matrix product into a zero accumulator, read at an entry.

  For the plain dimension numbers (left operand contracted on its last axis, right operand on its first, no batch
  axis) the product of an m×k by a k×n matrix accumulated into the zero matrix has, at row `a` and column `b`, the
  value `∑ c, A (a, c) · B (c, b)` on the extended reals. This is the accumulating-product counterpart of the library's
  `dotGeneral_plain_apply`, with the same proof: the contraction's index set is one axis of extent `k`, re-indexed by
  `Fin k`, and the two operand indices at a contraction index are `(a, c)` and `(c, b)`.
-/
import Idealize.ShloMosaic.PureOps.Ideal.Laws
import Idealize.ShloMosaic.Lib.ValueIdx
import Idealize.ShloMosaic.Lib.StackMember

noncomputable section

namespace Cert.LibPlainProduct

open Idealize.ShloMosaic Idealize.ShloMosaic.ValueIdx

variable {m n : Nat}

/-- The left operand's index at output entry `(a, b)` and contraction coordinate `c` is `(a, c)`. -/
theorem plain_lhsIdx {k : Nat} (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output entry `(a, b)` and contraction coordinate `c` is `(c, b)`. -/
theorem plain_rhsIdx {k : Nat} (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The plain product of an m×k by a k×n matrix accumulated into zero, at entry `(a, b)`, is the sum over the
    contracted coordinate of the products of the entries. At the ideal values. -/
theorem matmul_plain_zero_apply {k : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Cert.LibPlainProduct

end
-- ==== Proof.Bridge.lean ====
/-
  The laws that join the kernels' value functions to the reference's host terms, at the ideal values.

  * A length-H row viewed as a one-row matrix and then repeated down N rows is, at row p and column q, the row's entry q;
    a length-H row reshaped to one row is, at (0, q), its entry q.
  * A matrix product of the plain kind is, entry by entry, the sum of the products along the contracted axis, whether it is
    written as a host contraction or as an accumulation into zero; narrowing to bfloat16 is the identity on the
    extended reals. So the kernels' "self product plus neighbour product plus bias row" and "product plus bias row" are
    the reference's sums of contractions and a broadcast bias.
  * The leaky rectifier: the kernels select on v > 0 and multiply v by the slope on the right, the reference selects on
    v ≥ 0 and multiplies on the left. The two agree everywhere on the extended reals: for v > 0 both give v, for v < 0 both
    give slope · v (the product commutes), and at v = 0 one gives 0 · slope and the other 0.
-/
import proofs.«114295_j84782654423394_1_alg».proof.Proof.KernelSpec
import proofs.«114295_j84782654423394_1_alg».proof.Proof.LibPlainProduct
import Idealize.ShloMosaic.Lib.ValueIdx
import Idealize.ShloMosaic.Lib.Pipeline.Value
import Idealize.ShloMosaic.Lib.ValueLayout
import Idealize.ShloMosaic.Lib.StackMember

noncomputable section

namespace Cert.Bridge

open Idealize.ShloMosaic Idealize.ShloMosaic.ValueIdx

variable {N D H : Nat}

/-- A scalar spread over a whole array is that scalar at every index. -/
theorem splat_apply {s : Shape} {α : Type} (h0 : (⟨0, ![]⟩ : Shape).BroadcastsInDim s (![] : Fin 0 → Fin s.rank))
    (x : (⟨0, ![]⟩ : Shape).Idx → α) (i : s.Idx) : broadcastInDim s ![] h0 x i = x ix0 :=
  broadcastInDim_apply _ h0 x i ix0 (fun a => a.elim0)

/-- A row as a one-row matrix, at (u, q), is the row at q. -/
theorem asRow_apply {α : Type} (h1 : (⟨1, ![H]⟩ : Shape).BroadcastsInDim ⟨2, ![1, H]⟩ (![1] : Fin 1 → Fin 2))
    (b : (⟨1, ![H]⟩ : Shape).Idx → α) (u : Fin 1) (q : Fin H) :
    broadcastInDim ⟨2, ![1, H]⟩ ![1] h1 b (ix2 u q) = b (ix1 q) :=
  broadcastInDim_apply _ h1 b (ix2 u q) (ix1 q) (fun a => by
    match a with
    | ⟨0, _⟩ =>
      show q.val = if H = 1 then 0 else q.val
      split_ifs with h
      · have := q.isLt; omega
      · rfl)

/-- A one-row matrix repeated down N rows, at (p, q), is the row matrix at (0, q). -/
theorem downRows_apply {α : Type} (h2 : (⟨2, ![1, H]⟩ : Shape).BroadcastsInDim ⟨2, ![N, H]⟩ (![0, 1] : Fin 2 → Fin 2))
    (r : (⟨2, ![1, H]⟩ : Shape).Idx → α) (p : Fin N) (q : Fin H) :
    broadcastInDim ⟨2, ![N, H]⟩ ![0, 1] h2 r (ix2 p q) = r (ix2 0 q) :=
  broadcastInDim_apply _ h2 r (ix2 p q) (ix2 0 q) (fun a => by
    match a with
    | ⟨0, _⟩ => simp
    | ⟨1, _⟩ =>
      show q.val = if H = 1 then 0 else q.val
      split_ifs with h
      · have := q.isLt; omega
      · rfl)

/-- The leaky rectifier's two forms agree on the extended reals. -/
theorem leaky_eq (v : EReal) :
    Cert.KernelSpec.leaky v
      = Scalar.select (Ideal.cmp .oge v (Ideal.ofBits .f32 0x00000000#32)) v (Ideal.ofBits .f32 0x3C23D70A#32 * v) := by
  unfold Cert.KernelSpec.leaky Ideal.cmp
  rw [Ideal.ofBits_zero_f32]
  by_cases h : (0 : EReal) < v
  · have h' : (0 : EReal) ≤ v := le_of_lt h
    simp [h, h', Scalar.select]
  · by_cases h0 : v = 0
    · subst h0
      simp [Scalar.select]
    · have h' : ¬ (0 : EReal) ≤ v := fun hle => h (lt_of_le_of_ne hle (Ne.symm h0))
      simp [h, h', Scalar.select, mul_comm]

end Cert.Bridge

end
-- ==== Proof.BridgeLayers.lean ====
/-
  The kernels' linear maps and rectifier as the reference's host terms, at the ideal values.

  A plain matrix product read at an entry is the sum of products along the contracted axis; the bias enters the kernel
  as a one-row matrix (the length-H row reshaped) and the reference as that row broadcast twice; narrowing an operand to
  bfloat16 changes nothing on the extended reals. Hence "product plus bias row" and "self product plus neighbour product
  plus bias row" are the reference's sums of host contractions and the broadcast bias, and the entrywise rectifier is the
  reference's compare-multiply-select (by the scalar law for the two forms of the rectifier).
-/
import proofs.«114295_j84782654423394_1_alg».proof.Proof.Bridge

noncomputable section

namespace Cert.Bridge

open Idealize.ShloMosaic Idealize.ShloMosaic.ValueIdx Idealize.ShloMosaic.StackMember

variable {N D H : Nat}

/-- A product plus a bias row, against the host contraction plus the broadcast bias. -/
theorem dense_eq {φ₁ φ₂ : FTy} (x : FVec Ideal ⟨2, ![N, D]⟩ φ₁) (w : FVec Ideal ⟨2, ![D, H]⟩ φ₂) (b : FVec Ideal ⟨1, ![H]⟩ .f32)
    (d : DotDims ⟨2, ![N, D]⟩ ⟨2, ![D, H]⟩ ⟨2, ![N, H]⟩) (hd : d = DotDims.plain N D H)
    (hs : (⟨1, ![H]⟩ : Shape).ShapeCasts ⟨2, ![1, H]⟩)
    (h1 : (⟨1, ![H]⟩ : Shape).BroadcastsInDim ⟨2, ![1, H]⟩ (![1] : Fin 1 → Fin 2))
    (h2 : (⟨2, ![1, H]⟩ : Shape).BroadcastsInDim ⟨2, ![N, H]⟩ (![0, 1] : Fin 2 → Fin 2)) :
    Cert.KernelSpec.dense x w (shapeCast ⟨2, ![1, H]⟩ b hs)
      = addf (Host.dotGeneral d none x w) (broadcastInDim ⟨2, ![N, H]⟩ ![0, 1] h2 (broadcastInDim ⟨2, ![1, H]⟩ ![1] h1 b)) := by
  subst hd
  funext i
  obtain ⟨p, q, rfl⟩ : ∃ (p : Fin N) (q : Fin H), i = ix2 p q := ⟨i 0, i 1, eq_ix2 i⟩
  rw [addf_apply, dotGeneral_plain_apply, downRows_apply, asRow_apply]
  show (∑ k : Fin D, x (ix2 p k) * w (ix2 k q)) + shapeCast ⟨2, ![1, H]⟩ b hs (ix2 (0 : Fin 1) q) = _
  rw [shapeCast_a_1a_apply]

/-- Self product plus neighbour product plus a bias row, against the two host contractions plus the broadcast bias. -/
theorem sage_eq {φ₁ φ₂ : FTy} (x nm : FVec Ideal ⟨2, ![N, D]⟩ φ₁) (ws wn : FVec Ideal ⟨2, ![D, H]⟩ φ₂) (b : FVec Ideal ⟨1, ![H]⟩ .f32)
    (d : DotDims ⟨2, ![N, D]⟩ ⟨2, ![D, H]⟩ ⟨2, ![N, H]⟩) (hd : d = DotDims.plain N D H)
    (hs : (⟨1, ![H]⟩ : Shape).ShapeCasts ⟨2, ![1, H]⟩)
    (h1 : (⟨1, ![H]⟩ : Shape).BroadcastsInDim ⟨2, ![1, H]⟩ (![1] : Fin 1 → Fin 2))
    (h2 : (⟨2, ![1, H]⟩ : Shape).BroadcastsInDim ⟨2, ![N, H]⟩ (![0, 1] : Fin 2 → Fin 2)) :
    Cert.KernelSpec.sageLin x nm ws wn (shapeCast ⟨2, ![1, H]⟩ b hs)
      = addf (addf (Host.dotGeneral d none x ws) (Host.dotGeneral d none nm wn))
          (broadcastInDim ⟨2, ![N, H]⟩ ![0, 1] h2 (broadcastInDim ⟨2, ![1, H]⟩ ![1] h1 b)) := by
  subst hd
  funext i
  obtain ⟨p, q, rfl⟩ : ∃ (p : Fin N) (q : Fin H), i = ix2 p q := ⟨i 0, i 1, eq_ix2 i⟩
  rw [addf_apply, addf_apply, dotGeneral_plain_apply, dotGeneral_plain_apply, downRows_apply, asRow_apply]
  show (∑ k : Fin D, x (ix2 p k) * ws (ix2 k q)) + (∑ k : Fin D, nm (ix2 p k) * wn (ix2 k q))
      + shapeCast ⟨2, ![1, H]⟩ b hs (ix2 (0 : Fin 1) q) = _
  rw [shapeCast_a_1a_apply]

/-- The entrywise rectifier, against the reference's compare, multiply and select. -/
theorem leakyV_eq {s : Shape} (y : FVec Ideal s .f32)
    (h0 : (⟨0, ![]⟩ : Shape).BroadcastsInDim s (![] : Fin 0 → Fin s.rank)) :
    Cert.KernelSpec.leakyV y
      = select (cmpf .oge y (broadcastInDim s ![] h0 (constant ⟨0, ![]⟩ .f32 0x00000000#32))) y
          (mulf (broadcastInDim s ![] h0 (constant ⟨0, ![]⟩ .f32 0x3C23D70A#32)) y) := by
  funext i
  rw [select_apply, cmpf_apply, mulf_apply, splat_apply, splat_apply, constant_apply, constant_apply, Ideal.cmpf_def]
  exact leaky_eq (y i)

end Cert.Bridge

end
-- ==== Proof.KStats.lean ====
/-
  The column statistics as the kernel program's host operations compute them, kept as one-row matrices: a column's sum
  over the rows viewed as a row and divided by the number of rows, and the same of the squared deviations from it.
-/
import proofs.«114295_j84782654423394_1_alg».proof.Proof.Gen.KernelIdeal

noncomputable section

namespace Cert.KernelIdeal.Chain

open Cert.KernelIdeal Cert.KernelIdeal.Facts₀ Cert.KernelIdeal.Facts Idealize.ShloMosaic

variable {F : FTy → Type} [FloatOps F]

/-- A one-row matrix repeated down the 16384 rows. -/
def rowsOf (r : FVec F S1x2048 .f32) : FVec F S16384x2048 .f32 :=
  broadcastInDim S16384x2048 ![0, 1] bcast_S1x2048_S16384x2048_0_1 r

/-- A column sum as a one-row matrix, divided by 16384. -/
def meanRow (x : FVec F S16384x2048 .f32) : FVec F S1x2048 .f32 :=
  Host.divf (broadcastInDim S1x2048 ![1] bcast_S2048_S1x2048_1
      (Host.reduceAdd x (constant S_ .f32 0x00000000#32) reducesTo_S16384x2048_S2048_d0 h_S_))
    (broadcastInDim S1x2048 ![] bcast_S_S1x2048 (constant S_ .f32 0x46800000#32))

/-- The column means. -/
def muRow (x : FVec F S16384x2048 .f32) : FVec F S1x2048 .f32 := meanRow x

/-- The column means of the squared deviations from the column means. -/
def varRow (x : FVec F S16384x2048 .f32) : FVec F S1x2048 .f32 :=
  meanRow (mulf (subf x (rowsOf (muRow x))) (subf x (rowsOf (muRow x))))

end Cert.KernelIdeal.Chain

end
-- ==== Proof.BridgeBn.lean ====
/-
  The normalisation launch against the reference's normalisation, at the ideal values.

  The kernel program keeps a column's mean and variance as one-row matrices (a column sum viewed as a row, divided by the
  number of rows), the reference as length-2048 vectors that it broadcasts when it uses them; the column sums themselves
  are the same host reduction of the same array, so they are never opened. Entry by entry: the mean row at (0, q) is the
  reference's mean at q; the mean row repeated down the rows is the reference's broadcast mean, so the squared
  deviations, and with them the variances, are sums of the same array; the affine pair reshaped to one-row matrices reads
  at (0, q) what the reference's broadcast pair reads at (p, q). The normalised value at (p, q) is therefore the same
  expression on both sides, and the rectifier's two forms agree on it.
-/
import proofs.«114295_j84782654423394_1_alg».proof.Proof.Gen.KernelIdeal
import proofs.«114295_j84782654423394_1_alg».proof.Proof.Gen.ReferenceIdeal
import proofs.«114295_j84782654423394_1_alg».proof.Proof.KStats
import proofs.«114295_j84782654423394_1_alg».proof.Proof.RefSpec
import proofs.«114295_j84782654423394_1_alg».proof.Proof.BridgeLayers

noncomputable section

namespace Cert.Bridge

open Idealize.ShloMosaic Idealize.ShloMosaic.ValueIdx
open Cert.KernelIdeal.Chain (rowsOf meanRow muRow varRow)

/-- The shape of a feature matrix. -/
abbrev SNH : Shape := ⟨2, ![16384, 2048]⟩
/-- The shape of a per-column vector. -/
abbrev SH : Shape := ⟨1, ![2048]⟩

/-- A length-2048 vector broadcast to all rows, at (p, q), is the vector at q. -/
theorem biasRows_apply (r : FVec Ideal SH .f32) (p : Fin 16384) (q : Fin 2048) :
    Cert.RefSpec.biasRows (F := Ideal) r (ix2 p q) = r (ix1 q) := by
  unfold Cert.RefSpec.biasRows
  rw [downRows_apply, asRow_apply]

/-- The one-row column mean at (0, q) is the reference's column mean at q. -/
theorem meanRow_apply (y : FVec Ideal SNH .f32) (q : Fin 2048) :
    meanRow y (ix2 (0 : Fin 1) q) = Cert.RefSpec.colMean (F := Ideal) y (ix1 q) := by
  unfold Cert.KernelIdeal.Chain.meanRow Cert.RefSpec.colMean Host.divf
  dsimp only
  rw [asRow_apply, splat_apply, splat_apply]

/-- The one-row column mean repeated down the rows is the reference's broadcast column mean. -/
theorem rowsOf_meanRow (y : FVec Ideal SNH .f32) : rowsOf (meanRow y) = Cert.RefSpec.biasRows (F := Ideal) (Cert.RefSpec.colMean (F := Ideal) y) := by
  funext i
  obtain ⟨p, q, rfl⟩ : ∃ (p : Fin 16384) (q : Fin 2048), i = ix2 p q := ⟨i 0, i 1, eq_ix2 i⟩
  rw [biasRows_apply, ← meanRow_apply]
  unfold Cert.KernelIdeal.Chain.rowsOf
  rw [downRows_apply]

/-- The normalise-and-rectify launch on the kernel program's statistics rows is the reference's rectified normalisation. -/
theorem bn_eq (x : FVec Ideal SNH .f32) (g be : FVec Ideal SH .f32)
    (hs : SH.ShapeCasts (⟨2, ![1, 2048]⟩ : Shape)) :
    Cert.KernelSpec.bnLeaky x (muRow x) (varRow x) (shapeCast ⟨2, ![1, 2048]⟩ g hs) (shapeCast ⟨2, ![1, 2048]⟩ be hs)
      = Cert.RefSpec.leakyN (F := Ideal) (Cert.RefSpec.bn (F := Ideal) x g be) := by
  unfold Cert.RefSpec.leakyN
  rw [← leakyV_eq]
  funext i
  obtain ⟨p, q, rfl⟩ : ∃ (p : Fin 16384) (q : Fin 2048), i = ix2 p q := ⟨i 0, i 1, eq_ix2 i⟩
  show Cert.KernelSpec.leaky ((x (ix2 p q) - muRow x (ix2 (0 : Fin 1) q))
        * Ideal.rsqrt (varRow x (ix2 (0 : Fin 1) q) + Ideal.ofBits .f32 0x3727C5AC#32)
        * shapeCast ⟨2, ![1, 2048]⟩ g hs (ix2 (0 : Fin 1) q) + shapeCast ⟨2, ![1, 2048]⟩ be hs (ix2 (0 : Fin 1) q))
      = Cert.KernelSpec.leaky (Cert.RefSpec.bn (F := Ideal) x g be (ix2 p q))
  refine congrArg Cert.KernelSpec.leaky ?_
  unfold Cert.RefSpec.bn
  rw [addf_apply, mulf_apply, mulf_apply, subf_apply, biasRows_apply, biasRows_apply, biasRows_apply, biasRows_apply,
    shapeCast_a_1a_apply, shapeCast_a_1a_apply]
  unfold Cert.KernelIdeal.Chain.varRow Cert.KernelIdeal.Chain.muRow
  rw [meanRow_apply, meanRow_apply, rowsOf_meanRow]
  unfold Host.rsqrt
  dsimp only
  rw [addf_apply, splat_apply, constant_apply, Ideal.hostUnary_rsqrt_def]

end Cert.Bridge

end
-- ==== Proof.BridgeNarrow.lean ====
/-
  The linear-map laws with the operands narrowed to bfloat16: on the extended reals narrowing is the identity, so the
  kernels' value functions of the narrowed arrays are the reference's host terms of the arrays themselves.
-/
import proofs.«114295_j84782654423394_1_alg».proof.Proof.BridgeLayers

noncomputable section

namespace Cert.Bridge

open Idealize.ShloMosaic Idealize.ShloMosaic.ValueIdx

variable {N D H : Nat}

theorem sage_narrow_eq (x nm : FVec Ideal ⟨2, ![N, D]⟩ .f32) (ws wn : FVec Ideal ⟨2, ![D, H]⟩ .f32) (b : FVec Ideal ⟨1, ![H]⟩ .f32)
    (d : DotDims ⟨2, ![N, D]⟩ ⟨2, ![D, H]⟩ ⟨2, ![N, H]⟩) (hd : d = DotDims.plain N D H)
    (hs : (⟨1, ![H]⟩ : Shape).ShapeCasts ⟨2, ![1, H]⟩)
    (h1 : (⟨1, ![H]⟩ : Shape).BroadcastsInDim ⟨2, ![1, H]⟩ (![1] : Fin 1 → Fin 2))
    (h2 : (⟨2, ![1, H]⟩ : Shape).BroadcastsInDim ⟨2, ![N, H]⟩ (![0, 1] : Fin 2 → Fin 2))
    (hb : FTy.bf16.bits < FTy.f32.bits) :
    Cert.KernelSpec.sageLin (φ₁ := .bf16) (φ₂ := .bf16) (truncf .bf16 x hb) (truncf .bf16 nm hb) (truncf .bf16 ws hb) (truncf .bf16 wn hb)
        (shapeCast ⟨2, ![1, H]⟩ b hs)
      = addf (addf (Host.dotGeneral d none x ws) (Host.dotGeneral d none nm wn))
          (broadcastInDim ⟨2, ![N, H]⟩ ![0, 1] h2 (broadcastInDim ⟨2, ![1, H]⟩ ![1] h1 b)) :=
  (show Cert.KernelSpec.sageLin (φ₁ := .bf16) (φ₂ := .bf16) (truncf .bf16 x hb) (truncf .bf16 nm hb) (truncf .bf16 ws hb)
      (truncf .bf16 wn hb) (shapeCast ⟨2, ![1, H]⟩ b hs)
    = Cert.KernelSpec.sageLin (φ₁ := .f32) (φ₂ := .f32) x nm ws wn (shapeCast ⟨2, ![1, H]⟩ b hs) from rfl).trans
    (sage_eq x nm ws wn b d hd hs h1 h2)

theorem dense_narrow_eq (x : FVec Ideal ⟨2, ![N, D]⟩ .f32) (w : FVec Ideal ⟨2, ![D, H]⟩ .f32) (b : FVec Ideal ⟨1, ![H]⟩ .f32)
    (d : DotDims ⟨2, ![N, D]⟩ ⟨2, ![D, H]⟩ ⟨2, ![N, H]⟩) (hd : d = DotDims.plain N D H)
    (hs : (⟨1, ![H]⟩ : Shape).ShapeCasts ⟨2, ![1, H]⟩)
    (h1 : (⟨1, ![H]⟩ : Shape).BroadcastsInDim ⟨2, ![1, H]⟩ (![1] : Fin 1 → Fin 2))
    (h2 : (⟨2, ![1, H]⟩ : Shape).BroadcastsInDim ⟨2, ![N, H]⟩ (![0, 1] : Fin 2 → Fin 2))
    (hb : FTy.bf16.bits < FTy.f32.bits) :
    Cert.KernelSpec.dense (φ₁ := .bf16) (φ₂ := .bf16) (truncf .bf16 x hb) (truncf .bf16 w hb) (shapeCast ⟨2, ![1, H]⟩ b hs)
      = addf (Host.dotGeneral d none x w) (broadcastInDim ⟨2, ![N, H]⟩ ![0, 1] h2 (broadcastInDim ⟨2, ![1, H]⟩ ![1] h1 b)) :=
  (show Cert.KernelSpec.dense (φ₁ := .bf16) (φ₂ := .bf16) (truncf .bf16 x hb) (truncf .bf16 w hb) (shapeCast ⟨2, ![1, H]⟩ b hs)
    = Cert.KernelSpec.dense (φ₁ := .f32) (φ₂ := .f32) x w (shapeCast ⟨2, ![1, H]⟩ b hs) from rfl).trans
    (dense_eq x w b d hd hs h1 h2)

end Cert.Bridge

end
-- ==== Proof.KStretch0.lean ====
import proofs.«114295_j84782654423394_1_alg».proof.Proof.Gen.KernelIdeal.Launch
import proofs.«114295_j84782654423394_1_alg».proof.Proof.Gen.ReferenceIdeal
import proofs.«114295_j84782654423394_1_alg».proof.Proof.RefSpec
import Idealize.ShloMosaic.Lib.StableHlo.Run

noncomputable section

namespace Cert.KernelIdeal.Chain

open Cert.KernelIdeal Cert.KernelIdeal.Gen Idealize.ShloMosaic Idealize.ShloMosaic.TcCoe Idealize.ShloMosaic.StableHlo

variable {F : FTy → Type} [FloatOps F] (Wv : Valuation τ sig (Elt F))

/-! The host operations before the first launch, read at an arbitrary entry valuation: the in-degree sum, the two
    feature matrices and the two weight matrices narrowed to bfloat16 (the neighbour mean among them), and the bias as
    a one-row matrix. -/

/-- The number of edges arriving at each node: ones scattered and summed at the edges' destination nodes. -/
def degSum [Cert.ReferenceIdeal.Facts] (dst : Cert.RefSpec.Arr F Cert.ReferenceIdeal.S65536 .i32) : Cert.RefSpec.Arr F Cert.ReferenceIdeal.S16384 .f32 :=
  Host.scatterAdd Cert.ReferenceIdeal.scatter_S16384_S65536x1_S65536_n_0_0_1
    (broadcastInDim Cert.ReferenceIdeal.S16384 ![] Cert.ReferenceIdeal.Facts₀.bcast_S_S16384 (constant Cert.ReferenceIdeal.S_ .f32 0x00000000#32))
    (broadcastInDim Cert.ReferenceIdeal.S65536x1 ![0] Cert.ReferenceIdeal.Facts₀.bcast_S65536_S65536x1_0 dst)
    (broadcastInDim Cert.ReferenceIdeal.S65536 ![] Cert.ReferenceIdeal.Facts₀.bcast_S_S65536 (constant Cert.ReferenceIdeal.S_ .f32 0x3F800000#32))

set_option maxHeartbeats 1000000 in
theorem s0_v3 : after hostOps0 Wv (Proc.devRef .tc main_v3) = degSum (Wv (Proc.devRef .tc main_arg2)) := by
  after_results_simp
  rfl

set_option maxHeartbeats 1000000 in
theorem s0_v19 : after hostOps0 Wv (Proc.devRef .tc main_v19) = truncf .bf16 (Wv (Proc.devRef .tc main_arg0)) bitsLt_bf16_f32 := by
  after_results_simp

set_option maxHeartbeats 1000000 in
theorem s0_v20 : after hostOps0 Wv (Proc.devRef .tc main_v20)
    = truncf .bf16 (Cert.RefSpec.neighMean63 (Wv (Proc.devRef .tc main_arg0)) (Wv (Proc.devRef .tc main_arg1)) (Wv (Proc.devRef .tc main_arg2))) bitsLt_bf16_f32 := by
  after_results_simp
  rfl

set_option maxHeartbeats 1000000 in
theorem s0_v21 : after hostOps0 Wv (Proc.devRef .tc main_v21) = truncf .bf16 (Wv (Proc.devRef .tc main_arg4)) bitsLt_bf16_f32 := by
  after_results_simp

set_option maxHeartbeats 1000000 in
theorem s0_v22 : after hostOps0 Wv (Proc.devRef .tc main_v22) = truncf .bf16 (Wv (Proc.devRef .tc main_arg5)) bitsLt_bf16_f32 := by
  after_results_simp

set_option maxHeartbeats 1000000 in
theorem s0_v23 : after hostOps0 Wv (Proc.devRef .tc main_v23) = shapeCast S1x2048 (Wv (Proc.devRef .tc main_arg6)) shapeCasts_S2048_S1x2048 := by
  after_results_simp
  rfl

end Cert.KernelIdeal.Chain

end
-- ==== Proof.KStretch1.lean ====
import proofs.«114295_j84782654423394_1_alg».proof.Proof.Gen.KernelIdeal.Launch
import proofs.«114295_j84782654423394_1_alg».proof.Proof.Gen.ReferenceIdeal
import proofs.«114295_j84782654423394_1_alg».proof.Proof.RefSpec
import Idealize.ShloMosaic.Lib.StableHlo.Run
import proofs.«114295_j84782654423394_1_alg».proof.Proof.KStats

noncomputable section

namespace Cert.KernelIdeal.Chain

open Cert.KernelIdeal Cert.KernelIdeal.Gen Idealize.ShloMosaic Idealize.ShloMosaic.TcCoe Idealize.ShloMosaic.StableHlo

variable {F : FTy → Type} [FloatOps F] (Wv : Valuation τ sig (Elt F))

/-! The host operations between a linear-map launch and its normalisation launch, read at an arbitrary entry valuation:
    the launch's output is left alone, its column means and variances are computed as one-row matrices, and the affine
    pair is reshaped to one-row matrices. -/

set_option maxHeartbeats 1000000 in
theorem s1_x : after hostOps1 Wv (Proc.devRef .tc main_v24) = Wv (Proc.devRef .tc main_v24) := by
  after_results_simp

set_option maxHeartbeats 1000000 in
theorem s1_mu : after hostOps1 Wv (Proc.devRef .tc main_v28) = muRow (Wv (Proc.devRef .tc main_v24)) := by
  after_results_simp
  rfl

set_option maxHeartbeats 1000000 in
theorem s1_var : after hostOps1 Wv (Proc.devRef .tc main_v35) = varRow (Wv (Proc.devRef .tc main_v24)) := by
  after_results_simp
  rfl

set_option maxHeartbeats 1000000 in
theorem s1_g : after hostOps1 Wv (Proc.devRef .tc main_v36) = shapeCast S1x2048 (Wv (Proc.devRef .tc main_arg13)) shapeCasts_S2048_S1x2048 := by
  after_results_simp
  rfl

set_option maxHeartbeats 1000000 in
theorem s1_be : after hostOps1 Wv (Proc.devRef .tc main_v37) = shapeCast S1x2048 (Wv (Proc.devRef .tc main_arg14)) shapeCasts_S2048_S1x2048 := by
  after_results_simp
  rfl

end Cert.KernelIdeal.Chain

end
-- ==== Proof.SagePayload.lean ====
/-
  The linear-map kernel's stored value, read at one entry.

  The body of the linear-map kernel multiplies its block of node rows by the self weights, its block of neighbour-mean
  rows by the neighbour weights (each product accumulated into a zero matrix), adds the two products and adds the bias
  row repeated down the rows. At row `p` and column `q` of the block this is
  `∑ k, x (p, k) · ws (k, q) + ∑ k, nm (p, k) · wn (k, q) + b (0, q)` on the extended reals: the casts to the same
  shape are the identity, a product into zero is the sum over the contracted coordinate, and the repeated row reads
  its one row. Stated for the three launches of the kernel (inner width 63 once, 2048 twice).
-/
import proofs.«114295_j84782654423394_1_alg».proof.Proof.Gen.KernelIdeal.Skeleton
import proofs.«114295_j84782654423394_1_alg».proof.Proof.LibPlainProduct
import Idealize.ShloMosaic.Lib.ValueLayout

noncomputable section

namespace Cert.KernelIdeal.RegionValue

open Cert.KernelIdeal Cert.KernelIdeal.Gen
open Idealize.ShloMosaic Idealize.ShloMosaic.ValueIdx

/-- The first launch's stored value at row `p`, column `q`: inner width 63. -/
theorem pay0_apply (v0 : FVec Ideal S512x63 .bf16) (v2 : FVec Ideal S63x2048 .bf16) (v5 : FVec Ideal S512x63 .bf16)
    (v7 : FVec Ideal S63x2048 .bf16) (v11 : FVec Ideal S1x2048 .f32) (p : Fin 512) (q : Fin 2048) :
    k0_pay1 (F := Ideal) v0 v2 v5 v7 v11 (ix2 p q)
      = (∑ k : Fin 63, v0 (ix2 p k) * v2 (ix2 k q)) + (∑ k : Fin 63, v5 (ix2 p k) * v7 (ix2 k q))
        + v11 (ix2 (0 : Fin 1) q) := by
  have hd : dot_S512x63_S63x2048_S512x2048_1_0_0_1_n_n = DotDims.plain 512 63 2048 := rfl
  unfold k0_pay1
  simp only [shapeCast_self]
  rw [addf_apply, addf_apply, hd, Cert.LibPlainProduct.matmul_plain_zero_apply,
    Cert.LibPlainProduct.matmul_plain_zero_apply, broadcastTo_1b_ab_apply]

/-- The second launch's stored value at row `p`, column `q`: inner width 2048. -/
theorem pay2_apply (v0 : FVec Ideal S512x2048 .bf16) (v2 : FVec Ideal S2048x2048 .bf16) (v5 : FVec Ideal S512x2048 .bf16)
    (v7 : FVec Ideal S2048x2048 .bf16) (v11 : FVec Ideal S1x2048 .f32) (p : Fin 512) (q : Fin 2048) :
    k2_pay1 (F := Ideal) v0 v2 v5 v7 v11 (ix2 p q)
      = (∑ k : Fin 2048, v0 (ix2 p k) * v2 (ix2 k q)) + (∑ k : Fin 2048, v5 (ix2 p k) * v7 (ix2 k q))
        + v11 (ix2 (0 : Fin 1) q) := by
  have hd : dot_S512x2048_S2048x2048_S512x2048_1_0_0_1_n_n = DotDims.plain 512 2048 2048 := rfl
  unfold k2_pay1
  simp only [shapeCast_self]
  rw [addf_apply, addf_apply, hd, Cert.LibPlainProduct.matmul_plain_zero_apply,
    Cert.LibPlainProduct.matmul_plain_zero_apply, broadcastTo_1b_ab_apply]

/-- The third launch's stored value at row `p`, column `q`: inner width 2048. -/
theorem pay4_apply (v0 : FVec Ideal S512x2048 .bf16) (v2 : FVec Ideal S2048x2048 .bf16) (v5 : FVec Ideal S512x2048 .bf16)
    (v7 : FVec Ideal S2048x2048 .bf16) (v11 : FVec Ideal S1x2048 .f32) (p : Fin 512) (q : Fin 2048) :
    k4_pay1 (F := Ideal) v0 v2 v5 v7 v11 (ix2 p q)
      = (∑ k : Fin 2048, v0 (ix2 p k) * v2 (ix2 k q)) + (∑ k : Fin 2048, v5 (ix2 p k) * v7 (ix2 k q))
        + v11 (ix2 (0 : Fin 1) q) := by
  have hd : dot_S512x2048_S2048x2048_S512x2048_1_0_0_1_n_n = DotDims.plain 512 2048 2048 := rfl
  unfold k4_pay1
  simp only [shapeCast_self]
  rw [addf_apply, addf_apply, hd, Cert.LibPlainProduct.matmul_plain_zero_apply,
    Cert.LibPlainProduct.matmul_plain_zero_apply, broadcastTo_1b_ab_apply]

end Cert.KernelIdeal.RegionValue

end
-- ==== Proof.RegionSage63.lean ====
/-
  The first launch of the linear-map kernel: what it leaves in its output array.

  The launch walks a grid of 32 points. At point `t` it stages rows `512·t … 512·t + 511` of the node features and of
  the neighbour means, the whole of both weight matrices and the whole bias row, and writes back rows
  `512·t … 512·t + 511` of the output. What the body leaves at row `p`, column `q` of the staged output block is
  `∑ k, x (512·t + p, k) · ws (k, q) + ∑ k, nm (512·t + p, k) · wn (k, q) + b (0, q)`, which is the entry at row
  `512·t + p`, column `q` of the whole-array function `sageLin`. The 32 row blocks tile the 16384 rows (row `r` is in
  block `r / 512`), so the output array ends holding `sageLin` of the five operand arrays as the launch finds them.
-/
import proofs.«114295_j84782654423394_1_alg».proof.Proof.Gen.KernelIdeal.Frame
import proofs.«114295_j84782654423394_1_alg».proof.Proof.SagePayload
import proofs.«114295_j84782654423394_1_alg».proof.Proof.KernelSpec
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, spelt as a constant function. -/
theorem zero_offsets : (![0, 0] : Fin 2 → Nat) = fun _ => 0 := funext fun a => by fin_cases a <;> rfl

/-- What the body leaves in the staged output block at row `p`, column `q`, from the five staged input blocks: its one
    store covers the block and its loads read whole blocks. -/
theorem out0_5_apply (x0 x1 : Vec Ideal S512x63 .bf16) (x2 x3 : Vec Ideal S63x2048 .bf16) (x4 : Vec Ideal S1x2048 .f32)
    (p : Fin 512) (q : Fin 2048) :
    out0_5 (F := Ideal) x0 x1 x2 x3 x4 (ix2 p q)
      = (∑ k : Fin 63, x0 (ix2 p k) * x2 (ix2 k q)) + (∑ k : Fin 63, x1 (ix2 p k) * x3 (ix2 k q))
        + x4 (ix2 (0 : Fin 1) q) := by
  unfold out0_5
  rw [View.canon_unit_zero zero_offsets]
  simp only [View.ld_unit_zero (S := S512x63) zero_offsets, View.ld_unit_zero (S := S63x2048) zero_offsets,
    View.ld_unit_zero (S := S1x2048) zero_offsets]
  exact pay0_apply x0 x2 x1 x3 x4 p q

/-- The block index of each window at each grid point: the two row-tiled inputs and the output move with the point along
    the rows, the weights and the bias row stay at block 0. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The staged block of node features at point `t`, read at row `p`, is row `512·t + p` of the array. -/
theorem iblk0_0_apply (c : Dev nD) (t : Fin cfg0.N) (p : Fin 512) (k : Fin 63) (r : Fin 16384)
    (hr : r.val = t.val * 512 + p.val) :
    (iblk0 V c 0 t : Vec Ideal S512x63 .bf16) (ix2 p k) = (V c main_v19 : Vec Ideal S16384x63 .bf16) (ix2 r k) := by
  obtain ⟨e0, e1, -⟩ := index0 t
  unfold iblk0
  rw [View.read_apply]
  show V c main_v19 _ = V c main_v19 _
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 63 + 1 * k.val = k.val; rw [e1]; omega

/-- The staged block of neighbour means at point `t`, read at row `p`, is row `512·t + p` of the array. -/
theorem iblk0_1_apply (c : Dev nD) (t : Fin cfg0.N) (p : Fin 512) (k : Fin 63) (r : Fin 16384)
    (hr : r.val = t.val * 512 + p.val) :
    (iblk0 V c 1 t : Vec Ideal S512x63 .bf16) (ix2 p k) = (V c main_v20 : Vec Ideal S16384x63 .bf16) (ix2 r k) := by
  obtain ⟨-, -, e0, e1, -⟩ := index0 t
  unfold iblk0
  rw [View.read_apply]
  show V c main_v20 _ = V c main_v20 _
  refine congrArg _ (funext fun a => Fin.ext ?_)
  match a with
  | ⟨0, _⟩ => show win0_1.index t (0 : Fin 2) * 512 + 1 * p.val = r.val; rw [e0, hr]; omega
  | ⟨1, _⟩ => show win0_1.index t (1 : Fin 2) * 63 + 1 * k.val = k.val; rw [e1]; omega

/-- The staged self weights at any point are the whole array. -/
theorem iblk0_2_eq (c : Dev nD) (t : Fin cfg0.N) :
    (iblk0 V c 2 t : Vec Ideal S63x2048 .bf16) = (V c main_v21 : Vec Ideal S63x2048 .bf16) := by
  obtain ⟨-, -, -, -, e0, e1, -⟩ := index0 t
  funext x
  unfold iblk0
  rw [View.read_apply]
  show V c main_v21 _ = V c main_v21 _
  refine congrArg _ (funext fun a => Fin.ext ?_)
  match a with
  | ⟨0, _⟩ => show win0_2.index t (0 : Fin 2) * 63 + 1 * (x 0).val = (x 0).val; rw [e0]; omega
  | ⟨1, _⟩ => show win0_2.index t (1 : Fin 2) * 2048 + 1 * (x 1).val = (x 1).val; rw [e1]; omega

/-- The staged neighbour weights at any point are the whole array. -/
theorem iblk0_3_eq (c : Dev nD) (t : Fin cfg0.N) :
    (iblk0 V c 3 t : Vec Ideal S63x2048 .bf16) = (V c main_v22 : Vec Ideal S63x2048 .bf16) := by
  obtain ⟨-, -, -, -, -, -, e0, e1, -⟩ := index0 t
  funext x
  unfold iblk0
  rw [View.read_apply]
  show V c main_v22 _ = V c main_v22 _
  refine congrArg _ (funext fun a => Fin.ext ?_)
  match a with
  | ⟨0, _⟩ => show win0_3.index t (0 : Fin 2) * 63 + 1 * (x 0).val = (x 0).val; rw [e0]; omega
  | ⟨1, _⟩ => show win0_3.index t (1 : Fin 2) * 2048 + 1 * (x 1).val = (x 1).val; rw [e1]; omega

/-- The staged bias row at any point is the whole array. -/
theorem iblk0_4_eq (c : Dev nD) (t : Fin cfg0.N) :
    (iblk0 V c 4 t : Vec Ideal S1x2048 .f32) = (V c main_v23 : Vec Ideal S1x2048 .f32) := by
  obtain ⟨-, -, -, -, -, -, -, -, e0, e1, -⟩ := index0 t
  funext x
  unfold iblk0
  rw [View.read_apply]
  show V c main_v23 _ = V c main_v23 _
  refine congrArg _ (funext fun a => Fin.ext ?_)
  match a with
  | ⟨0, _⟩ => show win0_4.index t (0 : Fin 2) * 1 + 1 * (x 0).val = (x 0).val; rw [e0]; omega
  | ⟨1, _⟩ => show win0_4.index t (1 : Fin 2) * 2048 + 1 * (x 1).val = (x 1).val; rw [e1]; omega

/-- What point `t` writes back is block `t` of `sageLin` of the operand arrays as the launch finds them. -/
theorem flushed0_eq (c : Dev nD) (t : Fin cfg0.N) :
    (dat0 (F := Ideal) V c).flushed 5 t = ((cfg0.win 5).blk t).view.read (Elt Ideal)
      (Cert.KernelSpec.sageLin (φ₁ := .bf16) (φ₂ := .bf16) (V c main_v19) (V c main_v20) (V c main_v21) (V c main_v22)
        (V c main_v23)) := by
  show (cfg0.win 5).cut (grid0.coords t) ((dat0 V c).after 5 t) = _
  rw [after0_5]
  funext j
  have hp : (j 0).val < 512 := (j 0).isLt
  have hq : (j 1).val < 2048 := (j 1).isLt
  have hj : win0_5.xinj (grid0.coords t) j = ix2 (⟨(j 0).val, hp⟩ : Fin 512) (⟨(j 1).val, hq⟩ : Fin 2048) := by
    funext a; apply Fin.ext
    match a with
    | ⟨0, _⟩ => rfl
    | ⟨1, _⟩ => rfl
  show out0_5 (iblk0 V c 0 t) (iblk0 V c 1 t) (iblk0 V c 2 t) (iblk0 V c 3 t) (iblk0 V c 4 t)
    (win0_5.xinj (grid0.coords t) j) = _
  rw [hj, out0_5_apply (iblk0 V c 0 t) (iblk0 V c 1 t) (iblk0 V c 2 t) (iblk0 V c 3 t) (iblk0 V c 4 t), View.read_apply]
  obtain ⟨r, s, hi⟩ : ∃ (r : Fin 16384) (s : Fin 2048),
      (((cfg0.win 5).blk t).view.emb j : S16384x2048.Idx) = ix2 r s := ⟨_, _, eq_ix2 _⟩
  obtain ⟨-, -, -, -, -, -, -, -, -, -, e0, e1⟩ := index0 t
  have hr : win0_5.index t (0 : Fin 2) * 512 + 1 * (j 0).val = r.val :=
    congrArg (fun i : S16384x2048.Idx => (i 0).val) hi
  have hs : win0_5.index t (1 : Fin 2) * 2048 + 1 * (j 1).val = s.val :=
    congrArg (fun i : S16384x2048.Idx => (i 1).val) hi
  rw [e0] at hr
  rw [e1] at hs
  obtain rfl : s = ⟨(j 1).val, hq⟩ := Fin.ext (by show s.val = (j 1).val; omega)
  show _ = Cert.KernelSpec.sageLin (φ₁ := .bf16) (φ₂ := .bf16) (V c main_v19) (V c main_v20) (V c main_v21)
    (V c main_v22) (V c main_v23) (((cfg0.win 5).blk t).view.emb j : S16384x2048.Idx)
  rw [hi]
  exact congrArg₂ (· + ·) (congrArg₂ (· + ·)
    (Finset.sum_congr rfl fun k _ => congrArg₂ (· * ·) (iblk0_0_apply V c t ⟨_, hp⟩ k r (by show r.val = t.val * 512 + (j 0).val; omega))
      (congrFun (iblk0_2_eq V c t) _))
    (Finset.sum_congr rfl fun k _ => congrArg₂ (· * ·) (iblk0_1_apply V c t ⟨_, hp⟩ k r (by show r.val = t.val * 512 + (j 0).val; omega))
      (congrFun (iblk0_3_eq V c t) _)))
    (congrFun (iblk0_4_eq V c t) _)

/-- An index of the output array is in point `t`'s block iff each coordinate is in the block's range on its axis. -/
theorem mem_blk0 (t : Fin cfg0.N) (i : S16384x2048.Idx) :
    i ∈ ((cfg0.win 5).blk t).view.set ↔ ∀ a : Fin 2, win0_5.index t a * S512x2048.size a ≤ (i a).val
      ∧ (i a).val < win0_5.index t a * S512x2048.size a + S512x2048.size a := by
  show i ∈ ((View.whole main_v24).slice (win0_5.rect t)).set ↔ _
  rw [View.set_slice_whole, Rect.mem_set_unit]
  exact Iff.rfl

/-- The 32 row blocks tile the array: row `r` is in the block of point `r / 512`, and every point writes back. -/
theorem cover0 (i : S16384x2048.Idx) :
    ∃ t : Fin cfg0.N, (cfg0.win 5).flush t = true ∧ i ∈ ((cfg0.win 5).blk t).view.set := by
  have hi0 : (i 0).val < 16384 := (i 0).isLt
  have hi1 : (i 1).val < 2048 := (i 1).isLt
  have hN : cfg0.N = 32 := N_0
  have ht : (i 0).val / 512 < cfg0.N := by rw [hN]; omega
  obtain ⟨-, -, -, -, -, -, -, -, -, -, e0, e1⟩ := index0 ⟨(i 0).val / 512, ht⟩
  refine ⟨⟨(i 0).val / 512, ht⟩, flush0_5 _, ?_⟩
  rw [mem_blk0]
  intro a
  match a with
  | ⟨0, _⟩ =>
    show win0_5.index ⟨(i 0).val / 512, ht⟩ (0 : Fin 2) * 512 ≤ (i 0).val
      ∧ (i 0).val < win0_5.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_5.index ⟨(i 0).val / 512, ht⟩ (1 : Fin 2) * 2048 ≤ (i 1).val
      ∧ (i 1).val < win0_5.index ⟨(i 0).val / 512, ht⟩ (1 : Fin 2) * 2048 + 2048
    rw [e1]; omega

/-- The output array after the first launch is `sageLin` of the five operand arrays as the launch finds them. -/
theorem arr0 (c : Dev nD) : (dat0 (F := Ideal) V c).arrAt 5 cfg0.N
    = Cert.KernelSpec.sageLin (φ₁ := .bf16) (φ₂ := .bf16) (V c main_v19) (V c main_v20) (V c main_v21) (V c main_v22)
        (V c main_v23) :=
  (dat0 V c).arrAt_eq_of_cover 5 _ (fun t _ => flushed0_eq V c t) cover0

end Cert.KernelIdeal.RegionValue

end
-- ==== Proof.RegionBn.lean ====
/-
  What each launch of the normalise-and-rectify kernel leaves in its output array.

  The kernel's body, on one block of 512 rows, subtracts the column means, multiplies by the reciprocal square root of
  the column variances plus the stabiliser, scales and shifts by the affine pair, and applies the leaky rectifier: every
  entry of the block depends only on the same entry of the input block and on the four statistics rows at its column.
  The 32 grid points tile the 16384 rows in blocks of 512, and the four statistics rows are whole-array windows, so the
  block written back at point `t` is rows `512 t … 512 t + 511` of ONE whole-array function of the five operands,
  `KernelSpec.bnLeaky`; the blocks cover every row (row `r` is in block `r / 512`), hence the output array ends
  holding that function.
-/
import proofs.«114295_j84782654423394_1_alg».proof.Proof.Gen.KernelIdeal.Frame
import proofs.«114295_j84782654423394_1_alg».proof.Proof.KernelSpec
import Idealize.ShloMosaic.Lib.Pipeline.Value
import Idealize.ShloMosaic.Lib.ValueLayout

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-- The body's result at row `p`, column `q` of a block: the normalised, scaled, shifted and rectified entry. -/
theorem bn_pay_apply (v0 : Vec Ideal S512x2048 .f32) (v2 v6 v13 v17 : Vec Ideal S1x2048 .f32) (p : Fin 512) (q : Fin 2048) :
    k1_pay1 (F := Ideal) v0 v2 v6 v13 v17 (ix2 p q)
      = Cert.KernelSpec.leaky ((v0 (ix2 p q) - v2 (ix2 0 q))
          * Ideal.rsqrt (v6 (ix2 0 q) + Ideal.ofBits .f32 0x3727C5AC#32) * v13 (ix2 0 q) + v17 (ix2 0 q)) := by
  unfold k1_pay1
  simp only [shapeCast_self]
  simp only [select_apply, cmpf_apply, mulf_apply, addf_apply, subf_apply, broadcast_apply, broadcastTo_1b_ab_apply]
  rfl

/-- The zero offset vector of the body's whole-block accesses. -/
theorem hz : (![0, 0] : Fin 2 → Nat) = fun _ => 0 := funext fun a => by fin_cases a <;> rfl

variable (V : (c : Dev nD) → (b : Ref sig .tc) → Buf (Elt Ideal) ((c : Thread nD τ).loc b))

/-! ## Region 1 -/

/-- The block indices over the grid: the input rows and the output rows move together, block `t` at point `t`, all
    columns at once; the four statistics rows stay at block zero. -/
theorem bn1_idx : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row `p` of block `t` is row `512 t + p` of the array. -/
theorem bn1_row_lt (t : Fin cfg1.N) (p : Fin 512) : t.val * 512 + p.val < 16384 := by
  have ht : t.val < 32 := Nat.lt_of_lt_of_eq t.isLt N_1
  have hp := p.isLt
  omega

/-- Where an entry of the input block at point `t` sits in the input array. -/
theorem bn1_emb0 (t : Fin cfg1.N) (p : Fin 512) (q : Fin 2048) :
    ((cfg1.win 0).blk t).view.emb (ix2 p q) = ix2 (⟨t.val * 512 + p.val, bn1_row_lt t p⟩ : Fin 16384) q := by
  obtain ⟨e0, e1, -⟩ := bn1_idx t
  funext a; apply Fin.ext
  match a with
  | ⟨0, _⟩ => show win1_0.index t (0 : Fin 2) * 512 + 1 * p.val = t.val * 512 + p.val; rw [e0]; omega
  | ⟨1, _⟩ => show win1_0.index t (1 : Fin 2) * 2048 + 1 * q.val = q.val; rw [e1]; omega

/-- Where an entry of the output block at point `t` sits in the output array: the same place. -/
theorem bn1_emb5 (t : Fin cfg1.N) (p : Fin 512) (q : Fin 2048) :
    ((cfg1.win 5).blk t).view.emb (ix2 p q) = ix2 (⟨t.val * 512 + p.val, bn1_row_lt t p⟩ : Fin 16384) q := by
  obtain ⟨-, -, e0, e1, -⟩ := bn1_idx t
  funext a; apply Fin.ext
  match a with
  | ⟨0, _⟩ => show win1_5.index t (0 : Fin 2) * 512 + 1 * p.val = t.val * 512 + p.val; rw [e0]; omega
  | ⟨1, _⟩ => show win1_5.index t (1 : Fin 2) * 2048 + 1 * q.val = q.val; rw [e1]; omega

/-- The block of a statistics row at any point is the row itself. -/
theorem bn1_emb1 (t : Fin cfg1.N) (q : Fin 2048) : ((cfg1.win 1).blk t).view.emb (ix2 (0 : Fin 1) q) = ix2 (0 : Fin 1) q := by
  obtain ⟨-, -, -, -, e0, e1, -⟩ := bn1_idx t
  funext a; apply Fin.ext
  match a with
  | ⟨0, _⟩ => show win1_1.index t (0 : Fin 2) * 1 + 1 * 0 = 0; rw [e0]
  | ⟨1, _⟩ => show win1_1.index t (1 : Fin 2) * 2048 + 1 * q.val = q.val; rw [e1]; omega
theorem bn1_emb2 (t : Fin cfg1.N) (q : Fin 2048) : ((cfg1.win 2).blk t).view.emb (ix2 (0 : Fin 1) q) = ix2 (0 : Fin 1) q := by
  obtain ⟨-, -, -, -, -, -, e0, e1, -⟩ := bn1_idx t
  funext a; apply Fin.ext
  match a with
  | ⟨0, _⟩ => show win1_2.index t (0 : Fin 2) * 1 + 1 * 0 = 0; rw [e0]
  | ⟨1, _⟩ => show win1_2.index t (1 : Fin 2) * 2048 + 1 * q.val = q.val; rw [e1]; omega
theorem bn1_emb3 (t : Fin cfg1.N) (q : Fin 2048) : ((cfg1.win 3).blk t).view.emb (ix2 (0 : Fin 1) q) = ix2 (0 : Fin 1) q := by
  obtain ⟨-, -, -, -, -, -, -, -, e0, e1, -⟩ := bn1_idx t
  funext a; apply Fin.ext
  match a with
  | ⟨0, _⟩ => show win1_3.index t (0 : Fin 2) * 1 + 1 * 0 = 0; rw [e0]
  | ⟨1, _⟩ => show win1_3.index t (1 : Fin 2) * 2048 + 1 * q.val = q.val; rw [e1]; omega
theorem bn1_emb4 (t : Fin cfg1.N) (q : Fin 2048) : ((cfg1.win 4).blk t).view.emb (ix2 (0 : Fin 1) q) = ix2 (0 : Fin 1) q := by
  obtain ⟨-, -, -, -, -, -, -, -, -, -, e0, e1⟩ := bn1_idx t
  funext a; apply Fin.ext
  match a with
  | ⟨0, _⟩ => show win1_4.index t (0 : Fin 2) * 1 + 1 * 0 = 0; rw [e0]
  | ⟨1, _⟩ => show win1_4.index t (1 : Fin 2) * 2048 + 1 * q.val = q.val; rw [e1]; omega

/-- The input block at point `t`, entry by entry: rows `512 t …` of the input array. -/
theorem bn1_blk0 (c : Dev nD) (t : Fin cfg1.N) (p : Fin 512) (q : Fin 2048) :
    iblk1 V c 0 t (ix2 p q) = V c main_v24 (ix2 (⟨t.val * 512 + p.val, bn1_row_lt t p⟩ : Fin 16384) q) := by
  show V c main_v24 (((cfg1.win 0).blk t).view.emb (ix2 p q)) = _
  rw [bn1_emb0]
/-- Each statistics block is its whole row. -/
theorem bn1_blk1 (c : Dev nD) (t : Fin cfg1.N) (q : Fin 2048) : iblk1 V c 1 t (ix2 (0 : Fin 1) q) = V c main_v28 (ix2 (0 : Fin 1) q) := by
  show V c main_v28 (((cfg1.win 1).blk t).view.emb (ix2 (0 : Fin 1) q)) = _
  rw [bn1_emb1]
theorem bn1_blk2 (c : Dev nD) (t : Fin cfg1.N) (q : Fin 2048) : iblk1 V c 2 t (ix2 (0 : Fin 1) q) = V c main_v35 (ix2 (0 : Fin 1) q) := by
  show V c main_v35 (((cfg1.win 2).blk t).view.emb (ix2 (0 : Fin 1) q)) = _
  rw [bn1_emb2]
theorem bn1_blk3 (c : Dev nD) (t : Fin cfg1.N) (q : Fin 2048) : iblk1 V c 3 t (ix2 (0 : Fin 1) q) = V c main_v36 (ix2 (0 : Fin 1) q) := by
  show V c main_v36 (((cfg1.win 3).blk t).view.emb (ix2 (0 : Fin 1) q)) = _
  rw [bn1_emb3]
theorem bn1_blk4 (c : Dev nD) (t : Fin cfg1.N) (q : Fin 2048) : iblk1 V c 4 t (ix2 (0 : Fin 1) q) = V c main_v37 (ix2 (0 : Fin 1) q) := by
  show V c main_v37 (((cfg1.win 4).blk t).view.emb (ix2 (0 : Fin 1) q)) = _
  rw [bn1_emb4]

/-- What point `t` writes back is block `t` of the whole-array function of the five operands. -/
theorem bn1_flushed (c : Dev nD) (t : Fin cfg1.N) :
    (dat1 (F := Ideal) V c).flushed 5 t = ((cfg1.win 5).blk t).view.read (Elt Ideal)
      (Cert.KernelSpec.bnLeaky (N := 16384) (H := 2048) (V c main_v24) (V c main_v28) (V c main_v35) (V c main_v36) (V c main_v37)) := by
  show (cfg1.win 5).cut (grid1.coords t) ((dat1 V c).after 5 t) = _
  rw [after1_5]
  unfold out1_5
  rw [View.canon_unit_zero hz]
  simp only [View.ld_unit_zero (S := S512x2048) hz, View.ld_unit_zero (S := S1x2048) hz]
  funext j
  obtain ⟨p, q, rfl⟩ : ∃ (p : Fin 512) (q : Fin 2048), j = ix2 p q := ⟨j 0, j 1, eq_ix2 j⟩
  show k1_pay1 (iblk1 V c 0 t) (iblk1 V c 1 t) (iblk1 V c 2 t) (iblk1 V c 3 t) (iblk1 V c 4 t) (ix2 p q)
    = Cert.KernelSpec.bnLeaky (N := 16384) (H := 2048) (V c main_v24) (V c main_v28) (V c main_v35) (V c main_v36) (V c main_v37)
        (((cfg1.win 5).blk t).view.emb (ix2 p q))
  rw [bn1_emb5]
  refine (bn_pay_apply (iblk1 V c 0 t) (iblk1 V c 1 t) (iblk1 V c 2 t) (iblk1 V c 3 t) (iblk1 V c 4 t) p q).trans ?_
  rw [bn1_blk0, bn1_blk1, bn1_blk2, bn1_blk3, bn1_blk4]
  rfl

/-- An index of the output array is in point `t`'s block iff each coordinate is in the block's range on its axis. -/
theorem bn1_mem_blk (t : Fin cfg1.N) (i : S16384x2048.Idx) :
    i ∈ ((cfg1.win 5).blk t).view.set ↔ ∀ a : Fin 2, win1_5.index t a * S512x2048.size a ≤ (i a).val
      ∧ (i a).val < win1_5.index t a * S512x2048.size a + S512x2048.size a := by
  show i ∈ ((View.whole main_v38).slice (win1_5.rect t)).set ↔ _
  rw [View.set_slice_whole, Rect.mem_set_unit]
  exact Iff.rfl

/-- Every row of the output array is in some point's block: row `r` in block `r / 512`. -/
theorem bn1_cover (i : S16384x2048.Idx) :
    ∃ t : Fin cfg1.N, (cfg1.win 5).flush t = true ∧ i ∈ ((cfg1.win 5).blk t).view.set := by
  have hi0 : (i 0).val < 16384 := (i 0).isLt
  have hi1 : (i 1).val < 2048 := (i 1).isLt
  have hN : cfg1.N = 32 := N_1
  obtain ⟨t, ht⟩ : ∃ t : Fin cfg1.N, t.val = (i 0).val / 512 := ⟨⟨(i 0).val / 512, by rw [hN]; omega⟩, rfl⟩
  obtain ⟨-, -, e0, e1, -⟩ := bn1_idx t
  refine ⟨t, flush1_5 t, ?_⟩
  rw [bn1_mem_blk]
  intro a
  match a with
  | ⟨0, _⟩ =>
    show win1_5.index t (0 : Fin 2) * 512 ≤ (i 0).val ∧ (i 0).val < win1_5.index t (0 : Fin 2) * 512 + 512
    rw [e0, ht]; omega
  | ⟨1, _⟩ =>
    show win1_5.index t (1 : Fin 2) * 2048 ≤ (i 1).val ∧ (i 1).val < win1_5.index t (1 : Fin 2) * 2048 + 2048
    rw [e1]; omega

/-- The first launch's output array after its run: the normalised and rectified input, entry by entry. -/
theorem arr1 (c : Dev nD) : (dat1 (F := Ideal) V c).arrAt 5 cfg1.N
    = Cert.KernelSpec.bnLeaky (N := 16384) (H := 2048) (V c main_v24) (V c main_v28) (V c main_v35) (V c main_v36) (V c main_v37) :=
  (dat1 V c).arrAt_eq_of_cover 5 _ (fun t _ => bn1_flushed V c t) bn1_cover

/-! ## Region 3 -/

/-- The body of this launch is the same function of its blocks as the first launch's. -/
theorem bn3_pay_apply (v0 : Vec Ideal S512x2048 .f32) (v2 v6 v13 v17 : Vec Ideal S1x2048 .f32) (p : Fin 512) (q : Fin 2048) :
    k3_pay1 (F := Ideal) v0 v2 v6 v13 v17 (ix2 p q)
      = Cert.KernelSpec.leaky ((v0 (ix2 p q) - v2 (ix2 0 q))
          * Ideal.rsqrt (v6 (ix2 0 q) + Ideal.ofBits .f32 0x3727C5AC#32) * v13 (ix2 0 q) + v17 (ix2 0 q)) :=
  bn_pay_apply v0 v2 v6 v13 v17 p q

/-- The block indices over the grid: the input rows and the output rows move together, block `t` at point `t`, all
    columns at once; the four statistics rows stay at block zero. -/
theorem bn3_idx : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Row `p` of block `t` is row `512 t + p` of the array. -/
theorem bn3_row_lt (t : Fin cfg3.N) (p : Fin 512) : t.val * 512 + p.val < 16384 := by
  have ht : t.val < 32 := Nat.lt_of_lt_of_eq t.isLt N_3
  have hp := p.isLt
  omega

/-- Where an entry of the input block at point `t` sits in the input array. -/
theorem bn3_emb0 (t : Fin cfg3.N) (p : Fin 512) (q : Fin 2048) :
    ((cfg3.win 0).blk t).view.emb (ix2 p q) = ix2 (⟨t.val * 512 + p.val, bn3_row_lt t p⟩ : Fin 16384) q := by
  obtain ⟨e0, e1, -⟩ := bn3_idx t
  funext a; apply Fin.ext
  match a with
  | ⟨0, _⟩ => show win3_0.index t (0 : Fin 2) * 512 + 1 * p.val = t.val * 512 + p.val; rw [e0]; omega
  | ⟨1, _⟩ => show win3_0.index t (1 : Fin 2) * 2048 + 1 * q.val = q.val; rw [e1]; omega

/-- Where an entry of the output block at point `t` sits in the output array: the same place. -/
theorem bn3_emb5 (t : Fin cfg3.N) (p : Fin 512) (q : Fin 2048) :
    ((cfg3.win 5).blk t).view.emb (ix2 p q) = ix2 (⟨t.val * 512 + p.val, bn3_row_lt t p⟩ : Fin 16384) q := by
  obtain ⟨-, -, e0, e1, -⟩ := bn3_idx t
  funext a; apply Fin.ext
  match a with
  | ⟨0, _⟩ => show win3_5.index t (0 : Fin 2) * 512 + 1 * p.val = t.val * 512 + p.val; rw [e0]; omega
  | ⟨1, _⟩ => show win3_5.index t (1 : Fin 2) * 2048 + 1 * q.val = q.val; rw [e1]; omega

/-- The block of a statistics row at any point is the row itself. -/
theorem bn3_emb1 (t : Fin cfg3.N) (q : Fin 2048) : ((cfg3.win 1).blk t).view.emb (ix2 (0 : Fin 1) q) = ix2 (0 : Fin 1) q := by
  obtain ⟨-, -, -, -, e0, e1, -⟩ := bn3_idx t
  funext a; apply Fin.ext
  match a with
  | ⟨0, _⟩ => show win3_1.index t (0 : Fin 2) * 1 + 1 * 0 = 0; rw [e0]
  | ⟨1, _⟩ => show win3_1.index t (1 : Fin 2) * 2048 + 1 * q.val = q.val; rw [e1]; omega
theorem bn3_emb2 (t : Fin cfg3.N) (q : Fin 2048) : ((cfg3.win 2).blk t).view.emb (ix2 (0 : Fin 1) q) = ix2 (0 : Fin 1) q := by
  obtain ⟨-, -, -, -, -, -, e0, e1, -⟩ := bn3_idx t
  funext a; apply Fin.ext
  match a with
  | ⟨0, _⟩ => show win3_2.index t (0 : Fin 2) * 1 + 1 * 0 = 0; rw [e0]
  | ⟨1, _⟩ => show win3_2.index t (1 : Fin 2) * 2048 + 1 * q.val = q.val; rw [e1]; omega
theorem bn3_emb3 (t : Fin cfg3.N) (q : Fin 2048) : ((cfg3.win 3).blk t).view.emb (ix2 (0 : Fin 1) q) = ix2 (0 : Fin 1) q := by
  obtain ⟨-, -, -, -, -, -, -, -, e0, e1, -⟩ := bn3_idx t
  funext a; apply Fin.ext
  match a with
  | ⟨0, _⟩ => show win3_3.index t (0 : Fin 2) * 1 + 1 * 0 = 0; rw [e0]
  | ⟨1, _⟩ => show win3_3.index t (1 : Fin 2) * 2048 + 1 * q.val = q.val; rw [e1]; omega
theorem bn3_emb4 (t : Fin cfg3.N) (q : Fin 2048) : ((cfg3.win 4).blk t).view.emb (ix2 (0 : Fin 1) q) = ix2 (0 : Fin 1) q := by
  obtain ⟨-, -, -, -, -, -, -, -, -, -, e0, e1⟩ := bn3_idx t
  funext a; apply Fin.ext
  match a with
  | ⟨0, _⟩ => show win3_4.index t (0 : Fin 2) * 1 + 1 * 0 = 0; rw [e0]
  | ⟨1, _⟩ => show win3_4.index t (1 : Fin 2) * 2048 + 1 * q.val = q.val; rw [e1]; omega

/-- The input block at point `t`, entry by entry: rows `512 t …` of the input array. -/
theorem bn3_blk0 (c : Dev nD) (t : Fin cfg3.N) (p : Fin 512) (q : Fin 2048) :
    iblk3 V c 0 t (ix2 p q) = V c main_v59 (ix2 (⟨t.val * 512 + p.val, bn3_row_lt t p⟩ : Fin 16384) q) := by
  show V c main_v59 (((cfg3.win 0).blk t).view.emb (ix2 p q)) = _
  rw [bn3_emb0]
/-- Each statistics block is its whole row. -/
theorem bn3_blk1 (c : Dev nD) (t : Fin cfg3.N) (q : Fin 2048) : iblk3 V c 1 t (ix2 (0 : Fin 1) q) = V c main_v63 (ix2 (0 : Fin 1) q) := by
  show V c main_v63 (((cfg3.win 1).blk t).view.emb (ix2 (0 : Fin 1) q)) = _
  rw [bn3_emb1]
theorem bn3_blk2 (c : Dev nD) (t : Fin cfg3.N) (q : Fin 2048) : iblk3 V c 2 t (ix2 (0 : Fin 1) q) = V c main_v70 (ix2 (0 : Fin 1) q) := by
  show V c main_v70 (((cfg3.win 2).blk t).view.emb (ix2 (0 : Fin 1) q)) = _
  rw [bn3_emb2]
theorem bn3_blk3 (c : Dev nD) (t : Fin cfg3.N) (q : Fin 2048) : iblk3 V c 3 t (ix2 (0 : Fin 1) q) = V c main_v71 (ix2 (0 : Fin 1) q) := by
  show V c main_v71 (((cfg3.win 3).blk t).view.emb (ix2 (0 : Fin 1) q)) = _
  rw [bn3_emb3]
theorem bn3_blk4 (c : Dev nD) (t : Fin cfg3.N) (q : Fin 2048) : iblk3 V c 4 t (ix2 (0 : Fin 1) q) = V c main_v72 (ix2 (0 : Fin 1) q) := by
  show V c main_v72 (((cfg3.win 4).blk t).view.emb (ix2 (0 : Fin 1) q)) = _
  rw [bn3_emb4]

/-- What point `t` writes back is block `t` of the whole-array function of the five operands. -/
theorem bn3_flushed (c : Dev nD) (t : Fin cfg3.N) :
    (dat3 (F := Ideal) V c).flushed 5 t = ((cfg3.win 5).blk t).view.read (Elt Ideal)
      (Cert.KernelSpec.bnLeaky (N := 16384) (H := 2048) (V c main_v59) (V c main_v63) (V c main_v70) (V c main_v71) (V c main_v72)) := by
  show (cfg3.win 5).cut (grid3.coords t) ((dat3 V c).after 5 t) = _
  rw [after3_5]
  unfold out3_5
  rw [View.canon_unit_zero hz]
  simp only [View.ld_unit_zero (S := S512x2048) hz, View.ld_unit_zero (S := S1x2048) hz]
  funext j
  obtain ⟨p, q, rfl⟩ : ∃ (p : Fin 512) (q : Fin 2048), j = ix2 p q := ⟨j 0, j 1, eq_ix2 j⟩
  show k3_pay1 (iblk3 V c 0 t) (iblk3 V c 1 t) (iblk3 V c 2 t) (iblk3 V c 3 t) (iblk3 V c 4 t) (ix2 p q)
    = Cert.KernelSpec.bnLeaky (N := 16384) (H := 2048) (V c main_v59) (V c main_v63) (V c main_v70) (V c main_v71) (V c main_v72)
        (((cfg3.win 5).blk t).view.emb (ix2 p q))
  rw [bn3_emb5]
  refine (bn3_pay_apply (iblk3 V c 0 t) (iblk3 V c 1 t) (iblk3 V c 2 t) (iblk3 V c 3 t) (iblk3 V c 4 t) p q).trans ?_
  rw [bn3_blk0, bn3_blk1, bn3_blk2, bn3_blk3, bn3_blk4]
  rfl

/-- An index of the output array is in point `t`'s block iff each coordinate is in the block's range on its axis. -/
theorem bn3_mem_blk (t : Fin cfg3.N) (i : S16384x2048.Idx) :
    i ∈ ((cfg3.win 5).blk t).view.set ↔ ∀ a : Fin 2, win3_5.index t a * S512x2048.size a ≤ (i a).val
      ∧ (i a).val < win3_5.index t a * S512x2048.size a + S512x2048.size a := by
  show i ∈ ((View.whole main_v73).slice (win3_5.rect t)).set ↔ _
  rw [View.set_slice_whole, Rect.mem_set_unit]
  exact Iff.rfl

/-- Every row of the output array is in some point's block: row `r` in block `r / 512`. -/
theorem bn3_cover (i : S16384x2048.Idx) :
    ∃ t : Fin cfg3.N, (cfg3.win 5).flush t = true ∧ i ∈ ((cfg3.win 5).blk t).view.set := by
  have hi0 : (i 0).val < 16384 := (i 0).isLt
  have hi1 : (i 1).val < 2048 := (i 1).isLt
  have hN : cfg3.N = 32 := N_3
  obtain ⟨t, ht⟩ : ∃ t : Fin cfg3.N, t.val = (i 0).val / 512 := ⟨⟨(i 0).val / 512, by rw [hN]; omega⟩, rfl⟩
  obtain ⟨-, -, e0, e1, -⟩ := bn3_idx t
  refine ⟨t, flush3_5 t, ?_⟩
  rw [bn3_mem_blk]
  intro a
  match a with
  | ⟨0, _⟩ =>
    show win3_5.index t (0 : Fin 2) * 512 ≤ (i 0).val ∧ (i 0).val < win3_5.index t (0 : Fin 2) * 512 + 512
    rw [e0, ht]; omega
  | ⟨1, _⟩ =>
    show win3_5.index t (1 : Fin 2) * 2048 ≤ (i 1).val ∧ (i 1).val < win3_5.index t (1 : Fin 2) * 2048 + 2048
    rw [e1]; omega

/-- The second launch's output array after its run: the normalised and rectified input, entry by entry. -/
theorem arr3 (c : Dev nD) : (dat3 (F := Ideal) V c).arrAt 5 cfg3.N
    = Cert.KernelSpec.bnLeaky (N := 16384) (H := 2048) (V c main_v59) (V c main_v63) (V c main_v70) (V c main_v71) (V c main_v72) :=
  (dat3 V c).arrAt_eq_of_cover 5 _ (fun t _ => bn3_flushed V c t) bn3_cover

/-! ## Region 5 -/

/-- The body of this launch is the same function of its blocks as the first launch's. -/
theorem bn5_pay_apply (v0 : Vec Ideal S512x2048 .f32) (v2 v6 v13 v17 : Vec Ideal S1x2048 .f32) (p : Fin 512) (q : Fin 2048) :
    k5_pay1 (F := Ideal) v0 v2 v6 v13 v17 (ix2 p q)
      = Cert.KernelSpec.leaky ((v0 (ix2 p q) - v2 (ix2 0 q))
          * Ideal.rsqrt (v6 (ix2 0 q) + Ideal.ofBits .f32 0x3727C5AC#32) * v13 (ix2 0 q) + v17 (ix2 0 q)) :=
  bn_pay_apply v0 v2 v6 v13 v17 p q

/-- The block indices over the grid: the input rows and the output rows move together, block `t` at point `t`, all
    columns at once; the four statistics rows stay at block zero. -/
theorem bn5_idx : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Row `p` of block `t` is row `512 t + p` of the array. -/
theorem bn5_row_lt (t : Fin cfg5.N) (p : Fin 512) : t.val * 512 + p.val < 16384 := by
  have ht : t.val < 32 := Nat.lt_of_lt_of_eq t.isLt N_5
  have hp := p.isLt
  omega

/-- Where an entry of the input block at point `t` sits in the input array. -/
theorem bn5_emb0 (t : Fin cfg5.N) (p : Fin 512) (q : Fin 2048) :
    ((cfg5.win 0).blk t).view.emb (ix2 p q) = ix2 (⟨t.val * 512 + p.val, bn5_row_lt t p⟩ : Fin 16384) q := by
  obtain ⟨e0, e1, -⟩ := bn5_idx t
  funext a; apply Fin.ext
  match a with
  | ⟨0, _⟩ => show win5_0.index t (0 : Fin 2) * 512 + 1 * p.val = t.val * 512 + p.val; rw [e0]; omega
  | ⟨1, _⟩ => show win5_0.index t (1 : Fin 2) * 2048 + 1 * q.val = q.val; rw [e1]; omega

/-- Where an entry of the output block at point `t` sits in the output array: the same place. -/
theorem bn5_emb5 (t : Fin cfg5.N) (p : Fin 512) (q : Fin 2048) :
    ((cfg5.win 5).blk t).view.emb (ix2 p q) = ix2 (⟨t.val * 512 + p.val, bn5_row_lt t p⟩ : Fin 16384) q := by
  obtain ⟨-, -, e0, e1, -⟩ := bn5_idx t
  funext a; apply Fin.ext
  match a with
  | ⟨0, _⟩ => show win5_5.index t (0 : Fin 2) * 512 + 1 * p.val = t.val * 512 + p.val; rw [e0]; omega
  | ⟨1, _⟩ => show win5_5.index t (1 : Fin 2) * 2048 + 1 * q.val = q.val; rw [e1]; omega

/-- The block of a statistics row at any point is the row itself. -/
theorem bn5_emb1 (t : Fin cfg5.N) (q : Fin 2048) : ((cfg5.win 1).blk t).view.emb (ix2 (0 : Fin 1) q) = ix2 (0 : Fin 1) q := by
  obtain ⟨-, -, -, -, e0, e1, -⟩ := bn5_idx t
  funext a; apply Fin.ext
  match a with
  | ⟨0, _⟩ => show win5_1.index t (0 : Fin 2) * 1 + 1 * 0 = 0; rw [e0]
  | ⟨1, _⟩ => show win5_1.index t (1 : Fin 2) * 2048 + 1 * q.val = q.val; rw [e1]; omega
theorem bn5_emb2 (t : Fin cfg5.N) (q : Fin 2048) : ((cfg5.win 2).blk t).view.emb (ix2 (0 : Fin 1) q) = ix2 (0 : Fin 1) q := by
  obtain ⟨-, -, -, -, -, -, e0, e1, -⟩ := bn5_idx t
  funext a; apply Fin.ext
  match a with
  | ⟨0, _⟩ => show win5_2.index t (0 : Fin 2) * 1 + 1 * 0 = 0; rw [e0]
  | ⟨1, _⟩ => show win5_2.index t (1 : Fin 2) * 2048 + 1 * q.val = q.val; rw [e1]; omega
theorem bn5_emb3 (t : Fin cfg5.N) (q : Fin 2048) : ((cfg5.win 3).blk t).view.emb (ix2 (0 : Fin 1) q) = ix2 (0 : Fin 1) q := by
  obtain ⟨-, -, -, -, -, -, -, -, e0, e1, -⟩ := bn5_idx t
  funext a; apply Fin.ext
  match a with
  | ⟨0, _⟩ => show win5_3.index t (0 : Fin 2) * 1 + 1 * 0 = 0; rw [e0]
  | ⟨1, _⟩ => show win5_3.index t (1 : Fin 2) * 2048 + 1 * q.val = q.val; rw [e1]; omega
theorem bn5_emb4 (t : Fin cfg5.N) (q : Fin 2048) : ((cfg5.win 4).blk t).view.emb (ix2 (0 : Fin 1) q) = ix2 (0 : Fin 1) q := by
  obtain ⟨-, -, -, -, -, -, -, -, -, -, e0, e1⟩ := bn5_idx t
  funext a; apply Fin.ext
  match a with
  | ⟨0, _⟩ => show win5_4.index t (0 : Fin 2) * 1 + 1 * 0 = 0; rw [e0]
  | ⟨1, _⟩ => show win5_4.index t (1 : Fin 2) * 2048 + 1 * q.val = q.val; rw [e1]; omega

/-- The input block at point `t`, entry by entry: rows `512 t …` of the input array. -/
theorem bn5_blk0 (c : Dev nD) (t : Fin cfg5.N) (p : Fin 512) (q : Fin 2048) :
    iblk5 V c 0 t (ix2 p q) = V c main_v94 (ix2 (⟨t.val * 512 + p.val, bn5_row_lt t p⟩ : Fin 16384) q) := by
  show V c main_v94 (((cfg5.win 0).blk t).view.emb (ix2 p q)) = _
  rw [bn5_emb0]
/-- Each statistics block is its whole row. -/
theorem bn5_blk1 (c : Dev nD) (t : Fin cfg5.N) (q : Fin 2048) : iblk5 V c 1 t (ix2 (0 : Fin 1) q) = V c main_v98 (ix2 (0 : Fin 1) q) := by
  show V c main_v98 (((cfg5.win 1).blk t).view.emb (ix2 (0 : Fin 1) q)) = _
  rw [bn5_emb1]
theorem bn5_blk2 (c : Dev nD) (t : Fin cfg5.N) (q : Fin 2048) : iblk5 V c 2 t (ix2 (0 : Fin 1) q) = V c main_v105 (ix2 (0 : Fin 1) q) := by
  show V c main_v105 (((cfg5.win 2).blk t).view.emb (ix2 (0 : Fin 1) q)) = _
  rw [bn5_emb2]
theorem bn5_blk3 (c : Dev nD) (t : Fin cfg5.N) (q : Fin 2048) : iblk5 V c 3 t (ix2 (0 : Fin 1) q) = V c main_v106 (ix2 (0 : Fin 1) q) := by
  show V c main_v106 (((cfg5.win 3).blk t).view.emb (ix2 (0 : Fin 1) q)) = _
  rw [bn5_emb3]
theorem bn5_blk4 (c : Dev nD) (t : Fin cfg5.N) (q : Fin 2048) : iblk5 V c 4 t (ix2 (0 : Fin 1) q) = V c main_v107 (ix2 (0 : Fin 1) q) := by
  show V c main_v107 (((cfg5.win 4).blk t).view.emb (ix2 (0 : Fin 1) q)) = _
  rw [bn5_emb4]

/-- What point `t` writes back is block `t` of the whole-array function of the five operands. -/
theorem bn5_flushed (c : Dev nD) (t : Fin cfg5.N) :
    (dat5 (F := Ideal) V c).flushed 5 t = ((cfg5.win 5).blk t).view.read (Elt Ideal)
      (Cert.KernelSpec.bnLeaky (N := 16384) (H := 2048) (V c main_v94) (V c main_v98) (V c main_v105) (V c main_v106) (V c main_v107)) := by
  show (cfg5.win 5).cut (grid5.coords t) ((dat5 V c).after 5 t) = _
  rw [after5_5]
  unfold out5_5
  rw [View.canon_unit_zero hz]
  simp only [View.ld_unit_zero (S := S512x2048) hz, View.ld_unit_zero (S := S1x2048) hz]
  funext j
  obtain ⟨p, q, rfl⟩ : ∃ (p : Fin 512) (q : Fin 2048), j = ix2 p q := ⟨j 0, j 1, eq_ix2 j⟩
  show k5_pay1 (iblk5 V c 0 t) (iblk5 V c 1 t) (iblk5 V c 2 t) (iblk5 V c 3 t) (iblk5 V c 4 t) (ix2 p q)
    = Cert.KernelSpec.bnLeaky (N := 16384) (H := 2048) (V c main_v94) (V c main_v98) (V c main_v105) (V c main_v106) (V c main_v107)
        (((cfg5.win 5).blk t).view.emb (ix2 p q))
  rw [bn5_emb5]
  refine (bn5_pay_apply (iblk5 V c 0 t) (iblk5 V c 1 t) (iblk5 V c 2 t) (iblk5 V c 3 t) (iblk5 V c 4 t) p q).trans ?_
  rw [bn5_blk0, bn5_blk1, bn5_blk2, bn5_blk3, bn5_blk4]
  rfl

/-- An index of the output array is in point `t`'s block iff each coordinate is in the block's range on its axis. -/
theorem bn5_mem_blk (t : Fin cfg5.N) (i : S16384x2048.Idx) :
    i ∈ ((cfg5.win 5).blk t).view.set ↔ ∀ a : Fin 2, win5_5.index t a * S512x2048.size a ≤ (i a).val
      ∧ (i a).val < win5_5.index t a * S512x2048.size a + S512x2048.size a := by
  show i ∈ ((View.whole main_v108).slice (win5_5.rect t)).set ↔ _
  rw [View.set_slice_whole, Rect.mem_set_unit]
  exact Iff.rfl

/-- Every row of the output array is in some point's block: row `r` in block `r / 512`. -/
theorem bn5_cover (i : S16384x2048.Idx) :
    ∃ t : Fin cfg5.N, (cfg5.win 5).flush t = true ∧ i ∈ ((cfg5.win 5).blk t).view.set := by
  have hi0 : (i 0).val < 16384 := (i 0).isLt
  have hi1 : (i 1).val < 2048 := (i 1).isLt
  have hN : cfg5.N = 32 := N_5
  obtain ⟨t, ht⟩ : ∃ t : Fin cfg5.N, t.val = (i 0).val / 512 := ⟨⟨(i 0).val / 512, by rw [hN]; omega⟩, rfl⟩
  obtain ⟨-, -, e0, e1, -⟩ := bn5_idx t
  refine ⟨t, flush5_5 t, ?_⟩
  rw [bn5_mem_blk]
  intro a
  match a with
  | ⟨0, _⟩ =>
    show win5_5.index t (0 : Fin 2) * 512 ≤ (i 0).val ∧ (i 0).val < win5_5.index t (0 : Fin 2) * 512 + 512
    rw [e0, ht]; omega
  | ⟨1, _⟩ =>
    show win5_5.index t (1 : Fin 2) * 2048 ≤ (i 1).val ∧ (i 1).val < win5_5.index t (1 : Fin 2) * 2048 + 2048
    rw [e1]; omega

/-- The third launch's output array after its run: the normalised and rectified input, entry by entry. -/
theorem arr5 (c : Dev nD) : (dat5 (F := Ideal) V c).arrAt 5 cfg5.N
    = Cert.KernelSpec.bnLeaky (N := 16384) (H := 2048) (V c main_v94) (V c main_v98) (V c main_v105) (V c main_v106) (V c main_v107) :=
  (dat5 V c).arrAt_eq_of_cover 5 _ (fun t _ => bn5_flushed V c t) bn5_cover

end Cert.KernelIdeal.RegionValue

end
-- ==== Proof.ChainLayer1.lean ====
/-
  The first layer of the kernel program, from the launch memory to the first normalisation launch's output.

  The stretch before the first launch narrows the node features, their neighbour mean and the two weight matrices to
  bfloat16 and reshapes the bias to one row; the first launch leaves "self product plus neighbour product plus bias row"
  of those, which at the ideal values is the reference's linear map of the un-narrowed arrays. The next stretch computes
  that array's column statistics as rows and reshapes the affine pair; the second launch normalises and rectifies, which
  is the reference's rectified normalisation. So the second launch's output array is the reference's first layer of the
  program's arguments.
-/
import proofs.«114295_j84782654423394_1_alg».proof.Proof.Gen.KernelIdeal.Frame
import proofs.«114295_j84782654423394_1_alg».proof.Proof.Gen.ReferenceIdeal
import proofs.«114295_j84782654423394_1_alg».proof.Proof.RefSpec
import proofs.«114295_j84782654423394_1_alg».proof.Proof.KernelSpec
import proofs.«114295_j84782654423394_1_alg».proof.Proof.KKeep
import proofs.«114295_j84782654423394_1_alg».proof.Proof.BridgeLayers
import proofs.«114295_j84782654423394_1_alg».proof.Proof.BridgeBn
import proofs.«114295_j84782654423394_1_alg».proof.Proof.BridgeNarrow
import proofs.«114295_j84782654423394_1_alg».proof.Proof.KStretch0
import proofs.«114295_j84782654423394_1_alg».proof.Proof.KStretch1
import proofs.«114295_j84782654423394_1_alg».proof.Proof.RegionSage63
import proofs.«114295_j84782654423394_1_alg».proof.Proof.RegionBn

set_option maxRecDepth 16384

noncomputable section

namespace Cert.KernelIdeal.Chain

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg) (c : Dev nD)

/-- The array the first launch leaves: the reference's first linear map. -/
theorem lin1 : W2 m ρ c (Proc.devRef .tc main_v24)
    = Cert.RefSpec.sage63 (F := Ideal) (m ((c : Thread nD τ).loc main_arg0)) (Cert.RefSpec.neighMean63 (F := Ideal) (m ((c : Thread nD τ).loc main_arg0)) (m ((c : Thread nD τ).loc main_arg1)) (m ((c : Thread nD τ).loc main_arg2))) (m ((c : Thread nD τ).loc main_arg4)) (m ((c : Thread nD τ).loc main_arg5)) (m ((c : Thread nD τ).loc main_arg6)) := by
  have h : W2 m ρ c (Proc.devRef .tc main_v24)
      = Cert.KernelSpec.sageLin (φ₁ := .bf16) (φ₂ := .bf16)
          (StableHlo.after hostOps0 (W0 m ρ c) (Proc.devRef .tc main_v19))
          (StableHlo.after hostOps0 (W0 m ρ c) (Proc.devRef .tc main_v20))
          (StableHlo.after hostOps0 (W0 m ρ c) (Proc.devRef .tc main_v21))
          (StableHlo.after hostOps0 (W0 m ρ c) (Proc.devRef .tc main_v22))
          (StableHlo.after hostOps0 (W0 m ρ c) (Proc.devRef .tc main_v23)) :=
    (W2_arr m ρ c 5).trans (Cert.KernelIdeal.RegionValue.arr0 (V1 m ρ) c)
  rw [s0_v19, s0_v20, s0_v21, s0_v22, s0_v23] at h
  refine h.trans ?_
  exact Cert.Bridge.sage_narrow_eq _ _ _ _ _ _ rfl _ _ _ _

/-- The array the second launch leaves: the reference's first layer. -/
theorem out1 : W4 m ρ c (Proc.devRef .tc main_v38)
    = Cert.RefSpec.layer1 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg13)) (m ((c : Thread nD τ).loc main_arg14)) := by
  have h : W4 m ρ c (Proc.devRef .tc main_v38)
      = Cert.KernelSpec.bnLeaky (N := 16384) (H := 2048)
          (StableHlo.after hostOps1 (W2 m ρ c) (Proc.devRef .tc main_v24))
          (StableHlo.after hostOps1 (W2 m ρ c) (Proc.devRef .tc main_v28))
          (StableHlo.after hostOps1 (W2 m ρ c) (Proc.devRef .tc main_v35))
          (StableHlo.after hostOps1 (W2 m ρ c) (Proc.devRef .tc main_v36))
          (StableHlo.after hostOps1 (W2 m ρ c) (Proc.devRef .tc main_v37)) :=
    (W4_arr m ρ c 5).trans (Cert.KernelIdeal.RegionValue.arr1 (V3 m ρ) c)
  rw [s1_x, s1_mu, s1_var, s1_g, s1_be, lin1,
    W2_from0 m ρ c main_arg13 (by decide) (by decide), W2_from0 m ρ c main_arg14 (by decide) (by decide)] at h
  refine h.trans ?_
  exact Cert.Bridge.bn_eq _ _ _ _

end Cert.KernelIdeal.Chain

end
-- ==== Proof.KStretch2.lean ====
import proofs.«114295_j84782654423394_1_alg».proof.Proof.Gen.KernelIdeal.Launch
import proofs.«114295_j84782654423394_1_alg».proof.Proof.Gen.ReferenceIdeal
import proofs.«114295_j84782654423394_1_alg».proof.Proof.RefSpec
import Idealize.ShloMosaic.Lib.StableHlo.Run
import proofs.«114295_j84782654423394_1_alg».proof.Proof.KStretch0

noncomputable section

namespace Cert.KernelIdeal.Chain

open Cert.KernelIdeal Cert.KernelIdeal.Gen Idealize.ShloMosaic Idealize.ShloMosaic.TcCoe Idealize.ShloMosaic.StableHlo

variable {F : FTy → Type} [FloatOps F] (Wv : Valuation τ sig (Elt F))

/-! The host operations between a normalisation launch and the next linear-map launch, read at an arbitrary entry
    valuation: the previous layer's features and their neighbour mean (over the in-degrees computed once, before the first
    launch) narrowed to bfloat16, the two weight matrices narrowed, and the bias as a one-row matrix. -/

set_option maxHeartbeats 1000000 in
theorem s2_x : after hostOps2 Wv (Proc.devRef .tc main_v54) = truncf .bf16 (Wv (Proc.devRef .tc main_v38)) bitsLt_bf16_f32 := by
  after_results_simp

set_option maxHeartbeats 1000000 in
theorem s2_nm (hdeg : Wv (Proc.devRef .tc main_v3) = degSum (Wv (Proc.devRef .tc main_arg2))) : after hostOps2 Wv (Proc.devRef .tc main_v55)
    = truncf .bf16 (Cert.RefSpec.neighMean (Wv (Proc.devRef .tc main_v38)) (Wv (Proc.devRef .tc main_arg1)) (Wv (Proc.devRef .tc main_arg2))) bitsLt_bf16_f32 := by
  after_results_simp
  rw [hdeg]
  rfl

set_option maxHeartbeats 1000000 in
theorem s2_ws : after hostOps2 Wv (Proc.devRef .tc main_v56) = truncf .bf16 (Wv (Proc.devRef .tc main_arg7)) bitsLt_bf16_f32 := by
  after_results_simp

set_option maxHeartbeats 1000000 in
theorem s2_wn : after hostOps2 Wv (Proc.devRef .tc main_v57) = truncf .bf16 (Wv (Proc.devRef .tc main_arg8)) bitsLt_bf16_f32 := by
  after_results_simp

set_option maxHeartbeats 1000000 in
theorem s2_b : after hostOps2 Wv (Proc.devRef .tc main_v58) = shapeCast S1x2048 (Wv (Proc.devRef .tc main_arg9)) shapeCasts_S2048_S1x2048 := by
  after_results_simp
  rfl

end Cert.KernelIdeal.Chain

end
-- ==== Proof.KStretch3.lean ====
import proofs.«114295_j84782654423394_1_alg».proof.Proof.Gen.KernelIdeal.Launch
import proofs.«114295_j84782654423394_1_alg».proof.Proof.Gen.ReferenceIdeal
import proofs.«114295_j84782654423394_1_alg».proof.Proof.RefSpec
import Idealize.ShloMosaic.Lib.StableHlo.Run
import proofs.«114295_j84782654423394_1_alg».proof.Proof.KStats

noncomputable section

namespace Cert.KernelIdeal.Chain

open Cert.KernelIdeal Cert.KernelIdeal.Gen Idealize.ShloMosaic Idealize.ShloMosaic.TcCoe Idealize.ShloMosaic.StableHlo

variable {F : FTy → Type} [FloatOps F] (Wv : Valuation τ sig (Elt F))

/-! The host operations between a linear-map launch and its normalisation launch, read at an arbitrary entry valuation:
    the launch's output is left alone, its column means and variances are computed as one-row matrices, and the affine
    pair is reshaped to one-row matrices. -/

set_option maxHeartbeats 1000000 in
theorem s3_x : after hostOps3 Wv (Proc.devRef .tc main_v59) = Wv (Proc.devRef .tc main_v59) := by
  after_results_simp

set_option maxHeartbeats 1000000 in
theorem s3_mu : after hostOps3 Wv (Proc.devRef .tc main_v63) = muRow (Wv (Proc.devRef .tc main_v59)) := by
  after_results_simp
  rfl

set_option maxHeartbeats 1000000 in
theorem s3_var : after hostOps3 Wv (Proc.devRef .tc main_v70) = varRow (Wv (Proc.devRef .tc main_v59)) := by
  after_results_simp
  rfl

set_option maxHeartbeats 1000000 in
theorem s3_g : after hostOps3 Wv (Proc.devRef .tc main_v71) = shapeCast S1x2048 (Wv (Proc.devRef .tc main_arg15)) shapeCasts_S2048_S1x2048 := by
  after_results_simp
  rfl

set_option maxHeartbeats 1000000 in
theorem s3_be : after hostOps3 Wv (Proc.devRef .tc main_v72) = shapeCast S1x2048 (Wv (Proc.devRef .tc main_arg16)) shapeCasts_S2048_S1x2048 := by
  after_results_simp
  rfl

end Cert.KernelIdeal.Chain

end
-- ==== Proof.RegionSage2.lean ====
/-
  The second launch of the linear-map kernel: what it leaves in its output array.

  The launch walks a grid of 32 points. At point `t` it stages rows `512·t … 512·t + 511` of the node features and of
  the neighbour means (each 2048 wide), the whole of both 2048×2048 weight matrices and the whole bias row, and writes
  back rows `512·t … 512·t + 511` of the output. What the body leaves at row `p`, column `q` of the staged output
  block is `∑ k, x (512·t + p, k) · ws (k, q) + ∑ k, nm (512·t + p, k) · wn (k, q) + b (0, q)`, which is the entry at
  row `512·t + p`, column `q` of the whole-array function `sageLin`. The 32 row blocks tile the 16384 rows (row `r`
  is in block `r / 512`), so the output array ends holding `sageLin` of the five operand arrays as the launch finds
  them.
-/
import proofs.«114295_j84782654423394_1_alg».proof.Proof.Gen.KernelIdeal.Frame
import proofs.«114295_j84782654423394_1_alg».proof.Proof.SagePayload
import proofs.«114295_j84782654423394_1_alg».proof.Proof.KernelSpec
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, spelt as a constant function. -/
theorem zero_offsets2 : (![0, 0] : Fin 2 → Nat) = fun _ => 0 := funext fun a => by fin_cases a <;> rfl

/-- What the body leaves in the staged output block at row `p`, column `q`, from the five staged input blocks: its one
    store covers the block and its loads read whole blocks. -/
theorem out2_5_apply (x0 x1 : Vec Ideal S512x2048 .bf16) (x2 x3 : Vec Ideal S2048x2048 .bf16)
    (x4 : Vec Ideal S1x2048 .f32) (p : Fin 512) (q : Fin 2048) :
    out2_5 (F := Ideal) x0 x1 x2 x3 x4 (ix2 p q)
      = (∑ k : Fin 2048, x0 (ix2 p k) * x2 (ix2 k q)) + (∑ k : Fin 2048, x1 (ix2 p k) * x3 (ix2 k q))
        + x4 (ix2 (0 : Fin 1) q) := by
  unfold out2_5
  rw [View.canon_unit_zero zero_offsets2]
  simp only [View.ld_unit_zero (S := S512x2048) zero_offsets2, View.ld_unit_zero (S := S2048x2048) zero_offsets2,
    View.ld_unit_zero (S := S1x2048) zero_offsets2]
  exact pay2_apply x0 x2 x1 x3 x4 p q

/-- The block index of each window at each grid point: the two row-tiled inputs and the output move with the point along
    the rows, the weights and the bias row stay at block 0. -/
theorem index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The staged block of node features at point `t`, read at row `p`, is row `512·t + p` of the array. -/
theorem iblk2_0_apply (c : Dev nD) (t : Fin cfg2.N) (p : Fin 512) (k : Fin 2048) (r : Fin 16384)
    (hr : r.val = t.val * 512 + p.val) :
    (iblk2 V c 0 t : Vec Ideal S512x2048 .bf16) (ix2 p k) = (V c main_v54 : Vec Ideal S16384x2048 .bf16) (ix2 r k) := by
  obtain ⟨e0, e1, -⟩ := index2 t
  unfold iblk2
  rw [View.read_apply]
  show V c main_v54 _ = V c main_v54 _
  refine congrArg _ (funext fun a => Fin.ext ?_)
  match a with
  | ⟨0, _⟩ => show win2_0.index t (0 : Fin 2) * 512 + 1 * p.val = r.val; rw [e0, hr]; omega
  | ⟨1, _⟩ => show win2_0.index t (1 : Fin 2) * 2048 + 1 * k.val = k.val; rw [e1]; omega

/-- The staged block of neighbour means at point `t`, read at row `p`, is row `512·t + p` of the array. -/
theorem iblk2_1_apply (c : Dev nD) (t : Fin cfg2.N) (p : Fin 512) (k : Fin 2048) (r : Fin 16384)
    (hr : r.val = t.val * 512 + p.val) :
    (iblk2 V c 1 t : Vec Ideal S512x2048 .bf16) (ix2 p k) = (V c main_v55 : Vec Ideal S16384x2048 .bf16) (ix2 r k) := by
  obtain ⟨-, -, e0, e1, -⟩ := index2 t
  unfold iblk2
  rw [View.read_apply]
  show V c main_v55 _ = V c main_v55 _
  refine congrArg _ (funext fun a => Fin.ext ?_)
  match a with
  | ⟨0, _⟩ => show win2_1.index t (0 : Fin 2) * 512 + 1 * p.val = r.val; rw [e0, hr]; omega
  | ⟨1, _⟩ => show win2_1.index t (1 : Fin 2) * 2048 + 1 * k.val = k.val; rw [e1]; omega

/-- The staged self weights at any point are the whole array. -/
theorem iblk2_2_eq (c : Dev nD) (t : Fin cfg2.N) :
    (iblk2 V c 2 t : Vec Ideal S2048x2048 .bf16) = (V c main_v56 : Vec Ideal S2048x2048 .bf16) := by
  obtain ⟨-, -, -, -, e0, e1, -⟩ := index2 t
  funext x
  unfold iblk2
  rw [View.read_apply]
  show V c main_v56 _ = V c main_v56 _
  refine congrArg _ (funext fun a => Fin.ext ?_)
  match a with
  | ⟨0, _⟩ => show win2_2.index t (0 : Fin 2) * 2048 + 1 * (x 0).val = (x 0).val; rw [e0]; omega
  | ⟨1, _⟩ => show win2_2.index t (1 : Fin 2) * 2048 + 1 * (x 1).val = (x 1).val; rw [e1]; omega

/-- The staged neighbour weights at any point are the whole array. -/
theorem iblk2_3_eq (c : Dev nD) (t : Fin cfg2.N) :
    (iblk2 V c 3 t : Vec Ideal S2048x2048 .bf16) = (V c main_v57 : Vec Ideal S2048x2048 .bf16) := by
  obtain ⟨-, -, -, -, -, -, e0, e1, -⟩ := index2 t
  funext x
  unfold iblk2
  rw [View.read_apply]
  show V c main_v57 _ = V c main_v57 _
  refine congrArg _ (funext fun a => Fin.ext ?_)
  match a with
  | ⟨0, _⟩ => show win2_3.index t (0 : Fin 2) * 2048 + 1 * (x 0).val = (x 0).val; rw [e0]; omega
  | ⟨1, _⟩ => show win2_3.index t (1 : Fin 2) * 2048 + 1 * (x 1).val = (x 1).val; rw [e1]; omega

/-- The staged bias row at any point is the whole array. -/
theorem iblk2_4_eq (c : Dev nD) (t : Fin cfg2.N) :
    (iblk2 V c 4 t : Vec Ideal S1x2048 .f32) = (V c main_v58 : Vec Ideal S1x2048 .f32) := by
  obtain ⟨-, -, -, -, -, -, -, -, e0, e1, -⟩ := index2 t
  funext x
  unfold iblk2
  rw [View.read_apply]
  show V c main_v58 _ = V c main_v58 _
  refine congrArg _ (funext fun a => Fin.ext ?_)
  match a with
  | ⟨0, _⟩ => show win2_4.index t (0 : Fin 2) * 1 + 1 * (x 0).val = (x 0).val; rw [e0]; omega
  | ⟨1, _⟩ => show win2_4.index t (1 : Fin 2) * 2048 + 1 * (x 1).val = (x 1).val; rw [e1]; omega

/-- What point `t` writes back is block `t` of `sageLin` of the operand arrays as the launch finds them. -/
theorem flushed2_eq (c : Dev nD) (t : Fin cfg2.N) :
    (dat2 (F := Ideal) V c).flushed 5 t = ((cfg2.win 5).blk t).view.read (Elt Ideal)
      (Cert.KernelSpec.sageLin (φ₁ := .bf16) (φ₂ := .bf16) (V c main_v54) (V c main_v55) (V c main_v56) (V c main_v57)
        (V c main_v58)) := by
  show (cfg2.win 5).cut (grid2.coords t) ((dat2 V c).after 5 t) = _
  rw [after2_5]
  funext j
  have hp : (j 0).val < 512 := (j 0).isLt
  have hq : (j 1).val < 2048 := (j 1).isLt
  have hj : win2_5.xinj (grid2.coords t) j = ix2 (⟨(j 0).val, hp⟩ : Fin 512) (⟨(j 1).val, hq⟩ : Fin 2048) := by
    funext a; apply Fin.ext
    match a with
    | ⟨0, _⟩ => rfl
    | ⟨1, _⟩ => rfl
  show out2_5 (iblk2 V c 0 t) (iblk2 V c 1 t) (iblk2 V c 2 t) (iblk2 V c 3 t) (iblk2 V c 4 t)
    (win2_5.xinj (grid2.coords t) j) = _
  rw [hj, out2_5_apply (iblk2 V c 0 t) (iblk2 V c 1 t) (iblk2 V c 2 t) (iblk2 V c 3 t) (iblk2 V c 4 t),
    View.read_apply]
  obtain ⟨r, s, hi⟩ : ∃ (r : Fin 16384) (s : Fin 2048),
      (((cfg2.win 5).blk t).view.emb j : S16384x2048.Idx) = ix2 r s := ⟨_, _, eq_ix2 _⟩
  obtain ⟨-, -, -, -, -, -, -, -, -, -, e0, e1⟩ := index2 t
  have hr : win2_5.index t (0 : Fin 2) * 512 + 1 * (j 0).val = r.val :=
    congrArg (fun i : S16384x2048.Idx => (i 0).val) hi
  have hs : win2_5.index t (1 : Fin 2) * 2048 + 1 * (j 1).val = s.val :=
    congrArg (fun i : S16384x2048.Idx => (i 1).val) hi
  rw [e0] at hr
  rw [e1] at hs
  obtain rfl : s = ⟨(j 1).val, hq⟩ := Fin.ext (by show s.val = (j 1).val; omega)
  show _ = Cert.KernelSpec.sageLin (φ₁ := .bf16) (φ₂ := .bf16) (V c main_v54) (V c main_v55) (V c main_v56)
    (V c main_v57) (V c main_v58) (((cfg2.win 5).blk t).view.emb j : S16384x2048.Idx)
  rw [hi]
  exact congrArg₂ (· + ·) (congrArg₂ (· + ·)
    (Finset.sum_congr rfl fun k _ => congrArg₂ (· * ·)
      (iblk2_0_apply V c t ⟨_, hp⟩ k r (by show r.val = t.val * 512 + (j 0).val; omega))
      (congrFun (iblk2_2_eq V c t) _))
    (Finset.sum_congr rfl fun k _ => congrArg₂ (· * ·)
      (iblk2_1_apply V c t ⟨_, hp⟩ k r (by show r.val = t.val * 512 + (j 0).val; omega))
      (congrFun (iblk2_3_eq V c t) _)))
    (congrFun (iblk2_4_eq V c t) _)

/-- An index of the output array is in point `t`'s block iff each coordinate is in the block's range on its axis. -/
theorem mem_blk2 (t : Fin cfg2.N) (i : S16384x2048.Idx) :
    i ∈ ((cfg2.win 5).blk t).view.set ↔ ∀ a : Fin 2, win2_5.index t a * S512x2048.size a ≤ (i a).val
      ∧ (i a).val < win2_5.index t a * S512x2048.size a + S512x2048.size a := by
  show i ∈ ((View.whole main_v59).slice (win2_5.rect t)).set ↔ _
  rw [View.set_slice_whole, Rect.mem_set_unit]
  exact Iff.rfl

/-- The 32 row blocks tile the array: row `r` is in the block of point `r / 512`, and every point writes back. -/
theorem cover2 (i : S16384x2048.Idx) :
    ∃ t : Fin cfg2.N, (cfg2.win 5).flush t = true ∧ i ∈ ((cfg2.win 5).blk t).view.set := by
  have hi0 : (i 0).val < 16384 := (i 0).isLt
  have hi1 : (i 1).val < 2048 := (i 1).isLt
  have hN : cfg2.N = 32 := N_2
  have ht : (i 0).val / 512 < cfg2.N := by rw [hN]; omega
  obtain ⟨-, -, -, -, -, -, -, -, -, -, e0, e1⟩ := index2 ⟨(i 0).val / 512, ht⟩
  refine ⟨⟨(i 0).val / 512, ht⟩, flush2_5 _, ?_⟩
  rw [mem_blk2]
  intro a
  match a with
  | ⟨0, _⟩ =>
    show win2_5.index ⟨(i 0).val / 512, ht⟩ (0 : Fin 2) * 512 ≤ (i 0).val
      ∧ (i 0).val < win2_5.index ⟨(i 0).val / 512, ht⟩ (0 : Fin 2) * 512 + 512
    rw [e0]; show (i 0).val / 512 * 512 ≤ (i 0).val ∧ (i 0).val < (i 0).val / 512 * 512 + 512; omega
  | ⟨1, _⟩ =>
    show win2_5.index ⟨(i 0).val / 512, ht⟩ (1 : Fin 2) * 2048 ≤ (i 1).val
      ∧ (i 1).val < win2_5.index ⟨(i 0).val / 512, ht⟩ (1 : Fin 2) * 2048 + 2048
    rw [e1]; omega

/-- The output array after the second launch is `sageLin` of the five operand arrays as the launch finds them. -/
theorem arr2 (c : Dev nD) : (dat2 (F := Ideal) V c).arrAt 5 cfg2.N
    = Cert.KernelSpec.sageLin (φ₁ := .bf16) (φ₂ := .bf16) (V c main_v54) (V c main_v55) (V c main_v56) (V c main_v57)
        (V c main_v58) :=
  (dat2 V c).arrAt_eq_of_cover 5 _ (fun t _ => flushed2_eq V c t) cover2

end Cert.KernelIdeal.RegionValue

end
-- ==== Proof.ChainLayer2.lean ====
/-
  Layer 2 of the kernel program, from the previous normalisation launch's output to this layer's.

  The stretch before the linear-map launch narrows the previous features and their neighbour mean — over the in-degree
  sum computed once before the first launch and untouched since — and the layer's weights to bfloat16, and reshapes the
  bias; the launch leaves the reference's linear map of the un-narrowed arrays. The next stretch computes the column
  statistics and reshapes the affine pair; the normalisation launch leaves the reference's rectified normalisation. The
  weights, indices and affine pair are read where no earlier segment wrote them, so they are the launch contents.
-/
import proofs.«114295_j84782654423394_1_alg».proof.Proof.Gen.KernelIdeal.Frame
import proofs.«114295_j84782654423394_1_alg».proof.Proof.Gen.ReferenceIdeal
import proofs.«114295_j84782654423394_1_alg».proof.Proof.RefSpec
import proofs.«114295_j84782654423394_1_alg».proof.Proof.KernelSpec
import proofs.«114295_j84782654423394_1_alg».proof.Proof.KKeep
import proofs.«114295_j84782654423394_1_alg».proof.Proof.BridgeLayers
import proofs.«114295_j84782654423394_1_alg».proof.Proof.BridgeBn
import proofs.«114295_j84782654423394_1_alg».proof.Proof.BridgeNarrow
import proofs.«114295_j84782654423394_1_alg».proof.Proof.KStretch2
import proofs.«114295_j84782654423394_1_alg».proof.Proof.KStretch3
import proofs.«114295_j84782654423394_1_alg».proof.Proof.RegionSage2
import proofs.«114295_j84782654423394_1_alg».proof.Proof.RegionBn
import proofs.«114295_j84782654423394_1_alg».proof.Proof.KStretch0

set_option maxRecDepth 16384

noncomputable section

namespace Cert.KernelIdeal.Chain

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg) (c : Dev nD)

variable (X : Cert.RefSpec.Arr Ideal Cert.ReferenceIdeal.S16384x2048 .f32)

/-- The in-degree sum is still in its buffer when this layer's first stretch begins. -/
theorem deg4 : W4 m ρ c (Proc.devRef .tc main_v3) = degSum (F := Ideal) (m ((c : Thread nD τ).loc main_arg2)) :=
  (W4_from1 m ρ c main_v3 (by decide) (by decide) (by decide)).trans (s0_v3 (W0 m ρ c))

/-- The array the linear-map launch leaves: the reference's linear map of the previous features. -/
theorem lin2 (hX : W4 m ρ c (Proc.devRef .tc main_v38) = X) : W6 m ρ c (Proc.devRef .tc main_v59)
    = Cert.RefSpec.sage (F := Ideal) X (Cert.RefSpec.neighMean (F := Ideal) X (m ((c : Thread nD τ).loc main_arg1)) (m ((c : Thread nD τ).loc main_arg2))) (m ((c : Thread nD τ).loc main_arg7)) (m ((c : Thread nD τ).loc main_arg8)) (m ((c : Thread nD τ).loc main_arg9)) := by
  have hdeg : W4 m ρ c (Proc.devRef .tc main_v3) = degSum (F := Ideal) (W4 m ρ c (Proc.devRef .tc main_arg2)) := by
    rw [W4_from0 m ρ c main_arg2 (by decide) (by decide) (by decide) (by decide)]
    exact deg4 m ρ c
  have h : W6 m ρ c (Proc.devRef .tc main_v59)
      = Cert.KernelSpec.sageLin (φ₁ := .bf16) (φ₂ := .bf16)
          (StableHlo.after hostOps2 (W4 m ρ c) (Proc.devRef .tc main_v54))
          (StableHlo.after hostOps2 (W4 m ρ c) (Proc.devRef .tc main_v55))
          (StableHlo.after hostOps2 (W4 m ρ c) (Proc.devRef .tc main_v56))
          (StableHlo.after hostOps2 (W4 m ρ c) (Proc.devRef .tc main_v57))
          (StableHlo.after hostOps2 (W4 m ρ c) (Proc.devRef .tc main_v58)) :=
    (W6_arr m ρ c 5).trans (Cert.KernelIdeal.RegionValue.arr2 (V5 m ρ) c)
  rw [s2_x, s2_nm (W4 m ρ c) hdeg, s2_ws, s2_wn, s2_b, hX,
    W4_from0 m ρ c main_arg1 (by decide) (by decide) (by decide) (by decide), W4_from0 m ρ c main_arg2 (by decide) (by decide) (by decide) (by decide),
    W4_from0 m ρ c main_arg7 (by decide) (by decide) (by decide) (by decide), W4_from0 m ρ c main_arg8 (by decide) (by decide) (by decide) (by decide),
    W4_from0 m ρ c main_arg9 (by decide) (by decide) (by decide) (by decide)] at h
  refine h.trans ?_
  exact Cert.Bridge.sage_narrow_eq _ _ _ _ _ _ rfl _ _ _ _

/-- The array the normalisation launch leaves: the reference's layer of the previous features. -/
theorem out2 (hX : W4 m ρ c (Proc.devRef .tc main_v38) = X) : W8 m ρ c (Proc.devRef .tc main_v73)
    = Cert.RefSpec.layer (F := Ideal) X (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg15)) (m ((c : Thread nD τ).loc main_arg16)) := by
  have h : W8 m ρ c (Proc.devRef .tc main_v73)
      = Cert.KernelSpec.bnLeaky (N := 16384) (H := 2048)
          (StableHlo.after hostOps3 (W6 m ρ c) (Proc.devRef .tc main_v59))
          (StableHlo.after hostOps3 (W6 m ρ c) (Proc.devRef .tc main_v63))
          (StableHlo.after hostOps3 (W6 m ρ c) (Proc.devRef .tc main_v70))
          (StableHlo.after hostOps3 (W6 m ρ c) (Proc.devRef .tc main_v71))
          (StableHlo.after hostOps3 (W6 m ρ c) (Proc.devRef .tc main_v72)) :=
    (W8_arr m ρ c 5).trans (Cert.KernelIdeal.RegionValue.arr3 (V7 m ρ) c)
  rw [s3_x, s3_mu, s3_var, s3_g, s3_be, lin2 m ρ c X hX,
    W6_from0 m ρ c main_arg15 (by decide) (by decide) (by decide) (by decide) (by decide) (by decide), W6_from0 m ρ c main_arg16 (by decide) (by decide) (by decide) (by decide) (by decide) (by decide)] at h
  refine h.trans ?_
  exact Cert.Bridge.bn_eq _ _ _ _

end Cert.KernelIdeal.Chain

end
-- ==== Proof.KStretch4.lean ====
import proofs.«114295_j84782654423394_1_alg».proof.Proof.Gen.KernelIdeal.Launch
import proofs.«114295_j84782654423394_1_alg».proof.Proof.Gen.ReferenceIdeal
import proofs.«114295_j84782654423394_1_alg».proof.Proof.RefSpec
import Idealize.ShloMosaic.Lib.StableHlo.Run
import proofs.«114295_j84782654423394_1_alg».proof.Proof.KStretch0

noncomputable section

namespace Cert.KernelIdeal.Chain

open Cert.KernelIdeal Cert.KernelIdeal.Gen Idealize.ShloMosaic Idealize.ShloMosaic.TcCoe Idealize.ShloMosaic.StableHlo

variable {F : FTy → Type} [FloatOps F] (Wv : Valuation τ sig (Elt F))

/-! The host operations between a normalisation launch and the next linear-map launch, read at an arbitrary entry
    valuation: the previous layer's features and their neighbour mean (over the in-degrees computed once, before the first
    launch) narrowed to bfloat16, the two weight matrices narrowed, and the bias as a one-row matrix. -/

set_option maxHeartbeats 1000000 in
theorem s4_x : after hostOps4 Wv (Proc.devRef .tc main_v89) = truncf .bf16 (Wv (Proc.devRef .tc main_v73)) bitsLt_bf16_f32 := by
  after_results_simp

set_option maxHeartbeats 1000000 in
theorem s4_nm (hdeg : Wv (Proc.devRef .tc main_v3) = degSum (Wv (Proc.devRef .tc main_arg2))) : after hostOps4 Wv (Proc.devRef .tc main_v90)
    = truncf .bf16 (Cert.RefSpec.neighMean (Wv (Proc.devRef .tc main_v73)) (Wv (Proc.devRef .tc main_arg1)) (Wv (Proc.devRef .tc main_arg2))) bitsLt_bf16_f32 := by
  after_results_simp
  rw [hdeg]
  rfl

set_option maxHeartbeats 1000000 in
theorem s4_ws : after hostOps4 Wv (Proc.devRef .tc main_v91) = truncf .bf16 (Wv (Proc.devRef .tc main_arg10)) bitsLt_bf16_f32 := by
  after_results_simp

set_option maxHeartbeats 1000000 in
theorem s4_wn : after hostOps4 Wv (Proc.devRef .tc main_v92) = truncf .bf16 (Wv (Proc.devRef .tc main_arg11)) bitsLt_bf16_f32 := by
  after_results_simp

set_option maxHeartbeats 1000000 in
theorem s4_b : after hostOps4 Wv (Proc.devRef .tc main_v93) = shapeCast S1x2048 (Wv (Proc.devRef .tc main_arg12)) shapeCasts_S2048_S1x2048 := by
  after_results_simp
  rfl

end Cert.KernelIdeal.Chain

end
-- ==== Proof.KStretch5.lean ====
import proofs.«114295_j84782654423394_1_alg».proof.Proof.Gen.KernelIdeal.Launch
import proofs.«114295_j84782654423394_1_alg».proof.Proof.Gen.ReferenceIdeal
import proofs.«114295_j84782654423394_1_alg».proof.Proof.RefSpec
import Idealize.ShloMosaic.Lib.StableHlo.Run
import proofs.«114295_j84782654423394_1_alg».proof.Proof.KStats

noncomputable section

namespace Cert.KernelIdeal.Chain

open Cert.KernelIdeal Cert.KernelIdeal.Gen Idealize.ShloMosaic Idealize.ShloMosaic.TcCoe Idealize.ShloMosaic.StableHlo

variable {F : FTy → Type} [FloatOps F] (Wv : Valuation τ sig (Elt F))

/-! The host operations between a linear-map launch and its normalisation launch, read at an arbitrary entry valuation:
    the launch's output is left alone, its column means and variances are computed as one-row matrices, and the affine
    pair is reshaped to one-row matrices. -/

set_option maxHeartbeats 1000000 in
theorem s5_x : after hostOps5 Wv (Proc.devRef .tc main_v94) = Wv (Proc.devRef .tc main_v94) := by
  after_results_simp

set_option maxHeartbeats 1000000 in
theorem s5_mu : after hostOps5 Wv (Proc.devRef .tc main_v98) = muRow (Wv (Proc.devRef .tc main_v94)) := by
  after_results_simp
  rfl

set_option maxHeartbeats 1000000 in
theorem s5_var : after hostOps5 Wv (Proc.devRef .tc main_v105) = varRow (Wv (Proc.devRef .tc main_v94)) := by
  after_results_simp
  rfl

set_option maxHeartbeats 1000000 in
theorem s5_g : after hostOps5 Wv (Proc.devRef .tc main_v106) = shapeCast S1x2048 (Wv (Proc.devRef .tc main_arg17)) shapeCasts_S2048_S1x2048 := by
  after_results_simp
  rfl

set_option maxHeartbeats 1000000 in
theorem s5_be : after hostOps5 Wv (Proc.devRef .tc main_v107) = shapeCast S1x2048 (Wv (Proc.devRef .tc main_arg18)) shapeCasts_S2048_S1x2048 := by
  after_results_simp
  rfl

end Cert.KernelIdeal.Chain

end
-- ==== Proof.RegionSage4.lean ====
/-
  The third launch of the linear-map kernel: what it leaves in its output array.

  The launch walks a grid of 32 points. At point `t` it stages rows `512·t … 512·t + 511` of the node features and of
  the neighbour means (each 2048 wide), the whole of both 2048×2048 weight matrices and the whole bias row, and writes
  back rows `512·t … 512·t + 511` of the output. What the body leaves at row `p`, column `q` of the staged output
  block is `∑ k, x (512·t + p, k) · ws (k, q) + ∑ k, nm (512·t + p, k) · wn (k, q) + b (0, q)`, which is the entry at
  row `512·t + p`, column `q` of the whole-array function `sageLin`. The 32 row blocks tile the 16384 rows (row `r`
  is in block `r / 512`), so the output array ends holding `sageLin` of the five operand arrays as the launch finds
  them.
-/
import proofs.«114295_j84782654423394_1_alg».proof.Proof.Gen.KernelIdeal.Frame
import proofs.«114295_j84782654423394_1_alg».proof.Proof.SagePayload
import proofs.«114295_j84782654423394_1_alg».proof.Proof.KernelSpec
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, spelt as a constant function. -/
theorem zero_offsets4 : (![0, 0] : Fin 2 → Nat) = fun _ => 0 := funext fun a => by fin_cases a <;> rfl

/-- What the body leaves in the staged output block at row `p`, column `q`, from the five staged input blocks: its one
    store covers the block and its loads read whole blocks. -/
theorem out4_5_apply (x0 x1 : Vec Ideal S512x2048 .bf16) (x2 x3 : Vec Ideal S2048x2048 .bf16)
    (x4 : Vec Ideal S1x2048 .f32) (p : Fin 512) (q : Fin 2048) :
    out4_5 (F := Ideal) x0 x1 x2 x3 x4 (ix2 p q)
      = (∑ k : Fin 2048, x0 (ix2 p k) * x2 (ix2 k q)) + (∑ k : Fin 2048, x1 (ix2 p k) * x3 (ix2 k q))
        + x4 (ix2 (0 : Fin 1) q) := by
  unfold out4_5
  rw [View.canon_unit_zero zero_offsets4]
  simp only [View.ld_unit_zero (S := S512x2048) zero_offsets4, View.ld_unit_zero (S := S2048x2048) zero_offsets4,
    View.ld_unit_zero (S := S1x2048) zero_offsets4]
  exact pay4_apply x0 x2 x1 x3 x4 p q

/-- The block index of each window at each grid point: the two row-tiled inputs and the output move with the point along
    the rows, the weights and the bias row stay at block 0. -/
theorem index4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The staged block of node features at point `t`, read at row `p`, is row `512·t + p` of the array. -/
theorem iblk4_0_apply (c : Dev nD) (t : Fin cfg4.N) (p : Fin 512) (k : Fin 2048) (r : Fin 16384)
    (hr : r.val = t.val * 512 + p.val) :
    (iblk4 V c 0 t : Vec Ideal S512x2048 .bf16) (ix2 p k) = (V c main_v89 : Vec Ideal S16384x2048 .bf16) (ix2 r k) := by
  obtain ⟨e0, e1, -⟩ := index4 t
  unfold iblk4
  rw [View.read_apply]
  show V c main_v89 _ = V c main_v89 _
  refine congrArg _ (funext fun a => Fin.ext ?_)
  match a with
  | ⟨0, _⟩ => show win4_0.index t (0 : Fin 2) * 512 + 1 * p.val = r.val; rw [e0, hr]; omega
  | ⟨1, _⟩ => show win4_0.index t (1 : Fin 2) * 2048 + 1 * k.val = k.val; rw [e1]; omega

/-- The staged block of neighbour means at point `t`, read at row `p`, is row `512·t + p` of the array. -/
theorem iblk4_1_apply (c : Dev nD) (t : Fin cfg4.N) (p : Fin 512) (k : Fin 2048) (r : Fin 16384)
    (hr : r.val = t.val * 512 + p.val) :
    (iblk4 V c 1 t : Vec Ideal S512x2048 .bf16) (ix2 p k) = (V c main_v90 : Vec Ideal S16384x2048 .bf16) (ix2 r k) := by
  obtain ⟨-, -, e0, e1, -⟩ := index4 t
  unfold iblk4
  rw [View.read_apply]
  show V c main_v90 _ = V c main_v90 _
  refine congrArg _ (funext fun a => Fin.ext ?_)
  match a with
  | ⟨0, _⟩ => show win4_1.index t (0 : Fin 2) * 512 + 1 * p.val = r.val; rw [e0, hr]; omega
  | ⟨1, _⟩ => show win4_1.index t (1 : Fin 2) * 2048 + 1 * k.val = k.val; rw [e1]; omega

/-- The staged self weights at any point are the whole array. -/
theorem iblk4_2_eq (c : Dev nD) (t : Fin cfg4.N) :
    (iblk4 V c 2 t : Vec Ideal S2048x2048 .bf16) = (V c main_v91 : Vec Ideal S2048x2048 .bf16) := by
  obtain ⟨-, -, -, -, e0, e1, -⟩ := index4 t
  funext x
  unfold iblk4
  rw [View.read_apply]
  show V c main_v91 _ = V c main_v91 _
  refine congrArg _ (funext fun a => Fin.ext ?_)
  match a with
  | ⟨0, _⟩ => show win4_2.index t (0 : Fin 2) * 2048 + 1 * (x 0).val = (x 0).val; rw [e0]; omega
  | ⟨1, _⟩ => show win4_2.index t (1 : Fin 2) * 2048 + 1 * (x 1).val = (x 1).val; rw [e1]; omega

/-- The staged neighbour weights at any point are the whole array. -/
theorem iblk4_3_eq (c : Dev nD) (t : Fin cfg4.N) :
    (iblk4 V c 3 t : Vec Ideal S2048x2048 .bf16) = (V c main_v92 : Vec Ideal S2048x2048 .bf16) := by
  obtain ⟨-, -, -, -, -, -, e0, e1, -⟩ := index4 t
  funext x
  unfold iblk4
  rw [View.read_apply]
  show V c main_v92 _ = V c main_v92 _
  refine congrArg _ (funext fun a => Fin.ext ?_)
  match a with
  | ⟨0, _⟩ => show win4_3.index t (0 : Fin 2) * 2048 + 1 * (x 0).val = (x 0).val; rw [e0]; omega
  | ⟨1, _⟩ => show win4_3.index t (1 : Fin 2) * 2048 + 1 * (x 1).val = (x 1).val; rw [e1]; omega

/-- The staged bias row at any point is the whole array. -/
theorem iblk4_4_eq (c : Dev nD) (t : Fin cfg4.N) :
    (iblk4 V c 4 t : Vec Ideal S1x2048 .f32) = (V c main_v93 : Vec Ideal S1x2048 .f32) := by
  obtain ⟨-, -, -, -, -, -, -, -, e0, e1, -⟩ := index4 t
  funext x
  unfold iblk4
  rw [View.read_apply]
  show V c main_v93 _ = V c main_v93 _
  refine congrArg _ (funext fun a => Fin.ext ?_)
  match a with
  | ⟨0, _⟩ => show win4_4.index t (0 : Fin 2) * 1 + 1 * (x 0).val = (x 0).val; rw [e0]; omega
  | ⟨1, _⟩ => show win4_4.index t (1 : Fin 2) * 2048 + 1 * (x 1).val = (x 1).val; rw [e1]; omega

/-- What point `t` writes back is block `t` of `sageLin` of the operand arrays as the launch finds them. -/
theorem flushed4_eq (c : Dev nD) (t : Fin cfg4.N) :
    (dat4 (F := Ideal) V c).flushed 5 t = ((cfg4.win 5).blk t).view.read (Elt Ideal)
      (Cert.KernelSpec.sageLin (φ₁ := .bf16) (φ₂ := .bf16) (V c main_v89) (V c main_v90) (V c main_v91) (V c main_v92)
        (V c main_v93)) := by
  show (cfg4.win 5).cut (grid4.coords t) ((dat4 V c).after 5 t) = _
  rw [after4_5]
  funext j
  have hp : (j 0).val < 512 := (j 0).isLt
  have hq : (j 1).val < 2048 := (j 1).isLt
  have hj : win4_5.xinj (grid4.coords t) j = ix2 (⟨(j 0).val, hp⟩ : Fin 512) (⟨(j 1).val, hq⟩ : Fin 2048) := by
    funext a; apply Fin.ext
    match a with
    | ⟨0, _⟩ => rfl
    | ⟨1, _⟩ => rfl
  show out4_5 (iblk4 V c 0 t) (iblk4 V c 1 t) (iblk4 V c 2 t) (iblk4 V c 3 t) (iblk4 V c 4 t)
    (win4_5.xinj (grid4.coords t) j) = _
  rw [hj, out4_5_apply (iblk4 V c 0 t) (iblk4 V c 1 t) (iblk4 V c 2 t) (iblk4 V c 3 t) (iblk4 V c 4 t),
    View.read_apply]
  obtain ⟨r, s, hi⟩ : ∃ (r : Fin 16384) (s : Fin 2048),
      (((cfg4.win 5).blk t).view.emb j : S16384x2048.Idx) = ix2 r s := ⟨_, _, eq_ix2 _⟩
  obtain ⟨-, -, -, -, -, -, -, -, -, -, e0, e1⟩ := index4 t
  have hr : win4_5.index t (0 : Fin 2) * 512 + 1 * (j 0).val = r.val :=
    congrArg (fun i : S16384x2048.Idx => (i 0).val) hi
  have hs : win4_5.index t (1 : Fin 2) * 2048 + 1 * (j 1).val = s.val :=
    congrArg (fun i : S16384x2048.Idx => (i 1).val) hi
  rw [e0] at hr
  rw [e1] at hs
  obtain rfl : s = ⟨(j 1).val, hq⟩ := Fin.ext (by show s.val = (j 1).val; omega)
  show _ = Cert.KernelSpec.sageLin (φ₁ := .bf16) (φ₂ := .bf16) (V c main_v89) (V c main_v90) (V c main_v91)
    (V c main_v92) (V c main_v93) (((cfg4.win 5).blk t).view.emb j : S16384x2048.Idx)
  rw [hi]
  exact congrArg₂ (· + ·) (congrArg₂ (· + ·)
    (Finset.sum_congr rfl fun k _ => congrArg₂ (· * ·)
      (iblk4_0_apply V c t ⟨_, hp⟩ k r (by show r.val = t.val * 512 + (j 0).val; omega))
      (congrFun (iblk4_2_eq V c t) _))
    (Finset.sum_congr rfl fun k _ => congrArg₂ (· * ·)
      (iblk4_1_apply V c t ⟨_, hp⟩ k r (by show r.val = t.val * 512 + (j 0).val; omega))
      (congrFun (iblk4_3_eq V c t) _)))
    (congrFun (iblk4_4_eq V c t) _)

/-- An index of the output array is in point `t`'s block iff each coordinate is in the block's range on its axis. -/
theorem mem_blk4 (t : Fin cfg4.N) (i : S16384x2048.Idx) :
    i ∈ ((cfg4.win 5).blk t).view.set ↔ ∀ a : Fin 2, win4_5.index t a * S512x2048.size a ≤ (i a).val
      ∧ (i a).val < win4_5.index t a * S512x2048.size a + S512x2048.size a := by
  show i ∈ ((View.whole main_v94).slice (win4_5.rect t)).set ↔ _
  rw [View.set_slice_whole, Rect.mem_set_unit]
  exact Iff.rfl

/-- The 32 row blocks tile the array: row `r` is in the block of point `r / 512`, and every point writes back. -/
theorem cover4 (i : S16384x2048.Idx) :
    ∃ t : Fin cfg4.N, (cfg4.win 5).flush t = true ∧ i ∈ ((cfg4.win 5).blk t).view.set := by
  have hi0 : (i 0).val < 16384 := (i 0).isLt
  have hi1 : (i 1).val < 2048 := (i 1).isLt
  have hN : cfg4.N = 32 := N_4
  have ht : (i 0).val / 512 < cfg4.N := by rw [hN]; omega
  obtain ⟨-, -, -, -, -, -, -, -, -, -, e0, e1⟩ := index4 ⟨(i 0).val / 512, ht⟩
  refine ⟨⟨(i 0).val / 512, ht⟩, flush4_5 _, ?_⟩
  rw [mem_blk4]
  intro a
  match a with
  | ⟨0, _⟩ =>
    show win4_5.index ⟨(i 0).val / 512, ht⟩ (0 : Fin 2) * 512 ≤ (i 0).val
      ∧ (i 0).val < win4_5.index ⟨(i 0).val / 512, ht⟩ (0 : Fin 2) * 512 + 512
    rw [e0]; show (i 0).val / 512 * 512 ≤ (i 0).val ∧ (i 0).val < (i 0).val / 512 * 512 + 512; omega
  | ⟨1, _⟩ =>
    show win4_5.index ⟨(i 0).val / 512, ht⟩ (1 : Fin 2) * 2048 ≤ (i 1).val
      ∧ (i 1).val < win4_5.index ⟨(i 0).val / 512, ht⟩ (1 : Fin 2) * 2048 + 2048
    rw [e1]; omega

/-- The output array after the third launch is `sageLin` of the five operand arrays as the launch finds them. -/
theorem arr4 (c : Dev nD) : (dat4 (F := Ideal) V c).arrAt 5 cfg4.N
    = Cert.KernelSpec.sageLin (φ₁ := .bf16) (φ₂ := .bf16) (V c main_v89) (V c main_v90) (V c main_v91) (V c main_v92)
        (V c main_v93) :=
  (dat4 V c).arrAt_eq_of_cover 5 _ (fun t _ => flushed4_eq V c t) cover4

end Cert.KernelIdeal.RegionValue

end
-- ==== Proof.ChainLayer3.lean ====
/-
  Layer 3 of the kernel program, from the previous normalisation launch's output to this layer's.

  The stretch before the linear-map launch narrows the previous features and their neighbour mean — over the in-degree
  sum computed once before the first launch and untouched since — and the layer's weights to bfloat16, and reshapes the
  bias; the launch leaves the reference's linear map of the un-narrowed arrays. The next stretch computes the column
  statistics and reshapes the affine pair; the normalisation launch leaves the reference's rectified normalisation. The
  weights, indices and affine pair are read where no earlier segment wrote them, so they are the launch contents.
-/
import proofs.«114295_j84782654423394_1_alg».proof.Proof.Gen.KernelIdeal.Frame
import proofs.«114295_j84782654423394_1_alg».proof.Proof.Gen.ReferenceIdeal
import proofs.«114295_j84782654423394_1_alg».proof.Proof.RefSpec
import proofs.«114295_j84782654423394_1_alg».proof.Proof.KernelSpec
import proofs.«114295_j84782654423394_1_alg».proof.Proof.KKeep
import proofs.«114295_j84782654423394_1_alg».proof.Proof.BridgeLayers
import proofs.«114295_j84782654423394_1_alg».proof.Proof.BridgeBn
import proofs.«114295_j84782654423394_1_alg».proof.Proof.BridgeNarrow
import proofs.«114295_j84782654423394_1_alg».proof.Proof.KStretch4
import proofs.«114295_j84782654423394_1_alg».proof.Proof.KStretch5
import proofs.«114295_j84782654423394_1_alg».proof.Proof.RegionSage4
import proofs.«114295_j84782654423394_1_alg».proof.Proof.RegionBn
import proofs.«114295_j84782654423394_1_alg».proof.Proof.KStretch0

set_option maxRecDepth 16384

noncomputable section

namespace Cert.KernelIdeal.Chain

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg) (c : Dev nD)

variable (X : Cert.RefSpec.Arr Ideal Cert.ReferenceIdeal.S16384x2048 .f32)

/-- The in-degree sum is still in its buffer when this layer's first stretch begins. -/
theorem deg8 : W8 m ρ c (Proc.devRef .tc main_v3) = degSum (F := Ideal) (m ((c : Thread nD τ).loc main_arg2)) :=
  (W8_from1 m ρ c main_v3 (by decide) (by decide) (by decide) (by decide) (by decide) (by decide) (by decide)).trans (s0_v3 (W0 m ρ c))

/-- The array the linear-map launch leaves: the reference's linear map of the previous features. -/
theorem lin3 (hX : W8 m ρ c (Proc.devRef .tc main_v73) = X) : W10 m ρ c (Proc.devRef .tc main_v94)
    = Cert.RefSpec.sage (F := Ideal) X (Cert.RefSpec.neighMean (F := Ideal) X (m ((c : Thread nD τ).loc main_arg1)) (m ((c : Thread nD τ).loc main_arg2))) (m ((c : Thread nD τ).loc main_arg10)) (m ((c : Thread nD τ).loc main_arg11)) (m ((c : Thread nD τ).loc main_arg12)) := by
  have hdeg : W8 m ρ c (Proc.devRef .tc main_v3) = degSum (F := Ideal) (W8 m ρ c (Proc.devRef .tc main_arg2)) := by
    rw [W8_from0 m ρ c main_arg2 (by decide) (by decide) (by decide) (by decide) (by decide) (by decide) (by decide) (by decide)]
    exact deg8 m ρ c
  have h : W10 m ρ c (Proc.devRef .tc main_v94)
      = Cert.KernelSpec.sageLin (φ₁ := .bf16) (φ₂ := .bf16)
          (StableHlo.after hostOps4 (W8 m ρ c) (Proc.devRef .tc main_v89))
          (StableHlo.after hostOps4 (W8 m ρ c) (Proc.devRef .tc main_v90))
          (StableHlo.after hostOps4 (W8 m ρ c) (Proc.devRef .tc main_v91))
          (StableHlo.after hostOps4 (W8 m ρ c) (Proc.devRef .tc main_v92))
          (StableHlo.after hostOps4 (W8 m ρ c) (Proc.devRef .tc main_v93)) :=
    (W10_arr m ρ c 5).trans (Cert.KernelIdeal.RegionValue.arr4 (V9 m ρ) c)
  rw [s4_x, s4_nm (W8 m ρ c) hdeg, s4_ws, s4_wn, s4_b, hX,
    W8_from0 m ρ c main_arg1 (by decide) (by decide) (by decide) (by decide) (by decide) (by decide) (by decide) (by decide), W8_from0 m ρ c main_arg2 (by decide) (by decide) (by decide) (by decide) (by decide) (by decide) (by decide) (by decide),
    W8_from0 m ρ c main_arg10 (by decide) (by decide) (by decide) (by decide) (by decide) (by decide) (by decide) (by decide), W8_from0 m ρ c main_arg11 (by decide) (by decide) (by decide) (by decide) (by decide) (by decide) (by decide) (by decide),
    W8_from0 m ρ c main_arg12 (by decide) (by decide) (by decide) (by decide) (by decide) (by decide) (by decide) (by decide)] at h
  refine h.trans ?_
  exact Cert.Bridge.sage_narrow_eq _ _ _ _ _ _ rfl _ _ _ _

/-- The array the normalisation launch leaves: the reference's layer of the previous features. -/
theorem out3 (hX : W8 m ρ c (Proc.devRef .tc main_v73) = X) : W12 m ρ c (Proc.devRef .tc main_v108)
    = Cert.RefSpec.layer (F := Ideal) X (m ((c : Thread nD τ).loc main_arg1)) (m ((c : Thread nD τ).loc main_arg2)) (m ((c : Thread nD τ).loc main_arg10)) (m ((c : Thread nD τ).loc main_arg11)) (m ((c : Thread nD τ).loc main_arg12)) (m ((c : Thread nD τ).loc main_arg17)) (m ((c : Thread nD τ).loc main_arg18)) := by
  have h : W12 m ρ c (Proc.devRef .tc main_v108)
      = Cert.KernelSpec.bnLeaky (N := 16384) (H := 2048)
          (StableHlo.after hostOps5 (W10 m ρ c) (Proc.devRef .tc main_v94))
          (StableHlo.after hostOps5 (W10 m ρ c) (Proc.devRef .tc main_v98))
          (StableHlo.after hostOps5 (W10 m ρ c) (Proc.devRef .tc main_v105))
          (StableHlo.after hostOps5 (W10 m ρ c) (Proc.devRef .tc main_v106))
          (StableHlo.after hostOps5 (W10 m ρ c) (Proc.devRef .tc main_v107)) :=
    (W12_arr m ρ c 5).trans (Cert.KernelIdeal.RegionValue.arr5 (V11 m ρ) c)
  rw [s5_x, s5_mu, s5_var, s5_g, s5_be, lin3 m ρ c X hX,
    W10_from0 m ρ c main_arg17 (by decide) (by decide) (by decide) (by decide) (by decide) (by decide) (by decide) (by decide) (by decide) (by decide), W10_from0 m ρ c main_arg18 (by decide) (by decide) (by decide) (by decide) (by decide) (by decide) (by decide) (by decide) (by decide) (by decide)] at h
  refine h.trans ?_
  exact Cert.Bridge.bn_eq _ _ _ _

end Cert.KernelIdeal.Chain

end
-- ==== Proof.KStretch6.lean ====
import proofs.«114295_j84782654423394_1_alg».proof.Proof.Gen.KernelIdeal.Launch
import proofs.«114295_j84782654423394_1_alg».proof.Proof.Gen.ReferenceIdeal
import proofs.«114295_j84782654423394_1_alg».proof.Proof.RefSpec
import Idealize.ShloMosaic.Lib.StableHlo.Run

noncomputable section

namespace Cert.KernelIdeal.Chain

open Cert.KernelIdeal Cert.KernelIdeal.Gen Idealize.ShloMosaic Idealize.ShloMosaic.TcCoe Idealize.ShloMosaic.StableHlo

variable {F : FTy → Type} [FloatOps F] (Wv : Valuation τ sig (Elt F))

/-! The host operations before the last launch, read at an arbitrary entry valuation: the per-graph mean of the node
    features narrowed to bfloat16, the three weight matrices narrowed, and the three biases as one-row matrices. -/

set_option maxHeartbeats 1000000 in
theorem s6_hg : after hostOps6 Wv (Proc.devRef .tc main_v121)
    = truncf .bf16 (Cert.RefSpec.pooled (Wv (Proc.devRef .tc main_v108)) (Wv (Proc.devRef .tc main_arg3))) bitsLt_bf16_f32 := by
  after_results_simp
  rfl

set_option maxHeartbeats 1000000 in
theorem s6_w1 : after hostOps6 Wv (Proc.devRef .tc main_v122) = truncf .bf16 (Wv (Proc.devRef .tc main_arg19)) bitsLt_bf16_f32 := by
  after_results_simp

set_option maxHeartbeats 1000000 in
theorem s6_w2 : after hostOps6 Wv (Proc.devRef .tc main_v123) = truncf .bf16 (Wv (Proc.devRef .tc main_arg21)) bitsLt_bf16_f32 := by
  after_results_simp

set_option maxHeartbeats 1000000 in
theorem s6_w3 : after hostOps6 Wv (Proc.devRef .tc main_v124) = truncf .bf16 (Wv (Proc.devRef .tc main_arg23)) bitsLt_bf16_f32 := by
  after_results_simp

set_option maxHeartbeats 1000000 in
theorem s6_b1 : after hostOps6 Wv (Proc.devRef .tc main_v125) = shapeCast S1x2048 (Wv (Proc.devRef .tc main_arg20)) shapeCasts_S2048_S1x2048 := by
  after_results_simp
  rfl

set_option maxHeartbeats 1000000 in
theorem s6_b2 : after hostOps6 Wv (Proc.devRef .tc main_v126) = shapeCast S1x1024 (Wv (Proc.devRef .tc main_arg22)) shapeCasts_S1024_S1x1024 := by
  after_results_simp
  rfl

set_option maxHeartbeats 1000000 in
theorem s6_b3 : after hostOps6 Wv (Proc.devRef .tc main_v127) = shapeCast S1x18 (Wv (Proc.devRef .tc main_arg24)) shapeCasts_S18_S1x18 := by
  after_results_simp
  rfl

end Cert.KernelIdeal.Chain

end
-- ==== Proof.RegionHead.lean ====
/-
  What the launch of the perceptron head leaves in its output array.

  The kernel has ONE grid point and every window's block is its whole array, so the body sees the seven operand arrays
  themselves. Its body is three plain matrix products into zero, each plus its bias row broadcast over the rows; the
  first two are followed by the leaky rectifier and a narrowing of the element type, which changes nothing at the ideal
  values. A product into zero plus a bias row is `KernelSpec.dense` entry by entry (the product's entry is the sum over
  the contracted coordinate), the rectifier is `KernelSpec.leakyV`, so the body's result is `KernelSpec.head` of the
  operands, and the one block written back covers the output array.
-/
import proofs.«114295_j84782654423394_1_alg».proof.Proof.Gen.KernelIdeal.Frame
import proofs.«114295_j84782654423394_1_alg».proof.Proof.KernelSpec
import proofs.«114295_j84782654423394_1_alg».proof.Proof.LibPlainProduct
import Idealize.ShloMosaic.Lib.Pipeline.Value
import Idealize.ShloMosaic.Lib.ValueLayout

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic -/

/-- A plain product into the zero matrix plus a bias row broadcast over the rows is, entry by entry, the sum over the
    contracted coordinate plus the bias at the entry's column. -/
theorem head_dense_eq {m k n : Nat} {φ₁ φ₂ : FTy} (A : FVec Ideal ⟨2, ![m, k]⟩ φ₁) (B : FVec Ideal ⟨2, ![k, n]⟩ φ₂)
    (b : FVec Ideal ⟨2, ![1, n]⟩ .f32) (h : (⟨2, ![1, n]⟩ : Shape).Broadcasts ⟨2, ![m, n]⟩) :
    addf (matmul (DotDims.plain m k n) none A B (constant (F := Ideal) ⟨2, ![m, n]⟩ .f32 0x00000000#32))
        (broadcastTo ⟨2, ![m, n]⟩ b h)
      = Cert.KernelSpec.dense A B b := by
  funext j
  obtain ⟨p, q, rfl⟩ : ∃ (p : Fin m) (q : Fin n), j = ix2 p q := ⟨j 0, j 1, eq_ix2 j⟩
  rw [addf_apply, Cert.LibPlainProduct.matmul_plain_zero_apply, broadcastTo_1b_ab_apply]
  rfl

/-- A layer fed by the previous layer's values rectified and narrowed: the narrowing is the identity on the extended
    reals and the select of `x` against `x` times the slope where `x > 0` is the leaky rectifier. -/
theorem head_layer_eq {m k n : Nat} {φ₂ : FTy} (x : FVec Ideal ⟨2, ![m, k]⟩ .f32) (B : FVec Ideal ⟨2, ![k, n]⟩ φ₂)
    (b : FVec Ideal ⟨2, ![1, n]⟩ .f32) (h : (⟨2, ![1, n]⟩ : Shape).Broadcasts ⟨2, ![m, n]⟩)
    (hlt : FTy.bf16.bits < FTy.f32.bits) :
    addf (matmul (DotDims.plain m k n) none
        (truncf .bf16 (select (cmpf .ogt x (broadcast ⟨2, ![m, k]⟩ (Scalar.ofBits (F := Ideal) .f32 0x00000000#32))) x
          (mulf x (broadcast ⟨2, ![m, k]⟩ (Scalar.ofBits (F := Ideal) .f32 0x3C23D70A#32)))) hlt)
        B (constant (F := Ideal) ⟨2, ![m, n]⟩ .f32 0x00000000#32)) (broadcastTo ⟨2, ![m, n]⟩ b h)
      = Cert.KernelSpec.dense (Cert.KernelSpec.leakyV x) B b := by
  refine (head_dense_eq _ B b h).trans ?_
  rfl

/-- The body's result is the perceptron head of its seven blocks: the three layers from the outermost in. -/
theorem head_pay (v0 : FVec Ideal S64x2048 .bf16) (v2 : FVec Ideal S2048x2048 .bf16) (v5 : FVec Ideal S1x2048 .f32)
    (v15 : FVec Ideal S2048x1024 .bf16) (v18 : FVec Ideal S1x1024 .f32) (v28 : FVec Ideal S1024x18 .bf16)
    (v31 : FVec Ideal S1x18 .f32) :
    k6_pay1 (F := Ideal) v0 v2 v5 v15 v18 v28 v31 = Cert.KernelSpec.head v0 v2 v5 v15 v18 v28 v31 := by
  unfold k6_pay1 Cert.KernelSpec.head
  simp only [shapeCast_self]
  refine (head_layer_eq (m := 64) (k := 1024) (n := 18) _ v28 v31 _ _).trans ?_
  refine congrArg (fun z => Cert.KernelSpec.dense (Cert.KernelSpec.leakyV z) v28 v31) ?_
  refine (head_layer_eq (m := 64) (k := 2048) (n := 1024) _ v15 v18 _ _).trans ?_
  refine congrArg (fun z => Cert.KernelSpec.dense (Cert.KernelSpec.leakyV z) v15 v18) ?_
  exact head_dense_eq (m := 64) (k := 2048) (n := 2048) v0 v2 v5 _

/-! ## From the one block to the array -/

/-- The zero offset vector of the body's whole-block accesses. -/
theorem head_hz : (![0, 0] : Fin 2 → Nat) = fun _ => 0 := funext fun a => by fin_cases a <;> rfl

variable (V : (c : Dev nD) → (b : Ref sig .tc) → Buf (Elt Ideal) ((c : Thread nD τ).loc b))

/-- Every window's block index at the one grid point is zero on both axes. -/
theorem head_idx : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0 :=
  (by decide +kernel : ∀ t : Fin grid6.N, _)

/-! An entry of a window's block sits at the same place in the window's array: the block is the whole array. -/
theorem head_emb0 (t : Fin cfg6.N) (p : Fin 64) (q : Fin 2048) :
    ((cfg6.win 0).blk t).view.emb (ix2 p q) = ix2 p q := by
  obtain ⟨e0, e1, -⟩ := head_idx t
  funext a; apply Fin.ext
  match a with
  | ⟨0, _⟩ => show win6_0.index t (0 : Fin 2) * 64 + 1 * p.val = p.val; rw [e0]; omega
  | ⟨1, _⟩ => show win6_0.index t (1 : Fin 2) * 2048 + 1 * q.val = q.val; rw [e1]; omega
theorem head_emb1 (t : Fin cfg6.N) (p : Fin 2048) (q : Fin 2048) :
    ((cfg6.win 1).blk t).view.emb (ix2 p q) = ix2 p q := by
  obtain ⟨-, -, e0, e1, -⟩ := head_idx t
  funext a; apply Fin.ext
  match a with
  | ⟨0, _⟩ => show win6_1.index t (0 : Fin 2) * 2048 + 1 * p.val = p.val; rw [e0]; omega
  | ⟨1, _⟩ => show win6_1.index t (1 : Fin 2) * 2048 + 1 * q.val = q.val; rw [e1]; omega
theorem head_emb2 (t : Fin cfg6.N) (p : Fin 1) (q : Fin 2048) :
    ((cfg6.win 2).blk t).view.emb (ix2 p q) = ix2 p q := by
  obtain ⟨-, -, -, -, e0, e1, -⟩ := head_idx t
  funext a; apply Fin.ext
  match a with
  | ⟨0, _⟩ => show win6_2.index t (0 : Fin 2) * 1 + 1 * p.val = p.val; rw [e0]; omega
  | ⟨1, _⟩ => show win6_2.index t (1 : Fin 2) * 2048 + 1 * q.val = q.val; rw [e1]; omega
theorem head_emb3 (t : Fin cfg6.N) (p : Fin 2048) (q : Fin 1024) :
    ((cfg6.win 3).blk t).view.emb (ix2 p q) = ix2 p q := by
  obtain ⟨-, -, -, -, -, -, e0, e1, -⟩ := head_idx t
  funext a; apply Fin.ext
  match a with
  | ⟨0, _⟩ => show win6_3.index t (0 : Fin 2) * 2048 + 1 * p.val = p.val; rw [e0]; omega
  | ⟨1, _⟩ => show win6_3.index t (1 : Fin 2) * 1024 + 1 * q.val = q.val; rw [e1]; omega
theorem head_emb4 (t : Fin cfg6.N) (p : Fin 1) (q : Fin 1024) :
    ((cfg6.win 4).blk t).view.emb (ix2 p q) = ix2 p q := by
  obtain ⟨-, -, -, -, -, -, -, -, e0, e1, -⟩ := head_idx t
  funext a; apply Fin.ext
  match a with
  | ⟨0, _⟩ => show win6_4.index t (0 : Fin 2) * 1 + 1 * p.val = p.val; rw [e0]; omega
  | ⟨1, _⟩ => show win6_4.index t (1 : Fin 2) * 1024 + 1 * q.val = q.val; rw [e1]; omega
theorem head_emb5 (t : Fin cfg6.N) (p : Fin 1024) (q : Fin 18) :
    ((cfg6.win 5).blk t).view.emb (ix2 p q) = ix2 p q := by
  obtain ⟨-, -, -, -, -, -, -, -, -, -, e0, e1, -⟩ := head_idx t
  funext a; apply Fin.ext
  match a with
  | ⟨0, _⟩ => show win6_5.index t (0 : Fin 2) * 1024 + 1 * p.val = p.val; rw [e0]; omega
  | ⟨1, _⟩ => show win6_5.index t (1 : Fin 2) * 18 + 1 * q.val = q.val; rw [e1]; omega
theorem head_emb6 (t : Fin cfg6.N) (p : Fin 1) (q : Fin 18) :
    ((cfg6.win 6).blk t).view.emb (ix2 p q) = ix2 p q := by
  obtain ⟨-, -, -, -, -, -, -, -, -, -, -, -, e0, e1, -⟩ := head_idx t
  funext a; apply Fin.ext
  match a with
  | ⟨0, _⟩ => show win6_6.index t (0 : Fin 2) * 1 + 1 * p.val = p.val; rw [e0]; omega
  | ⟨1, _⟩ => show win6_6.index t (1 : Fin 2) * 18 + 1 * q.val = q.val; rw [e1]; omega
theorem head_emb7 (t : Fin cfg6.N) (p : Fin 64) (q : Fin 18) :
    ((cfg6.win 7).blk t).view.emb (ix2 p q) = ix2 p q := by
  obtain ⟨-, -, -, -, -, -, -, -, -, -, -, -, -, -, e0, e1⟩ := head_idx t
  funext a; apply Fin.ext
  match a with
  | ⟨0, _⟩ => show win6_7.index t (0 : Fin 2) * 64 + 1 * p.val = p.val; rw [e0]; omega
  | ⟨1, _⟩ => show win6_7.index t (1 : Fin 2) * 18 + 1 * q.val = q.val; rw [e1]; omega

/-! So each input block IS its operand array. -/
theorem head_blk0 (c : Dev nD) (t : Fin cfg6.N) : (iblk6 V c 0 t : FVec Ideal S64x2048 .bf16) = V c main_v121 := by
  funext j
  obtain ⟨p, q, rfl⟩ : ∃ (p : Fin 64) (q : Fin 2048), j = ix2 p q := ⟨j 0, j 1, eq_ix2 j⟩
  show V c main_v121 (((cfg6.win 0).blk t).view.emb (ix2 p q)) = _
  rw [head_emb0]
theorem head_blk1 (c : Dev nD) (t : Fin cfg6.N) : (iblk6 V c 1 t : FVec Ideal S2048x2048 .bf16) = V c main_v122 := by
  funext j
  obtain ⟨p, q, rfl⟩ : ∃ (p : Fin 2048) (q : Fin 2048), j = ix2 p q := ⟨j 0, j 1, eq_ix2 j⟩
  show V c main_v122 (((cfg6.win 1).blk t).view.emb (ix2 p q)) = _
  rw [head_emb1]
theorem head_blk2 (c : Dev nD) (t : Fin cfg6.N) : (iblk6 V c 2 t : FVec Ideal S1x2048 .f32) = V c main_v125 := by
  funext j
  obtain ⟨p, q, rfl⟩ : ∃ (p : Fin 1) (q : Fin 2048), j = ix2 p q := ⟨j 0, j 1, eq_ix2 j⟩
  show V c main_v125 (((cfg6.win 2).blk t).view.emb (ix2 p q)) = _
  rw [head_emb2]
theorem head_blk3 (c : Dev nD) (t : Fin cfg6.N) : (iblk6 V c 3 t : FVec Ideal S2048x1024 .bf16) = V c main_v123 := by
  funext j
  obtain ⟨p, q, rfl⟩ : ∃ (p : Fin 2048) (q : Fin 1024), j = ix2 p q := ⟨j 0, j 1, eq_ix2 j⟩
  show V c main_v123 (((cfg6.win 3).blk t).view.emb (ix2 p q)) = _
  rw [head_emb3]
theorem head_blk4 (c : Dev nD) (t : Fin cfg6.N) : (iblk6 V c 4 t : FVec Ideal S1x1024 .f32) = V c main_v126 := by
  funext j
  obtain ⟨p, q, rfl⟩ : ∃ (p : Fin 1) (q : Fin 1024), j = ix2 p q := ⟨j 0, j 1, eq_ix2 j⟩
  show V c main_v126 (((cfg6.win 4).blk t).view.emb (ix2 p q)) = _
  rw [head_emb4]
theorem head_blk5 (c : Dev nD) (t : Fin cfg6.N) : (iblk6 V c 5 t : FVec Ideal S1024x18 .bf16) = V c main_v124 := by
  funext j
  obtain ⟨p, q, rfl⟩ : ∃ (p : Fin 1024) (q : Fin 18), j = ix2 p q := ⟨j 0, j 1, eq_ix2 j⟩
  show V c main_v124 (((cfg6.win 5).blk t).view.emb (ix2 p q)) = _
  rw [head_emb5]
theorem head_blk6 (c : Dev nD) (t : Fin cfg6.N) : (iblk6 V c 6 t : FVec Ideal S1x18 .f32) = V c main_v127 := by
  funext j
  obtain ⟨p, q, rfl⟩ : ∃ (p : Fin 1) (q : Fin 18), j = ix2 p q := ⟨j 0, j 1, eq_ix2 j⟩
  show V c main_v127 (((cfg6.win 6).blk t).view.emb (ix2 p q)) = _
  rw [head_emb6]

/-- What the one point writes back is the (whole-array) block of the perceptron head of the operand arrays. -/
theorem head_flushed (c : Dev nD) (t : Fin cfg6.N) :
    (dat6 (F := Ideal) V c).flushed 7 t = ((cfg6.win 7).blk t).view.read (Elt Ideal)
      (Cert.KernelSpec.head (G := 64) (D1 := 2048) (D2 := 2048) (D3 := 1024) (D4 := 18) (φ := .bf16) (φ₁ := .bf16) (φ₂ := .bf16) (φ₃ := .bf16)
      (V c main_v121) (V c main_v122) (V c main_v125) (V c main_v123) (V c main_v126) (V c main_v124) (V c main_v127)) := by
  show (cfg6.win 7).cut (grid6.coords t) ((dat6 V c).after 7 t) = _
  rw [after6_7]
  unfold out6_7
  rw [View.canon_unit_zero head_hz]
  simp only [View.ld_unit_zero (S := S64x2048) head_hz, View.ld_unit_zero (S := S2048x2048) head_hz,
    View.ld_unit_zero (S := S1x2048) head_hz, View.ld_unit_zero (S := S2048x1024) head_hz,
    View.ld_unit_zero (S := S1x1024) head_hz, View.ld_unit_zero (S := S1024x18) head_hz,
    View.ld_unit_zero (S := S1x18) head_hz]
  funext j
  obtain ⟨p, q, rfl⟩ : ∃ (p : Fin 64) (q : Fin 18), j = ix2 p q := ⟨j 0, j 1, eq_ix2 j⟩
  show k6_pay1 (iblk6 V c 0 t) (iblk6 V c 1 t) (iblk6 V c 2 t) (iblk6 V c 3 t) (iblk6 V c 4 t) (iblk6 V c 5 t) (iblk6 V c 6 t) (ix2 p q)
    = Cert.KernelSpec.head (G := 64) (D1 := 2048) (D2 := 2048) (D3 := 1024) (D4 := 18) (φ := .bf16) (φ₁ := .bf16) (φ₂ := .bf16) (φ₃ := .bf16)
      (V c main_v121) (V c main_v122) (V c main_v125) (V c main_v123) (V c main_v126) (V c main_v124) (V c main_v127)
        (((cfg6.win 7).blk t).view.emb (ix2 p q))
  rw [head_emb7]
  refine (congrFun (head_pay (iblk6 V c 0 t) (iblk6 V c 1 t) (iblk6 V c 2 t) (iblk6 V c 3 t) (iblk6 V c 4 t) (iblk6 V c 5 t) (iblk6 V c 6 t)) (ix2 p q)).trans ?_
  rw [head_blk0, head_blk1, head_blk2, head_blk3, head_blk4, head_blk5, head_blk6]

/-- An index of the output array is in the point's block iff each coordinate is in the block's range on its axis. -/
theorem head_mem_blk (t : Fin cfg6.N) (i : S64x18.Idx) :
    i ∈ ((cfg6.win 7).blk t).view.set ↔ ∀ a : Fin 2, win6_7.index t a * S64x18.size a ≤ (i a).val
      ∧ (i a).val < win6_7.index t a * S64x18.size a + S64x18.size a := by
  show i ∈ ((View.whole main_v128).slice (win6_7.rect t)).set ↔ _
  rw [View.set_slice_whole, Rect.mem_set_unit]
  exact Iff.rfl

/-- The one point's block covers the output array. -/
theorem head_cover (i : S64x18.Idx) :
    ∃ t : Fin cfg6.N, (cfg6.win 7).flush t = true ∧ i ∈ ((cfg6.win 7).blk t).view.set := by
  have hi0 : (i 0).val < 64 := (i 0).isLt
  have hi1 : (i 1).val < 18 := (i 1).isLt
  have hN : cfg6.N = 1 := N_6
  obtain ⟨t⟩ : Nonempty (Fin cfg6.N) := ⟨⟨0, by rw [hN]; exact Nat.one_pos⟩⟩
  obtain ⟨-, -, -, -, -, -, -, -, -, -, -, -, -, -, e0, e1⟩ := head_idx t
  refine ⟨t, flush6_7 t, ?_⟩
  rw [head_mem_blk]
  intro a
  match a with
  | ⟨0, _⟩ =>
    show win6_7.index t (0 : Fin 2) * 64 ≤ (i 0).val ∧ (i 0).val < win6_7.index t (0 : Fin 2) * 64 + 64
    rw [e0]; omega
  | ⟨1, _⟩ =>
    show win6_7.index t (1 : Fin 2) * 18 ≤ (i 1).val ∧ (i 1).val < win6_7.index t (1 : Fin 2) * 18 + 18
    rw [e1]; omega

/-- The head launch's output array after its run: the perceptron head of the pooled features, the three weight
    matrices and the three bias rows. -/
theorem arr6 (c : Dev nD) : (dat6 (F := Ideal) V c).arrAt 7 cfg6.N
    = Cert.KernelSpec.head (G := 64) (D1 := 2048) (D2 := 2048) (D3 := 1024) (D4 := 18) (φ := .bf16) (φ₁ := .bf16) (φ₂ := .bf16) (φ₃ := .bf16)
      (V c main_v121) (V c main_v122) (V c main_v125) (V c main_v123) (V c main_v126) (V c main_v124) (V c main_v127) :=
  (dat6 V c).arrAt_eq_of_cover 7 _ (fun t _ => head_flushed V c t) head_cover

end Cert.KernelIdeal.RegionValue

end
-- ==== Proof.BridgeHead.lean ====
/-
  The perceptron head: the kernel's value function of the narrowed operands is the reference's host term.

  The head is three "product plus bias row" layers with the leaky rectifier between them. The kernel narrows the pooled
  features and every weight matrix to bfloat16 before each product; on the extended reals narrowing is the identity, so
  each layer of narrowed operands is the layer of the operands themselves, which is the reference's host contraction plus
  the bias broadcast twice; and the entrywise rectifier is the reference's compare, multiply and select. Rewriting from
  the innermost layer outward turns the kernel's composition into the reference's.
-/
import proofs.«114295_j84782654423394_1_alg».proof.Proof.BridgeNarrow
import proofs.«114295_j84782654423394_1_alg».proof.Proof.RefSpec
import proofs.«114295_j84782654423394_1_alg».proof.Proof.Gen.ReferenceIdeal

noncomputable section

namespace Cert.Bridge

open Cert.ReferenceIdeal Cert.ReferenceIdeal.Facts₀ Cert.ReferenceIdeal.Facts
open Idealize.ShloMosaic Idealize.ShloMosaic.ValueIdx

variable {N D H : Nat}

/-- A product plus a bias row whose weight alone is narrowed to bfloat16 (the left operand is a rectified value, already
    binary32): narrowing is the identity on the extended reals, so this is the layer of the weight itself. -/
theorem dense_narrow_weight_eq (x : FVec Ideal ⟨2, ![N, D]⟩ .f32) (w : FVec Ideal ⟨2, ![D, H]⟩ .f32)
    (b : FVec Ideal ⟨1, ![H]⟩ .f32)
    (d : DotDims ⟨2, ![N, D]⟩ ⟨2, ![D, H]⟩ ⟨2, ![N, H]⟩) (hd : d = DotDims.plain N D H)
    (hs : (⟨1, ![H]⟩ : Shape).ShapeCasts ⟨2, ![1, H]⟩)
    (h1 : (⟨1, ![H]⟩ : Shape).BroadcastsInDim ⟨2, ![1, H]⟩ (![1] : Fin 1 → Fin 2))
    (h2 : (⟨2, ![1, H]⟩ : Shape).BroadcastsInDim ⟨2, ![N, H]⟩ (![0, 1] : Fin 2 → Fin 2))
    (hb : FTy.bf16.bits < FTy.f32.bits) :
    Cert.KernelSpec.dense (φ₁ := .f32) (φ₂ := .bf16) x (truncf .bf16 w hb) (shapeCast ⟨2, ![1, H]⟩ b hs)
      = addf (Host.dotGeneral d none x w)
          (broadcastInDim ⟨2, ![N, H]⟩ ![0, 1] h2 (broadcastInDim ⟨2, ![1, H]⟩ ![1] h1 b)) :=
  (show Cert.KernelSpec.dense (φ₁ := .f32) (φ₂ := .bf16) x (truncf .bf16 w hb) (shapeCast ⟨2, ![1, H]⟩ b hs)
    = Cert.KernelSpec.dense (φ₁ := .f32) (φ₂ := .f32) x w (shapeCast ⟨2, ![1, H]⟩ b hs) from rfl).trans
    (dense_eq x w b d hd hs h1 h2)

/-- The entrywise rectifier on the 64×2048 hidden values is the reference's rectifier there. -/
theorem leakyV_eq_leakyG (y : FVec Ideal ⟨2, ![64, 2048]⟩ .f32) :
    Cert.KernelSpec.leakyV y = Cert.RefSpec.leakyG (F := Ideal) y :=
  leakyV_eq y bcast_S_S64x2048

/-- The entrywise rectifier on the 64×1024 hidden values is the reference's rectifier there. -/
theorem leakyV_eq_leakyM (y : FVec Ideal ⟨2, ![64, 1024]⟩ .f32) :
    Cert.KernelSpec.leakyV y = Cert.RefSpec.leakyM (F := Ideal) y :=
  leakyV_eq y bcast_S_S64x1024

/-- The kernel's head of the narrowed pooled features and weights, with each bias as a one-row matrix, is the
    reference's head of the arrays themselves. -/
theorem head_eq (hg : FVec Ideal ⟨2, ![64, 2048]⟩ .f32) (w1 : FVec Ideal ⟨2, ![2048, 2048]⟩ .f32)
    (b1 : FVec Ideal ⟨1, ![2048]⟩ .f32) (w2 : FVec Ideal ⟨2, ![2048, 1024]⟩ .f32) (b2 : FVec Ideal ⟨1, ![1024]⟩ .f32)
    (w3 : FVec Ideal ⟨2, ![1024, 18]⟩ .f32) (b3 : FVec Ideal ⟨1, ![18]⟩ .f32)
    (hb : FTy.bf16.bits < FTy.f32.bits) (hs1 : (⟨1, ![2048]⟩ : Shape).ShapeCasts ⟨2, ![1, 2048]⟩)
    (hs2 : (⟨1, ![1024]⟩ : Shape).ShapeCasts ⟨2, ![1, 1024]⟩) (hs3 : (⟨1, ![18]⟩ : Shape).ShapeCasts ⟨2, ![1, 18]⟩) :
    Cert.KernelSpec.head (φ := .bf16) (φ₁ := .bf16) (φ₂ := .bf16) (φ₃ := .bf16) (truncf .bf16 hg hb)
        (truncf .bf16 w1 hb) (shapeCast ⟨2, ![1, 2048]⟩ b1 hs1) (truncf .bf16 w2 hb) (shapeCast ⟨2, ![1, 1024]⟩ b2 hs2)
        (truncf .bf16 w3 hb) (shapeCast ⟨2, ![1, 18]⟩ b3 hs3)
      = Cert.RefSpec.head (F := Ideal) hg w1 b1 w2 b2 w3 b3 := by
  unfold Cert.KernelSpec.head Cert.RefSpec.head
  rw [dense_narrow_eq hg w1 b1 dot_S64x2048_S2048x2048_S64x2048_1_0_0_1_n_n rfl hs1 bcast_S2048_S1x2048_1
    bcast_S1x2048_S64x2048_0_1 hb]
  rw [leakyV_eq_leakyG]
  rw [dense_narrow_weight_eq _ w2 b2 dot_S64x2048_S2048x1024_S64x1024_1_0_0_1_n_n rfl hs2 bcast_S1024_S1x1024_1
    bcast_S1x1024_S64x1024_0_1 hb]
  rw [leakyV_eq_leakyM]
  rw [dense_narrow_weight_eq _ w3 b3 dot_S64x1024_S1024x18_S64x18_1_0_0_1_n_n rfl hs3 bcast_S18_S1x18_1
    bcast_S1x18_S64x18_0_1 hb]

end Cert.Bridge

end
-- ==== Proof.ChainHead.lean ====
/-
  The pooling stretch and the head launch of the kernel program.

  The last stretch forms, per graph, the mean of its nodes' final features (a scatter-sum divided by the node count floored
  at one — the reference's own pooling term), narrows it and the three weight matrices to bfloat16 and reshapes the three
  biases to one-row matrices; the head launch, whose single grid point sees every array whole, leaves the three-layer
  perceptron of those, which at the ideal values is the reference's head of the un-narrowed arrays.
-/
import proofs.«114295_j84782654423394_1_alg».proof.Proof.Gen.KernelIdeal.Frame
import proofs.«114295_j84782654423394_1_alg».proof.Proof.Gen.ReferenceIdeal
import proofs.«114295_j84782654423394_1_alg».proof.Proof.RefSpec
import proofs.«114295_j84782654423394_1_alg».proof.Proof.KernelSpec
import proofs.«114295_j84782654423394_1_alg».proof.Proof.KKeep
import proofs.«114295_j84782654423394_1_alg».proof.Proof.BridgeLayers
import proofs.«114295_j84782654423394_1_alg».proof.Proof.BridgeBn
import proofs.«114295_j84782654423394_1_alg».proof.Proof.BridgeNarrow
import proofs.«114295_j84782654423394_1_alg».proof.Proof.KStretch6
import proofs.«114295_j84782654423394_1_alg».proof.Proof.RegionHead
import proofs.«114295_j84782654423394_1_alg».proof.Proof.BridgeHead

set_option maxRecDepth 16384

noncomputable section

namespace Cert.KernelIdeal.Chain

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg) (c : Dev nD)

variable (X : Cert.RefSpec.Arr Ideal Cert.ReferenceIdeal.S16384x2048 .f32)

/-- The result array: the reference's head of the pooled final features. -/
theorem outHead (hX : W12 m ρ c (Proc.devRef .tc main_v108) = X) : W14 m ρ c (Proc.devRef .tc main_v128)
    = Cert.RefSpec.head (F := Ideal) (Cert.RefSpec.pooled (F := Ideal) X (m ((c : Thread nD τ).loc main_arg3))) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  have h : W14 m ρ c (Proc.devRef .tc main_v128)
      = Cert.KernelSpec.head (φ := .bf16) (φ₁ := .bf16) (φ₂ := .bf16) (φ₃ := .bf16)
          (StableHlo.after hostOps6 (W12 m ρ c) (Proc.devRef .tc main_v121))
          (StableHlo.after hostOps6 (W12 m ρ c) (Proc.devRef .tc main_v122))
          (StableHlo.after hostOps6 (W12 m ρ c) (Proc.devRef .tc main_v125))
          (StableHlo.after hostOps6 (W12 m ρ c) (Proc.devRef .tc main_v123))
          (StableHlo.after hostOps6 (W12 m ρ c) (Proc.devRef .tc main_v126))
          (StableHlo.after hostOps6 (W12 m ρ c) (Proc.devRef .tc main_v124))
          (StableHlo.after hostOps6 (W12 m ρ c) (Proc.devRef .tc main_v127)) :=
    (W14_arr m ρ c 7).trans (Cert.KernelIdeal.RegionValue.arr6 (V13 m ρ) c)
  rw [s6_hg, s6_w1, s6_b1, s6_w2, s6_b2, s6_w3, s6_b3, hX,
    W12_from0 m ρ c main_arg3 (by decide) (by decide) (by decide) (by decide) (by decide) (by decide) (by decide) (by decide) (by decide) (by decide) (by decide) (by decide), W12_from0 m ρ c main_arg19 (by decide) (by decide) (by decide) (by decide) (by decide) (by decide) (by decide) (by decide) (by decide) (by decide) (by decide) (by decide), W12_from0 m ρ c main_arg20 (by decide) (by decide) (by decide) (by decide) (by decide) (by decide) (by decide) (by decide) (by decide) (by decide) (by decide) (by decide),
    W12_from0 m ρ c main_arg21 (by decide) (by decide) (by decide) (by decide) (by decide) (by decide) (by decide) (by decide) (by decide) (by decide) (by decide) (by decide), W12_from0 m ρ c main_arg22 (by decide) (by decide) (by decide) (by decide) (by decide) (by decide) (by decide) (by decide) (by decide) (by decide) (by decide) (by decide), W12_from0 m ρ c main_arg23 (by decide) (by decide) (by decide) (by decide) (by decide) (by decide) (by decide) (by decide) (by decide) (by decide) (by decide) (by decide),
    W12_from0 m ρ c main_arg24 (by decide) (by decide) (by decide) (by decide) (by decide) (by decide) (by decide) (by decide) (by decide) (by decide) (by decide) (by decide)] at h
  refine h.trans ?_
  exact Cert.Bridge.head_eq _ _ _ _ _ _ _ _ _ _ _

end Cert.KernelIdeal.Chain

end
-- ==== Proof.KernelValue.lean ====
/-
  The idealized kernel program's result as a function of its arguments.

  The result buffer's final contents are the fold's contents at the last segment boundary; followed back through the head
  launch, the pooling stretch and the three layers, each of which leaves the reference's corresponding term of what it
  found, they are the reference network's composed term of the program's argument arrays.
-/
import proofs.«114295_j84782654423394_1_alg».proof.Proof.KernelRun
import proofs.«114295_j84782654423394_1_alg».proof.Proof.ChainLayer1
import proofs.«114295_j84782654423394_1_alg».proof.Proof.ChainLayer2
import proofs.«114295_j84782654423394_1_alg».proof.Proof.ChainLayer3
import proofs.«114295_j84782654423394_1_alg».proof.Proof.ChainHead

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The last boundary's contents at the result buffer are the reference network of the arguments. -/
theorem result_eq (c : Dev nD) : W14 m ρ c (Proc.devRef .tc main_v128)
    = Cert.RefSpec.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  unfold Cert.RefSpec.result
  exact outHead m ρ c _ (out3 m ρ c _ (out2 m ρ c _ (out1 m ρ c)))

/-- Every weakly fair execution of the idealized kernel program terminates without a fault, with the result buffer at the
    reference network of the arguments and the arguments as launched. -/
theorem run : θ_run defs (onTc (τ := τ) (main (F := Ideal))) ⟨m, fun _ => 0, ρ⟩ (fun r => ∀ c : Dev nD,
      r.2.mem ((c.tc : Thread nD τ).loc main_v128) = Cert.RefSpec.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => ⟨(h c).1.trans (result_eq m ρ c), (h c).2⟩) (Cert.KernelIdeal.RunValue.run m ρ)

end Cert.KernelIdeal.Chain

end
-- ==== Proof.RefRunOps.lean ====
/-
  The reference program's @main as lists of its host operations, in program order, each outlined function's
  body written out at its call over that call's buffers (the comparison with zero, the slope broadcast and
  multiplied, the select).

  Two partitions of the same 251 operations:
  * by the program's four windows, each cut where a layer's activation has just been written
    (`P0`, `P1a ++ P1b`, `P2a ++ P2b`, `P3a ++ P3b`), for the equation with the program text;
  * by what they compute: `L1` (the first layer, up to its activation), `L2`, `L3` (the two further layers) and
    `LT` (pooling and the perceptron head), for reading the result one layer at a time.
  `after` of a concatenation is the composition of the two folds.
-/
import proofs.«114295_j84782654423394_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Window 0: the first layer up to the scaled, centred rows and the two affine rows. -/
abbrev P0 : List (HloOp τ sig (Elt F)) :=
  [ StableHlo.nullary main_cst (constant S_ .f32 0x3F800000#32),
    StableHlo.unary main_cst main_v0 (broadcastInDim S65536 ![] bcast_S_S65536 : (⟨S_, .f32⟩ : BufTy).Contents (Elt F) → (⟨S65536, .f32⟩ : BufTy).Contents (Elt F)),
    StableHlo.nullary main_cst_0 (constant S_ .f32 0x00000000#32),
    StableHlo.unary main_cst_0 main_v1 (broadcastInDim S16384 ![] bcast_S_S16384 : (⟨S_, .f32⟩ : BufTy).Contents (Elt F) → (⟨S16384, .f32⟩ : BufTy).Contents (Elt F)),
    StableHlo.unary main_arg2 main_v2 (broadcastInDim S65536x1 ![0] bcast_S65536_S65536x1_0 : (⟨S65536, .i32⟩ : BufTy).Contents (Elt F) → (⟨S65536x1, .i32⟩ : BufTy).Contents (Elt F)),
    StableHlo.ternary main_v1 main_v2 main_v0 main_v3 ((fun x i u => Host.scatterAdd scatter_S16384_S65536x1_S65536_n_0_0_1 x i u) : (⟨S16384, .f32⟩ : BufTy).Contents (Elt F) → (⟨S65536x1, .i32⟩ : BufTy).Contents (Elt F) → (⟨S65536, .f32⟩ : BufTy).Contents (Elt F) → (⟨S16384, .f32⟩ : BufTy).Contents (Elt F)),
    StableHlo.nullary main_c (constantI S_ 32 0#32),
    StableHlo.unary main_c main_v4 (broadcastInDim S65536 ![] bcast_S_S65536 : (⟨S_, .i32⟩ : BufTy).Contents (Elt F) → (⟨S65536, .i32⟩ : BufTy).Contents (Elt F)),
    StableHlo.binary main_arg1 main_v4 main_v5 (cmpi .slt : (⟨S65536, .i32⟩ : BufTy).Contents (Elt F) → (⟨S65536, .i32⟩ : BufTy).Contents (Elt F) → (⟨S65536, .i1⟩ : BufTy).Contents (Elt F)),
    StableHlo.nullary main_c_1 (constantI S_ 32 16384#32),
    StableHlo.unary main_c_1 main_v6 (broadcastInDim S65536 ![] bcast_S_S65536 : (⟨S_, .i32⟩ : BufTy).Contents (Elt F) → (⟨S65536, .i32⟩ : BufTy).Contents (Elt F)),
    StableHlo.binary main_arg1 main_v6 main_v7 (addi : (⟨S65536, .i32⟩ : BufTy).Contents (Elt F) → (⟨S65536, .i32⟩ : BufTy).Contents (Elt F) → (⟨S65536, .i32⟩ : BufTy).Contents (Elt F)),
    StableHlo.ternary main_v5 main_v7 main_arg1 main_v8 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v8 main_v9 (broadcastInDim S65536x1 ![0] bcast_S65536_S65536x1_0 : (⟨S65536, .i32⟩ : BufTy).Contents (Elt F) → (⟨S65536x1, .i32⟩ : BufTy).Contents (Elt F)),
    StableHlo.binary main_arg0 main_v9 main_v10 ((fun x i => Host.gather gather_S16384x63_S65536x1_S65536x63_1_0_n_n_0_1_163 x i) : (⟨S16384x63, .f32⟩ : BufTy).Contents (Elt F) → (⟨S65536x1, .i32⟩ : BufTy).Contents (Elt F) → (⟨S65536x63, .f32⟩ : BufTy).Contents (Elt F)),
    StableHlo.nullary main_cst_2 (constant S_ .f32 0x00000000#32),
    StableHlo.unary main_cst_2 main_v11 (broadcastInDim S16384x63 ![] bcast_S_S16384x63 : (⟨S_, .f32⟩ : BufTy).Contents (Elt F) → (⟨S16384x63, .f32⟩ : BufTy).Contents (Elt F)),
    StableHlo.unary main_arg2 main_v12 (broadcastInDim S65536x1 ![0] bcast_S65536_S65536x1_0 : (⟨S65536, .i32⟩ : BufTy).Contents (Elt F) → (⟨S65536x1, .i32⟩ : BufTy).Contents (Elt F)),
    StableHlo.ternary main_v11 main_v12 main_v10 main_v13 ((fun x i u => Host.scatterAdd scatter_S16384x63_S65536x1_S65536x63_1_0_0_1 x i u) : (⟨S16384x63, .f32⟩ : BufTy).Contents (Elt F) → (⟨S65536x1, .i32⟩ : BufTy).Contents (Elt F) → (⟨S65536x63, .f32⟩ : BufTy).Contents (Elt F) → (⟨S16384x63, .f32⟩ : BufTy).Contents (Elt F)),
    StableHlo.nullary main_cst_3 (constant S_ .f32 0x3F800000#32),
    StableHlo.unary main_cst_3 main_v14 (broadcastInDim S16384 ![] bcast_S_S16384 : (⟨S_, .f32⟩ : BufTy).Contents (Elt F) → (⟨S16384, .f32⟩ : BufTy).Contents (Elt F)),
    StableHlo.binary main_v3 main_v14 main_v15 (maximumf : (⟨S16384, .f32⟩ : BufTy).Contents (Elt F) → (⟨S16384, .f32⟩ : BufTy).Contents (Elt F) → (⟨S16384, .f32⟩ : BufTy).Contents (Elt F)),
    StableHlo.unary main_v15 main_v16 (broadcastInDim S16384x1 ![0] bcast_S16384_S16384x1_0 : (⟨S16384, .f32⟩ : BufTy).Contents (Elt F) → (⟨S16384x1, .f32⟩ : BufTy).Contents (Elt F)),
    StableHlo.unary main_v16 main_v17 (broadcastInDim S16384x63 ![0, 1] bcast_S16384x1_S16384x63_0_1 : (⟨S16384x1, .f32⟩ : BufTy).Contents (Elt F) → (⟨S16384x63, .f32⟩ : BufTy).Contents (Elt F)),
    StableHlo.binary main_v13 main_v17 main_v18 (Host.divf : (⟨S16384x63, .f32⟩ : BufTy).Contents (Elt F) → (⟨S16384x63, .f32⟩ : BufTy).Contents (Elt F) → (⟨S16384x63, .f32⟩ : BufTy).Contents (Elt F)),
    StableHlo.binary main_arg0 main_arg4 main_v19 ((fun l r => Host.dotGeneral dot_S16384x63_S63x2048_S16384x2048_1_0_0_1_n_n none l r) : (⟨S16384x63, .f32⟩ : BufTy).Contents (Elt F) → (⟨S63x2048, .f32⟩ : BufTy).Contents (Elt F) → (⟨S16384x2048, .f32⟩ : BufTy).Contents (Elt F)),
    StableHlo.binary main_v18 main_arg5 main_v20 ((fun l r => Host.dotGeneral dot_S16384x63_S63x2048_S16384x2048_1_0_0_1_n_n none l r) : (⟨S16384x63, .f32⟩ : BufTy).Contents (Elt F) → (⟨S63x2048, .f32⟩ : BufTy).Contents (Elt F) → (⟨S16384x2048, .f32⟩ : BufTy).Contents (Elt F)),
    StableHlo.binary main_v19 main_v20 main_v21 (addf : (⟨S16384x2048, .f32⟩ : BufTy).Contents (Elt F) → (⟨S16384x2048, .f32⟩ : BufTy).Contents (Elt F) → (⟨S16384x2048, .f32⟩ : BufTy).Contents (Elt F)),
    StableHlo.unary main_arg6 main_v22 (broadcastInDim S1x2048 ![1] bcast_S2048_S1x2048_1 : (⟨S2048, .f32⟩ : BufTy).Contents (Elt F) → (⟨S1x2048, .f32⟩ : BufTy).Contents (Elt F)),
    StableHlo.unary main_v22 main_v23 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v21 main_v23 main_v24 (addf : (⟨S16384x2048, .f32⟩ : BufTy).Contents (Elt F) → (⟨S16384x2048, .f32⟩ : BufTy).Contents (Elt F) → (⟨S16384x2048, .f32⟩ : BufTy).Contents (Elt F)),
    StableHlo.nullary main_cst_4 (constant S_ .f32 0x00000000#32),
    StableHlo.binary main_v24 main_cst_4 main_v25 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    StableHlo.nullary main_cst_5 (constant S_ .f32 0x46800000#32),
    StableHlo.unary main_cst_5 main_v26 (broadcastInDim S2048 ![] bcast_S_S2048 : (⟨S_, .f32⟩ : BufTy).Contents (Elt F) → (⟨S2048, .f32⟩ : BufTy).Contents (Elt F)),
    StableHlo.binary main_v25 main_v26 main_v27 (Host.divf : (⟨S2048, .f32⟩ : BufTy).Contents (Elt F) → (⟨S2048, .f32⟩ : BufTy).Contents (Elt F) → (⟨S2048, .f32⟩ : BufTy).Contents (Elt F)),
    StableHlo.unary main_v27 main_v28 (broadcastInDim S1x2048 ![1] bcast_S2048_S1x2048_1 : (⟨S2048, .f32⟩ : BufTy).Contents (Elt F) → (⟨S1x2048, .f32⟩ : BufTy).Contents (Elt F)),
    StableHlo.unary main_v28 main_v29 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v24 main_v29 main_v30 (subf : (⟨S16384x2048, .f32⟩ : BufTy).Contents (Elt F) → (⟨S16384x2048, .f32⟩ : BufTy).Contents (Elt F) → (⟨S16384x2048, .f32⟩ : BufTy).Contents (Elt F)),
    StableHlo.binary main_v30 main_v30 main_v31 (mulf : (⟨S16384x2048, .f32⟩ : BufTy).Contents (Elt F) → (⟨S16384x2048, .f32⟩ : BufTy).Contents (Elt F) → (⟨S16384x2048, .f32⟩ : BufTy).Contents (Elt F)),
    StableHlo.nullary main_cst_6 (constant S_ .f32 0x00000000#32),
    StableHlo.binary main_v31 main_cst_6 main_v32 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    StableHlo.nullary main_cst_7 (constant S_ .f32 0x46800000#32),
    StableHlo.unary main_cst_7 main_v33 (broadcastInDim S2048 ![] bcast_S_S2048 : (⟨S_, .f32⟩ : BufTy).Contents (Elt F) → (⟨S2048, .f32⟩ : BufTy).Contents (Elt F)),
    StableHlo.binary main_v32 main_v33 main_v34 (Host.divf : (⟨S2048, .f32⟩ : BufTy).Contents (Elt F) → (⟨S2048, .f32⟩ : BufTy).Contents (Elt F) → (⟨S2048, .f32⟩ : BufTy).Contents (Elt F)),
    StableHlo.unary main_v27 main_v35 (broadcastInDim S1x2048 ![1] bcast_S2048_S1x2048_1 : (⟨S2048, .f32⟩ : BufTy).Contents (Elt F) → (⟨S1x2048, .f32⟩ : BufTy).Contents (Elt F)),
    StableHlo.unary main_v35 main_v36 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v24 main_v36 main_v37 (subf : (⟨S16384x2048, .f32⟩ : BufTy).Contents (Elt F) → (⟨S16384x2048, .f32⟩ : BufTy).Contents (Elt F) → (⟨S16384x2048, .f32⟩ : BufTy).Contents (Elt F)),
    StableHlo.nullary main_cst_8 (constant S_ .f32 0x3727C5AC#32),
    StableHlo.unary main_cst_8 main_v38 (broadcastInDim S2048 ![] bcast_S_S2048 : (⟨S_, .f32⟩ : BufTy).Contents (Elt F) → (⟨S2048, .f32⟩ : BufTy).Contents (Elt F)),
    StableHlo.binary main_v34 main_v38 main_v39 (addf : (⟨S2048, .f32⟩ : BufTy).Contents (Elt F) → (⟨S2048, .f32⟩ : BufTy).Contents (Elt F) → (⟨S2048, .f32⟩ : BufTy).Contents (Elt F)),
    StableHlo.unary main_v39 main_v40 (Host.rsqrt : (⟨S2048, .f32⟩ : BufTy).Contents (Elt F) → (⟨S2048, .f32⟩ : BufTy).Contents (Elt F)),
    StableHlo.unary main_v40 main_v41 (broadcastInDim S1x2048 ![1] bcast_S2048_S1x2048_1 : (⟨S2048, .f32⟩ : BufTy).Contents (Elt F) → (⟨S1x2048, .f32⟩ : BufTy).Contents (Elt F)),
    StableHlo.unary main_v41 main_v42 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v37 main_v42 main_v43 (mulf : (⟨S16384x2048, .f32⟩ : BufTy).Contents (Elt F) → (⟨S16384x2048, .f32⟩ : BufTy).Contents (Elt F) → (⟨S16384x2048, .f32⟩ : BufTy).Contents (Elt F)),
    StableHlo.unary main_arg13 main_v44 (broadcastInDim S1x2048 ![1] bcast_S2048_S1x2048_1 : (⟨S2048, .f32⟩ : BufTy).Contents (Elt F) → (⟨S1x2048, .f32⟩ : BufTy).Contents (Elt F)),
    StableHlo.unary main_v44 main_v45 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v43 main_v45 main_v46 (mulf : (⟨S16384x2048, .f32⟩ : BufTy).Contents (Elt F) → (⟨S16384x2048, .f32⟩ : BufTy).Contents (Elt F) → (⟨S16384x2048, .f32⟩ : BufTy).Contents (Elt F)),
    StableHlo.unary main_arg14 main_v47 (broadcastInDim S1x2048 ![1] bcast_S2048_S1x2048_1 : (⟨S2048, .f32⟩ : BufTy).Contents (Elt F) → (⟨S1x2048, .f32⟩ : BufTy).Contents (Elt F)),
    StableHlo.unary main_v47 main_v48 (broadcastInDim S16384x2048 ![0, 1] bcast_S1x2048_S16384x2048_0_1 : (⟨S1x2048, .f32⟩ : BufTy).Contents (Elt F) → (⟨S16384x2048, .f32⟩ : BufTy).Contents (Elt F)) ]

/-- Window 1, head: the first layer's shift and its activation. -/
abbrev P1a : List (HloOp τ sig (Elt F)) :=
  [ StableHlo.binary main_v46 main_v48 main_v49 (addf : (⟨S16384x2048, .f32⟩ : BufTy).Contents (Elt F) → (⟨S16384x2048, .f32⟩ : BufTy).Contents (Elt F) → (⟨S16384x2048, .f32⟩ : BufTy).Contents (Elt F)),
    StableHlo.nullary main_cst_9 (constant S_ .f32 0x3C23D70A#32),
    StableHlo.nullary main_call0_cst (constant S_ .f32 0x00000000#32),
    StableHlo.unary main_call0_cst main_call0_v0 (broadcastInDim S16384x2048 ![] bcast_S_S16384x2048 : (⟨S_, .f32⟩ : BufTy).Contents (Elt F) → (⟨S16384x2048, .f32⟩ : BufTy).Contents (Elt F)),
    StableHlo.binary main_v49 main_call0_v0 main_call0_v1 (cmpf .oge : (⟨S16384x2048, .f32⟩ : BufTy).Contents (Elt F) → (⟨S16384x2048, .f32⟩ : BufTy).Contents (Elt F) → (⟨S16384x2048, .i1⟩ : BufTy).Contents (Elt F)),
    StableHlo.unary main_cst_9 main_call0_v2 (id : (⟨S_, .f32⟩ : BufTy).Contents (Elt F) → (⟨S_, .f32⟩ : BufTy).Contents (Elt F)),
    StableHlo.unary main_call0_v2 main_call0_v3 (broadcastInDim S16384x2048 ![] bcast_S_S16384x2048 : (⟨S_, .f32⟩ : BufTy).Contents (Elt F) → (⟨S16384x2048, .f32⟩ : BufTy).Contents (Elt F)),
    StableHlo.binary main_call0_v3 main_v49 main_call0_v4 (mulf : (⟨S16384x2048, .f32⟩ : BufTy).Contents (Elt F) → (⟨S16384x2048, .f32⟩ : BufTy).Contents (Elt F) → (⟨S16384x2048, .f32⟩ : BufTy).Contents (Elt F)),
    StableHlo.ternary main_call0_v1 main_v49 main_call0_v4 main_v50 (select : (⟨S16384x2048, .i1⟩ : BufTy).Contents (Elt F) → (⟨S16384x2048, .f32⟩ : BufTy).Contents (Elt F) → (⟨S16384x2048, .f32⟩ : BufTy).Contents (Elt F) → (⟨S16384x2048, .f32⟩ : BufTy).Contents (Elt F)) ]

/-- Window 1, tail: the second layer up to the scale row. -/
abbrev P1b : List (HloOp τ sig (Elt F)) :=
  [ StableHlo.nullary main_cst_10 (constant S_ .f32 0x3F800000#32),
    StableHlo.unary main_cst_10 main_v51 (broadcastInDim S65536 ![] bcast_S_S65536 : (⟨S_, .f32⟩ : BufTy).Contents (Elt F) → (⟨S65536, .f32⟩ : BufTy).Contents (Elt F)),
    StableHlo.nullary main_cst_11 (constant S_ .f32 0x00000000#32),
    StableHlo.unary main_cst_11 main_v52 (broadcastInDim S16384 ![] bcast_S_S16384 : (⟨S_, .f32⟩ : BufTy).Contents (Elt F) → (⟨S16384, .f32⟩ : BufTy).Contents (Elt F)),
    StableHlo.unary main_arg2 main_v53 (broadcastInDim S65536x1 ![0] bcast_S65536_S65536x1_0 : (⟨S65536, .i32⟩ : BufTy).Contents (Elt F) → (⟨S65536x1, .i32⟩ : BufTy).Contents (Elt F)),
    StableHlo.ternary main_v52 main_v53 main_v51 main_v54 ((fun x i u => Host.scatterAdd scatter_S16384_S65536x1_S65536_n_0_0_1 x i u) : (⟨S16384, .f32⟩ : BufTy).Contents (Elt F) → (⟨S65536x1, .i32⟩ : BufTy).Contents (Elt F) → (⟨S65536, .f32⟩ : BufTy).Contents (Elt F) → (⟨S16384, .f32⟩ : BufTy).Contents (Elt F)),
    StableHlo.nullary main_c_12 (constantI S_ 32 0#32),
    StableHlo.unary main_c_12 main_v55 (broadcastInDim S65536 ![] bcast_S_S65536 : (⟨S_, .i32⟩ : BufTy).Contents (Elt F) → (⟨S65536, .i32⟩ : BufTy).Contents (Elt F)),
    StableHlo.binary main_arg1 main_v55 main_v56 (cmpi .slt : (⟨S65536, .i32⟩ : BufTy).Contents (Elt F) → (⟨S65536, .i32⟩ : BufTy).Contents (Elt F) → (⟨S65536, .i1⟩ : BufTy).Contents (Elt F)),
    StableHlo.nullary main_c_13 (constantI S_ 32 16384#32),
    StableHlo.unary main_c_13 main_v57 (broadcastInDim S65536 ![] bcast_S_S65536 : (⟨S_, .i32⟩ : BufTy).Contents (Elt F) → (⟨S65536, .i32⟩ : BufTy).Contents (Elt F)),
    StableHlo.binary main_arg1 main_v57 main_v58 (addi : (⟨S65536, .i32⟩ : BufTy).Contents (Elt F) → (⟨S65536, .i32⟩ : BufTy).Contents (Elt F) → (⟨S65536, .i32⟩ : BufTy).Contents (Elt F)),
    StableHlo.ternary main_v56 main_v58 main_arg1 main_v59 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v59 main_v60 (broadcastInDim S65536x1 ![0] bcast_S65536_S65536x1_0 : (⟨S65536, .i32⟩ : BufTy).Contents (Elt F) → (⟨S65536x1, .i32⟩ : BufTy).Contents (Elt F)),
    StableHlo.binary main_v50 main_v60 main_v61 ((fun x i => Host.gather gather_S16384x2048_S65536x1_S65536x2048_1_0_n_n_0_1_12048 x i) : (⟨S16384x2048, .f32⟩ : BufTy).Contents (Elt F) → (⟨S65536x1, .i32⟩ : BufTy).Contents (Elt F) → (⟨S65536x2048, .f32⟩ : BufTy).Contents (Elt F)),
    StableHlo.nullary main_cst_14 (constant S_ .f32 0x00000000#32),
    StableHlo.unary main_cst_14 main_v62 (broadcastInDim S16384x2048 ![] bcast_S_S16384x2048 : (⟨S_, .f32⟩ : BufTy).Contents (Elt F) → (⟨S16384x2048, .f32⟩ : BufTy).Contents (Elt F)),
    StableHlo.unary main_arg2 main_v63 (broadcastInDim S65536x1 ![0] bcast_S65536_S65536x1_0 : (⟨S65536, .i32⟩ : BufTy).Contents (Elt F) → (⟨S65536x1, .i32⟩ : BufTy).Contents (Elt F)),
    StableHlo.ternary main_v62 main_v63 main_v61 main_v64 ((fun x i u => Host.scatterAdd scatter_S16384x2048_S65536x1_S65536x2048_1_0_0_1 x i u) : (⟨S16384x2048, .f32⟩ : BufTy).Contents (Elt F) → (⟨S65536x1, .i32⟩ : BufTy).Contents (Elt F) → (⟨S65536x2048, .f32⟩ : BufTy).Contents (Elt F) → (⟨S16384x2048, .f32⟩ : BufTy).Contents (Elt F)),
    StableHlo.nullary main_cst_15 (constant S_ .f32 0x3F800000#32),
    StableHlo.unary main_cst_15 main_v65 (broadcastInDim S16384 ![] bcast_S_S16384 : (⟨S_, .f32⟩ : BufTy).Contents (Elt F) → (⟨S16384, .f32⟩ : BufTy).Contents (Elt F)),
    StableHlo.binary main_v54 main_v65 main_v66 (maximumf : (⟨S16384, .f32⟩ : BufTy).Contents (Elt F) → (⟨S16384, .f32⟩ : BufTy).Contents (Elt F) → (⟨S16384, .f32⟩ : BufTy).Contents (Elt F)),
    StableHlo.unary main_v66 main_v67 (broadcastInDim S16384x1 ![0] bcast_S16384_S16384x1_0 : (⟨S16384, .f32⟩ : BufTy).Contents (Elt F) → (⟨S16384x1, .f32⟩ : BufTy).Contents (Elt F)),
    StableHlo.unary main_v67 main_v68 (broadcastInDim S16384x2048 ![0, 1] bcast_S16384x1_S16384x2048_0_1 : (⟨S16384x1, .f32⟩ : BufTy).Contents (Elt F) → (⟨S16384x2048, .f32⟩ : BufTy).Contents (Elt F)),
    StableHlo.binary main_v64 main_v68 main_v69 (Host.divf : (⟨S16384x2048, .f32⟩ : BufTy).Contents (Elt F) → (⟨S16384x2048, .f32⟩ : BufTy).Contents (Elt F) → (⟨S16384x2048, .f32⟩ : BufTy).Contents (Elt F)),
    StableHlo.binary main_v50 main_arg7 main_v70 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    StableHlo.binary main_v69 main_arg8 main_v71 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    StableHlo.binary main_v70 main_v71 main_v72 (addf : (⟨S16384x2048, .f32⟩ : BufTy).Contents (Elt F) → (⟨S16384x2048, .f32⟩ : BufTy).Contents (Elt F) → (⟨S16384x2048, .f32⟩ : BufTy).Contents (Elt F)),
    StableHlo.unary main_arg9 main_v73 (broadcastInDim S1x2048 ![1] bcast_S2048_S1x2048_1 : (⟨S2048, .f32⟩ : BufTy).Contents (Elt F) → (⟨S1x2048, .f32⟩ : BufTy).Contents (Elt F)),
    StableHlo.unary main_v73 main_v74 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v72 main_v74 main_v75 (addf : (⟨S16384x2048, .f32⟩ : BufTy).Contents (Elt F) → (⟨S16384x2048, .f32⟩ : BufTy).Contents (Elt F) → (⟨S16384x2048, .f32⟩ : BufTy).Contents (Elt F)),
    StableHlo.nullary main_cst_16 (constant S_ .f32 0x00000000#32),
    StableHlo.binary main_v75 main_cst_16 main_v76 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    StableHlo.nullary main_cst_17 (constant S_ .f32 0x46800000#32),
    StableHlo.unary main_cst_17 main_v77 (broadcastInDim S2048 ![] bcast_S_S2048 : (⟨S_, .f32⟩ : BufTy).Contents (Elt F) → (⟨S2048, .f32⟩ : BufTy).Contents (Elt F)),
    StableHlo.binary main_v76 main_v77 main_v78 (Host.divf : (⟨S2048, .f32⟩ : BufTy).Contents (Elt F) → (⟨S2048, .f32⟩ : BufTy).Contents (Elt F) → (⟨S2048, .f32⟩ : BufTy).Contents (Elt F)),
    StableHlo.unary main_v78 main_v79 (broadcastInDim S1x2048 ![1] bcast_S2048_S1x2048_1 : (⟨S2048, .f32⟩ : BufTy).Contents (Elt F) → (⟨S1x2048, .f32⟩ : BufTy).Contents (Elt F)),
    StableHlo.unary main_v79 main_v80 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v75 main_v80 main_v81 (subf : (⟨S16384x2048, .f32⟩ : BufTy).Contents (Elt F) → (⟨S16384x2048, .f32⟩ : BufTy).Contents (Elt F) → (⟨S16384x2048, .f32⟩ : BufTy).Contents (Elt F)),
    StableHlo.binary main_v81 main_v81 main_v82 (mulf : (⟨S16384x2048, .f32⟩ : BufTy).Contents (Elt F) → (⟨S16384x2048, .f32⟩ : BufTy).Contents (Elt F) → (⟨S16384x2048, .f32⟩ : BufTy).Contents (Elt F)),
    StableHlo.nullary main_cst_18 (constant S_ .f32 0x00000000#32),
    StableHlo.binary main_v82 main_cst_18 main_v83 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    StableHlo.nullary main_cst_19 (constant S_ .f32 0x46800000#32),
    StableHlo.unary main_cst_19 main_v84 (broadcastInDim S2048 ![] bcast_S_S2048 : (⟨S_, .f32⟩ : BufTy).Contents (Elt F) → (⟨S2048, .f32⟩ : BufTy).Contents (Elt F)),
    StableHlo.binary main_v83 main_v84 main_v85 (Host.divf : (⟨S2048, .f32⟩ : BufTy).Contents (Elt F) → (⟨S2048, .f32⟩ : BufTy).Contents (Elt F) → (⟨S2048, .f32⟩ : BufTy).Contents (Elt F)),
    StableHlo.unary main_v78 main_v86 (broadcastInDim S1x2048 ![1] bcast_S2048_S1x2048_1 : (⟨S2048, .f32⟩ : BufTy).Contents (Elt F) → (⟨S1x2048, .f32⟩ : BufTy).Contents (Elt F)),
    StableHlo.unary main_v86 main_v87 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v75 main_v87 main_v88 (subf : (⟨S16384x2048, .f32⟩ : BufTy).Contents (Elt F) → (⟨S16384x2048, .f32⟩ : BufTy).Contents (Elt F) → (⟨S16384x2048, .f32⟩ : BufTy).Contents (Elt F)),
    StableHlo.nullary main_cst_20 (constant S_ .f32 0x3727C5AC#32),
    StableHlo.unary main_cst_20 main_v89 (broadcastInDim S2048 ![] bcast_S_S2048 : (⟨S_, .f32⟩ : BufTy).Contents (Elt F) → (⟨S2048, .f32⟩ : BufTy).Contents (Elt F)),
    StableHlo.binary main_v85 main_v89 main_v90 (addf : (⟨S2048, .f32⟩ : BufTy).Contents (Elt F) → (⟨S2048, .f32⟩ : BufTy).Contents (Elt F) → (⟨S2048, .f32⟩ : BufTy).Contents (Elt F)),
    StableHlo.unary main_v90 main_v91 (Host.rsqrt : (⟨S2048, .f32⟩ : BufTy).Contents (Elt F) → (⟨S2048, .f32⟩ : BufTy).Contents (Elt F)),
    StableHlo.unary main_v91 main_v92 (broadcastInDim S1x2048 ![1] bcast_S2048_S1x2048_1 : (⟨S2048, .f32⟩ : BufTy).Contents (Elt F) → (⟨S1x2048, .f32⟩ : BufTy).Contents (Elt F)),
    StableHlo.unary main_v92 main_v93 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v88 main_v93 main_v94 (mulf : (⟨S16384x2048, .f32⟩ : BufTy).Contents (Elt F) → (⟨S16384x2048, .f32⟩ : BufTy).Contents (Elt F) → (⟨S16384x2048, .f32⟩ : BufTy).Contents (Elt F)),
    StableHlo.unary main_arg15 main_v95 (broadcastInDim S1x2048 ![1] bcast_S2048_S1x2048_1 : (⟨S2048, .f32⟩ : BufTy).Contents (Elt F) → (⟨S1x2048, .f32⟩ : BufTy).Contents (Elt F)),
    StableHlo.unary main_v95 main_v96 (broadcastInDim S16384x2048 ![0, 1] bcast_S1x2048_S16384x2048_0_1 : (⟨S1x2048, .f32⟩ : BufTy).Contents (Elt F) → (⟨S16384x2048, .f32⟩ : BufTy).Contents (Elt F)) ]

/-- Window 2, head: the second layer's affine pair and its activation. -/
abbrev P2a : List (HloOp τ sig (Elt F)) :=
  [ StableHlo.binary main_v94 main_v96 main_v97 (mulf : (⟨S16384x2048, .f32⟩ : BufTy).Contents (Elt F) → (⟨S16384x2048, .f32⟩ : BufTy).Contents (Elt F) → (⟨S16384x2048, .f32⟩ : BufTy).Contents (Elt F)),
    StableHlo.unary main_arg16 main_v98 (broadcastInDim S1x2048 ![1] bcast_S2048_S1x2048_1 : (⟨S2048, .f32⟩ : BufTy).Contents (Elt F) → (⟨S1x2048, .f32⟩ : BufTy).Contents (Elt F)),
    StableHlo.unary main_v98 main_v99 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v97 main_v99 main_v100 (addf : (⟨S16384x2048, .f32⟩ : BufTy).Contents (Elt F) → (⟨S16384x2048, .f32⟩ : BufTy).Contents (Elt F) → (⟨S16384x2048, .f32⟩ : BufTy).Contents (Elt F)),
    StableHlo.nullary main_cst_21 (constant S_ .f32 0x3C23D70A#32),
    StableHlo.nullary main_call1_cst (constant S_ .f32 0x00000000#32),
    StableHlo.unary main_call1_cst main_call1_v0 (broadcastInDim S16384x2048 ![] bcast_S_S16384x2048 : (⟨S_, .f32⟩ : BufTy).Contents (Elt F) → (⟨S16384x2048, .f32⟩ : BufTy).Contents (Elt F)),
    StableHlo.binary main_v100 main_call1_v0 main_call1_v1 (cmpf .oge : (⟨S16384x2048, .f32⟩ : BufTy).Contents (Elt F) → (⟨S16384x2048, .f32⟩ : BufTy).Contents (Elt F) → (⟨S16384x2048, .i1⟩ : BufTy).Contents (Elt F)),
    StableHlo.unary main_cst_21 main_call1_v2 (id : (⟨S_, .f32⟩ : BufTy).Contents (Elt F) → (⟨S_, .f32⟩ : BufTy).Contents (Elt F)),
    StableHlo.unary main_call1_v2 main_call1_v3 (broadcastInDim S16384x2048 ![] bcast_S_S16384x2048 : (⟨S_, .f32⟩ : BufTy).Contents (Elt F) → (⟨S16384x2048, .f32⟩ : BufTy).Contents (Elt F)),
    StableHlo.binary main_call1_v3 main_v100 main_call1_v4 (mulf : (⟨S16384x2048, .f32⟩ : BufTy).Contents (Elt F) → (⟨S16384x2048, .f32⟩ : BufTy).Contents (Elt F) → (⟨S16384x2048, .f32⟩ : BufTy).Contents (Elt F)),
    StableHlo.ternary main_call1_v1 main_v100 main_call1_v4 main_v101 (select : (⟨S16384x2048, .i1⟩ : BufTy).Contents (Elt F) → (⟨S16384x2048, .f32⟩ : BufTy).Contents (Elt F) → (⟨S16384x2048, .f32⟩ : BufTy).Contents (Elt F) → (⟨S16384x2048, .f32⟩ : BufTy).Contents (Elt F)) ]

/-- Window 2, tail: the third layer up to the reciprocal deviation rows. -/
abbrev P2b : List (HloOp τ sig (Elt F)) :=
  [ StableHlo.nullary main_cst_22 (constant S_ .f32 0x3F800000#32),
    StableHlo.unary main_cst_22 main_v102 (broadcastInDim S65536 ![] bcast_S_S65536 : (⟨S_, .f32⟩ : BufTy).Contents (Elt F) → (⟨S65536, .f32⟩ : BufTy).Contents (Elt F)),
    StableHlo.nullary main_cst_23 (constant S_ .f32 0x00000000#32),
    StableHlo.unary main_cst_23 main_v103 (broadcastInDim S16384 ![] bcast_S_S16384 : (⟨S_, .f32⟩ : BufTy).Contents (Elt F) → (⟨S16384, .f32⟩ : BufTy).Contents (Elt F)),
    StableHlo.unary main_arg2 main_v104 (broadcastInDim S65536x1 ![0] bcast_S65536_S65536x1_0 : (⟨S65536, .i32⟩ : BufTy).Contents (Elt F) → (⟨S65536x1, .i32⟩ : BufTy).Contents (Elt F)),
    StableHlo.ternary main_v103 main_v104 main_v102 main_v105 ((fun x i u => Host.scatterAdd scatter_S16384_S65536x1_S65536_n_0_0_1 x i u) : (⟨S16384, .f32⟩ : BufTy).Contents (Elt F) → (⟨S65536x1, .i32⟩ : BufTy).Contents (Elt F) → (⟨S65536, .f32⟩ : BufTy).Contents (Elt F) → (⟨S16384, .f32⟩ : BufTy).Contents (Elt F)),
    StableHlo.nullary main_c_24 (constantI S_ 32 0#32),
    StableHlo.unary main_c_24 main_v106 (broadcastInDim S65536 ![] bcast_S_S65536 : (⟨S_, .i32⟩ : BufTy).Contents (Elt F) → (⟨S65536, .i32⟩ : BufTy).Contents (Elt F)),
    StableHlo.binary main_arg1 main_v106 main_v107 (cmpi .slt : (⟨S65536, .i32⟩ : BufTy).Contents (Elt F) → (⟨S65536, .i32⟩ : BufTy).Contents (Elt F) → (⟨S65536, .i1⟩ : BufTy).Contents (Elt F)),
    StableHlo.nullary main_c_25 (constantI S_ 32 16384#32),
    StableHlo.unary main_c_25 main_v108 (broadcastInDim S65536 ![] bcast_S_S65536 : (⟨S_, .i32⟩ : BufTy).Contents (Elt F) → (⟨S65536, .i32⟩ : BufTy).Contents (Elt F)),
    StableHlo.binary main_arg1 main_v108 main_v109 (addi : (⟨S65536, .i32⟩ : BufTy).Contents (Elt F) → (⟨S65536, .i32⟩ : BufTy).Contents (Elt F) → (⟨S65536, .i32⟩ : BufTy).Contents (Elt F)),
    StableHlo.ternary main_v107 main_v109 main_arg1 main_v110 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v110 main_v111 (broadcastInDim S65536x1 ![0] bcast_S65536_S65536x1_0 : (⟨S65536, .i32⟩ : BufTy).Contents (Elt F) → (⟨S65536x1, .i32⟩ : BufTy).Contents (Elt F)),
    StableHlo.binary main_v101 main_v111 main_v112 ((fun x i => Host.gather gather_S16384x2048_S65536x1_S65536x2048_1_0_n_n_0_1_12048 x i) : (⟨S16384x2048, .f32⟩ : BufTy).Contents (Elt F) → (⟨S65536x1, .i32⟩ : BufTy).Contents (Elt F) → (⟨S65536x2048, .f32⟩ : BufTy).Contents (Elt F)),
    StableHlo.nullary main_cst_26 (constant S_ .f32 0x00000000#32),
    StableHlo.unary main_cst_26 main_v113 (broadcastInDim S16384x2048 ![] bcast_S_S16384x2048 : (⟨S_, .f32⟩ : BufTy).Contents (Elt F) → (⟨S16384x2048, .f32⟩ : BufTy).Contents (Elt F)),
    StableHlo.unary main_arg2 main_v114 (broadcastInDim S65536x1 ![0] bcast_S65536_S65536x1_0 : (⟨S65536, .i32⟩ : BufTy).Contents (Elt F) → (⟨S65536x1, .i32⟩ : BufTy).Contents (Elt F)),
    StableHlo.ternary main_v113 main_v114 main_v112 main_v115 ((fun x i u => Host.scatterAdd scatter_S16384x2048_S65536x1_S65536x2048_1_0_0_1 x i u) : (⟨S16384x2048, .f32⟩ : BufTy).Contents (Elt F) → (⟨S65536x1, .i32⟩ : BufTy).Contents (Elt F) → (⟨S65536x2048, .f32⟩ : BufTy).Contents (Elt F) → (⟨S16384x2048, .f32⟩ : BufTy).Contents (Elt F)),
    StableHlo.nullary main_cst_27 (constant S_ .f32 0x3F800000#32),
    StableHlo.unary main_cst_27 main_v116 (broadcastInDim S16384 ![] bcast_S_S16384 : (⟨S_, .f32⟩ : BufTy).Contents (Elt F) → (⟨S16384, .f32⟩ : BufTy).Contents (Elt F)),
    StableHlo.binary main_v105 main_v116 main_v117 (maximumf : (⟨S16384, .f32⟩ : BufTy).Contents (Elt F) → (⟨S16384, .f32⟩ : BufTy).Contents (Elt F) → (⟨S16384, .f32⟩ : BufTy).Contents (Elt F)),
    StableHlo.unary main_v117 main_v118 (broadcastInDim S16384x1 ![0] bcast_S16384_S16384x1_0 : (⟨S16384, .f32⟩ : BufTy).Contents (Elt F) → (⟨S16384x1, .f32⟩ : BufTy).Contents (Elt F)),
    StableHlo.unary main_v118 main_v119 (broadcastInDim S16384x2048 ![0, 1] bcast_S16384x1_S16384x2048_0_1 : (⟨S16384x1, .f32⟩ : BufTy).Contents (Elt F) → (⟨S16384x2048, .f32⟩ : BufTy).Contents (Elt F)),
    StableHlo.binary main_v115 main_v119 main_v120 (Host.divf : (⟨S16384x2048, .f32⟩ : BufTy).Contents (Elt F) → (⟨S16384x2048, .f32⟩ : BufTy).Contents (Elt F) → (⟨S16384x2048, .f32⟩ : BufTy).Contents (Elt F)),
    StableHlo.binary main_v101 main_arg10 main_v121 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    StableHlo.binary main_v120 main_arg11 main_v122 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    StableHlo.binary main_v121 main_v122 main_v123 (addf : (⟨S16384x2048, .f32⟩ : BufTy).Contents (Elt F) → (⟨S16384x2048, .f32⟩ : BufTy).Contents (Elt F) → (⟨S16384x2048, .f32⟩ : BufTy).Contents (Elt F)),
    StableHlo.unary main_arg12 main_v124 (broadcastInDim S1x2048 ![1] bcast_S2048_S1x2048_1 : (⟨S2048, .f32⟩ : BufTy).Contents (Elt F) → (⟨S1x2048, .f32⟩ : BufTy).Contents (Elt F)),
    StableHlo.unary main_v124 main_v125 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v123 main_v125 main_v126 (addf : (⟨S16384x2048, .f32⟩ : BufTy).Contents (Elt F) → (⟨S16384x2048, .f32⟩ : BufTy).Contents (Elt F) → (⟨S16384x2048, .f32⟩ : BufTy).Contents (Elt F)),
    StableHlo.nullary main_cst_28 (constant S_ .f32 0x00000000#32),
    StableHlo.binary main_v126 main_cst_28 main_v127 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    StableHlo.nullary main_cst_29 (constant S_ .f32 0x46800000#32),
    StableHlo.unary main_cst_29 main_v128 (broadcastInDim S2048 ![] bcast_S_S2048 : (⟨S_, .f32⟩ : BufTy).Contents (Elt F) → (⟨S2048, .f32⟩ : BufTy).Contents (Elt F)),
    StableHlo.binary main_v127 main_v128 main_v129 (Host.divf : (⟨S2048, .f32⟩ : BufTy).Contents (Elt F) → (⟨S2048, .f32⟩ : BufTy).Contents (Elt F) → (⟨S2048, .f32⟩ : BufTy).Contents (Elt F)),
    StableHlo.unary main_v129 main_v130 (broadcastInDim S1x2048 ![1] bcast_S2048_S1x2048_1 : (⟨S2048, .f32⟩ : BufTy).Contents (Elt F) → (⟨S1x2048, .f32⟩ : BufTy).Contents (Elt F)),
    StableHlo.unary main_v130 main_v131 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v126 main_v131 main_v132 (subf : (⟨S16384x2048, .f32⟩ : BufTy).Contents (Elt F) → (⟨S16384x2048, .f32⟩ : BufTy).Contents (Elt F) → (⟨S16384x2048, .f32⟩ : BufTy).Contents (Elt F)),
    StableHlo.binary main_v132 main_v132 main_v133 (mulf : (⟨S16384x2048, .f32⟩ : BufTy).Contents (Elt F) → (⟨S16384x2048, .f32⟩ : BufTy).Contents (Elt F) → (⟨S16384x2048, .f32⟩ : BufTy).Contents (Elt F)),
    StableHlo.nullary main_cst_30 (constant S_ .f32 0x00000000#32),
    StableHlo.binary main_v133 main_cst_30 main_v134 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    StableHlo.nullary main_cst_31 (constant S_ .f32 0x46800000#32),
    StableHlo.unary main_cst_31 main_v135 (broadcastInDim S2048 ![] bcast_S_S2048 : (⟨S_, .f32⟩ : BufTy).Contents (Elt F) → (⟨S2048, .f32⟩ : BufTy).Contents (Elt F)),
    StableHlo.binary main_v134 main_v135 main_v136 (Host.divf : (⟨S2048, .f32⟩ : BufTy).Contents (Elt F) → (⟨S2048, .f32⟩ : BufTy).Contents (Elt F) → (⟨S2048, .f32⟩ : BufTy).Contents (Elt F)),
    StableHlo.unary main_v129 main_v137 (broadcastInDim S1x2048 ![1] bcast_S2048_S1x2048_1 : (⟨S2048, .f32⟩ : BufTy).Contents (Elt F) → (⟨S1x2048, .f32⟩ : BufTy).Contents (Elt F)),
    StableHlo.unary main_v137 main_v138 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v126 main_v138 main_v139 (subf : (⟨S16384x2048, .f32⟩ : BufTy).Contents (Elt F) → (⟨S16384x2048, .f32⟩ : BufTy).Contents (Elt F) → (⟨S16384x2048, .f32⟩ : BufTy).Contents (Elt F)),
    StableHlo.nullary main_cst_32 (constant S_ .f32 0x3727C5AC#32),
    StableHlo.unary main_cst_32 main_v140 (broadcastInDim S2048 ![] bcast_S_S2048 : (⟨S_, .f32⟩ : BufTy).Contents (Elt F) → (⟨S2048, .f32⟩ : BufTy).Contents (Elt F)),
    StableHlo.binary main_v136 main_v140 main_v141 (addf : (⟨S2048, .f32⟩ : BufTy).Contents (Elt F) → (⟨S2048, .f32⟩ : BufTy).Contents (Elt F) → (⟨S2048, .f32⟩ : BufTy).Contents (Elt F)),
    StableHlo.unary main_v141 main_v142 (Host.rsqrt : (⟨S2048, .f32⟩ : BufTy).Contents (Elt F) → (⟨S2048, .f32⟩ : BufTy).Contents (Elt F)),
    StableHlo.unary main_v142 main_v143 (broadcastInDim S1x2048 ![1] bcast_S2048_S1x2048_1 : (⟨S2048, .f32⟩ : BufTy).Contents (Elt F) → (⟨S1x2048, .f32⟩ : BufTy).Contents (Elt F)),
    StableHlo.unary main_v143 main_v144 (broadcastInDim S16384x2048 ![0, 1] bcast_S1x2048_S16384x2048_0_1 : (⟨S1x2048, .f32⟩ : BufTy).Contents (Elt F) → (⟨S16384x2048, .f32⟩ : BufTy).Contents (Elt F)) ]

/-- Window 3, head: the third layer's affine pair and its activation. -/
abbrev P3a : List (HloOp τ sig (Elt F)) :=
  [ StableHlo.binary main_v139 main_v144 main_v145 (mulf : (⟨S16384x2048, .f32⟩ : BufTy).Contents (Elt F) → (⟨S16384x2048, .f32⟩ : BufTy).Contents (Elt F) → (⟨S16384x2048, .f32⟩ : BufTy).Contents (Elt F)),
    StableHlo.unary main_arg17 main_v146 (broadcastInDim S1x2048 ![1] bcast_S2048_S1x2048_1 : (⟨S2048, .f32⟩ : BufTy).Contents (Elt F) → (⟨S1x2048, .f32⟩ : BufTy).Contents (Elt F)),
    StableHlo.unary main_v146 main_v147 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v145 main_v147 main_v148 (mulf : (⟨S16384x2048, .f32⟩ : BufTy).Contents (Elt F) → (⟨S16384x2048, .f32⟩ : BufTy).Contents (Elt F) → (⟨S16384x2048, .f32⟩ : BufTy).Contents (Elt F)),
    StableHlo.unary main_arg18 main_v149 (broadcastInDim S1x2048 ![1] bcast_S2048_S1x2048_1 : (⟨S2048, .f32⟩ : BufTy).Contents (Elt F) → (⟨S1x2048, .f32⟩ : BufTy).Contents (Elt F)),
    StableHlo.unary main_v149 main_v150 (broadcastInDim S16384x2048 ![0, 1] bcast_S1x2048_S16384x2048_0_1 : (⟨S1x2048, .f32⟩ : BufTy).Contents (Elt F) → (⟨S16384x2048, .f32⟩ : BufTy).Contents (Elt F)),
    StableHlo.binary main_v148 main_v150 main_v151 (addf : (⟨S16384x2048, .f32⟩ : BufTy).Contents (Elt F) → (⟨S16384x2048, .f32⟩ : BufTy).Contents (Elt F) → (⟨S16384x2048, .f32⟩ : BufTy).Contents (Elt F)),
    StableHlo.nullary main_cst_33 (constant S_ .f32 0x3C23D70A#32),
    StableHlo.nullary main_call2_cst (constant S_ .f32 0x00000000#32),
    StableHlo.unary main_call2_cst main_call2_v0 (broadcastInDim S16384x2048 ![] bcast_S_S16384x2048 : (⟨S_, .f32⟩ : BufTy).Contents (Elt F) → (⟨S16384x2048, .f32⟩ : BufTy).Contents (Elt F)),
    StableHlo.binary main_v151 main_call2_v0 main_call2_v1 (cmpf .oge : (⟨S16384x2048, .f32⟩ : BufTy).Contents (Elt F) → (⟨S16384x2048, .f32⟩ : BufTy).Contents (Elt F) → (⟨S16384x2048, .i1⟩ : BufTy).Contents (Elt F)),
    StableHlo.unary main_cst_33 main_call2_v2 (id : (⟨S_, .f32⟩ : BufTy).Contents (Elt F) → (⟨S_, .f32⟩ : BufTy).Contents (Elt F)),
    StableHlo.unary main_call2_v2 main_call2_v3 (broadcastInDim S16384x2048 ![] bcast_S_S16384x2048 : (⟨S_, .f32⟩ : BufTy).Contents (Elt F) → (⟨S16384x2048, .f32⟩ : BufTy).Contents (Elt F)),
    StableHlo.binary main_call2_v3 main_v151 main_call2_v4 (mulf : (⟨S16384x2048, .f32⟩ : BufTy).Contents (Elt F) → (⟨S16384x2048, .f32⟩ : BufTy).Contents (Elt F) → (⟨S16384x2048, .f32⟩ : BufTy).Contents (Elt F)),
    StableHlo.ternary main_call2_v1 main_v151 main_call2_v4 main_v152 (select : (⟨S16384x2048, .i1⟩ : BufTy).Contents (Elt F) → (⟨S16384x2048, .f32⟩ : BufTy).Contents (Elt F) → (⟨S16384x2048, .f32⟩ : BufTy).Contents (Elt F) → (⟨S16384x2048, .f32⟩ : BufTy).Contents (Elt F)) ]

/-- Window 3, tail: pooling per graph and the perceptron head. -/
abbrev P3b : List (HloOp τ sig (Elt F)) :=
  [ StableHlo.nullary main_cst_34 (constant S_ .f32 0x3F800000#32),
    StableHlo.unary main_cst_34 main_v153 (broadcastInDim S16384 ![] bcast_S_S16384 : (⟨S_, .f32⟩ : BufTy).Contents (Elt F) → (⟨S16384, .f32⟩ : BufTy).Contents (Elt F)),
    StableHlo.nullary main_cst_35 (constant S_ .f32 0x00000000#32),
    StableHlo.unary main_cst_35 main_v154 (broadcastInDim S64 ![] bcast_S_S64 : (⟨S_, .f32⟩ : BufTy).Contents (Elt F) → (⟨S64, .f32⟩ : BufTy).Contents (Elt F)),
    StableHlo.unary main_arg3 main_v155 (broadcastInDim S16384x1 ![0] bcast_S16384_S16384x1_0 : (⟨S16384, .i32⟩ : BufTy).Contents (Elt F) → (⟨S16384x1, .i32⟩ : BufTy).Contents (Elt F)),
    StableHlo.ternary main_v154 main_v155 main_v153 main_v156 ((fun x i u => Host.scatterAdd scatter_S64_S16384x1_S16384_n_0_0_1 x i u) : (⟨S64, .f32⟩ : BufTy).Contents (Elt F) → (⟨S16384x1, .i32⟩ : BufTy).Contents (Elt F) → (⟨S16384, .f32⟩ : BufTy).Contents (Elt F) → (⟨S64, .f32⟩ : BufTy).Contents (Elt F)),
    StableHlo.nullary main_cst_36 (constant S_ .f32 0x00000000#32),
    StableHlo.unary main_cst_36 main_v157 (broadcastInDim S64x2048 ![] bcast_S_S64x2048 : (⟨S_, .f32⟩ : BufTy).Contents (Elt F) → (⟨S64x2048, .f32⟩ : BufTy).Contents (Elt F)),
    StableHlo.unary main_arg3 main_v158 (broadcastInDim S16384x1 ![0] bcast_S16384_S16384x1_0 : (⟨S16384, .i32⟩ : BufTy).Contents (Elt F) → (⟨S16384x1, .i32⟩ : BufTy).Contents (Elt F)),
    StableHlo.ternary main_v157 main_v158 main_v152 main_v159 ((fun x i u => Host.scatterAdd scatter_S64x2048_S16384x1_S16384x2048_1_0_0_1 x i u) : (⟨S64x2048, .f32⟩ : BufTy).Contents (Elt F) → (⟨S16384x1, .i32⟩ : BufTy).Contents (Elt F) → (⟨S16384x2048, .f32⟩ : BufTy).Contents (Elt F) → (⟨S64x2048, .f32⟩ : BufTy).Contents (Elt F)),
    StableHlo.nullary main_cst_37 (constant S_ .f32 0x3F800000#32),
    StableHlo.unary main_cst_37 main_v160 (broadcastInDim S64 ![] bcast_S_S64 : (⟨S_, .f32⟩ : BufTy).Contents (Elt F) → (⟨S64, .f32⟩ : BufTy).Contents (Elt F)),
    StableHlo.binary main_v156 main_v160 main_v161 (maximumf : (⟨S64, .f32⟩ : BufTy).Contents (Elt F) → (⟨S64, .f32⟩ : BufTy).Contents (Elt F) → (⟨S64, .f32⟩ : BufTy).Contents (Elt F)),
    StableHlo.unary main_v161 main_v162 (broadcastInDim S64x1 ![0] bcast_S64_S64x1_0 : (⟨S64, .f32⟩ : BufTy).Contents (Elt F) → (⟨S64x1, .f32⟩ : BufTy).Contents (Elt F)),
    StableHlo.unary main_v162 main_v163 (broadcastInDim S64x2048 ![0, 1] bcast_S64x1_S64x2048_0_1 : (⟨S64x1, .f32⟩ : BufTy).Contents (Elt F) → (⟨S64x2048, .f32⟩ : BufTy).Contents (Elt F)),
    StableHlo.binary main_v159 main_v163 main_v164 (Host.divf : (⟨S64x2048, .f32⟩ : BufTy).Contents (Elt F) → (⟨S64x2048, .f32⟩ : BufTy).Contents (Elt F) → (⟨S64x2048, .f32⟩ : BufTy).Contents (Elt F)),
    StableHlo.binary main_v164 main_arg19 main_v165 ((fun l r => Host.dotGeneral dot_S64x2048_S2048x2048_S64x2048_1_0_0_1_n_n none l r) : (⟨S64x2048, .f32⟩ : BufTy).Contents (Elt F) → (⟨S2048x2048, .f32⟩ : BufTy).Contents (Elt F) → (⟨S64x2048, .f32⟩ : BufTy).Contents (Elt F)),
    StableHlo.unary main_arg20 main_v166 (broadcastInDim S1x2048 ![1] bcast_S2048_S1x2048_1 : (⟨S2048, .f32⟩ : BufTy).Contents (Elt F) → (⟨S1x2048, .f32⟩ : BufTy).Contents (Elt F)),
    StableHlo.unary main_v166 main_v167 (broadcastInDim S64x2048 ![0, 1] bcast_S1x2048_S64x2048_0_1 : (⟨S1x2048, .f32⟩ : BufTy).Contents (Elt F) → (⟨S64x2048, .f32⟩ : BufTy).Contents (Elt F)),
    StableHlo.binary main_v165 main_v167 main_v168 (addf : (⟨S64x2048, .f32⟩ : BufTy).Contents (Elt F) → (⟨S64x2048, .f32⟩ : BufTy).Contents (Elt F) → (⟨S64x2048, .f32⟩ : BufTy).Contents (Elt F)),
    StableHlo.nullary main_cst_38 (constant S_ .f32 0x3C23D70A#32),
    StableHlo.nullary main_call3_cst (constant S_ .f32 0x00000000#32),
    StableHlo.unary main_call3_cst main_call3_v0 (broadcastInDim S64x2048 ![] bcast_S_S64x2048 : (⟨S_, .f32⟩ : BufTy).Contents (Elt F) → (⟨S64x2048, .f32⟩ : BufTy).Contents (Elt F)),
    StableHlo.binary main_v168 main_call3_v0 main_call3_v1 (cmpf .oge : (⟨S64x2048, .f32⟩ : BufTy).Contents (Elt F) → (⟨S64x2048, .f32⟩ : BufTy).Contents (Elt F) → (⟨S64x2048, .i1⟩ : BufTy).Contents (Elt F)),
    StableHlo.unary main_cst_38 main_call3_v2 (id : (⟨S_, .f32⟩ : BufTy).Contents (Elt F) → (⟨S_, .f32⟩ : BufTy).Contents (Elt F)),
    StableHlo.unary main_call3_v2 main_call3_v3 (broadcastInDim S64x2048 ![] bcast_S_S64x2048 : (⟨S_, .f32⟩ : BufTy).Contents (Elt F) → (⟨S64x2048, .f32⟩ : BufTy).Contents (Elt F)),
    StableHlo.binary main_call3_v3 main_v168 main_call3_v4 (mulf : (⟨S64x2048, .f32⟩ : BufTy).Contents (Elt F) → (⟨S64x2048, .f32⟩ : BufTy).Contents (Elt F) → (⟨S64x2048, .f32⟩ : BufTy).Contents (Elt F)),
    StableHlo.ternary main_call3_v1 main_v168 main_call3_v4 main_v169 (select : (⟨S64x2048, .i1⟩ : BufTy).Contents (Elt F) → (⟨S64x2048, .f32⟩ : BufTy).Contents (Elt F) → (⟨S64x2048, .f32⟩ : BufTy).Contents (Elt F) → (⟨S64x2048, .f32⟩ : BufTy).Contents (Elt F)),
    StableHlo.binary main_v169 main_arg21 main_v170 ((fun l r => Host.dotGeneral dot_S64x2048_S2048x1024_S64x1024_1_0_0_1_n_n none l r) : (⟨S64x2048, .f32⟩ : BufTy).Contents (Elt F) → (⟨S2048x1024, .f32⟩ : BufTy).Contents (Elt F) → (⟨S64x1024, .f32⟩ : BufTy).Contents (Elt F)),
    StableHlo.unary main_arg22 main_v171 (broadcastInDim S1x1024 ![1] bcast_S1024_S1x1024_1 : (⟨S1024, .f32⟩ : BufTy).Contents (Elt F) → (⟨S1x1024, .f32⟩ : BufTy).Contents (Elt F)),
    StableHlo.unary main_v171 main_v172 (broadcastInDim S64x1024 ![0, 1] bcast_S1x1024_S64x1024_0_1 : (⟨S1x1024, .f32⟩ : BufTy).Contents (Elt F) → (⟨S64x1024, .f32⟩ : BufTy).Contents (Elt F)),
    StableHlo.binary main_v170 main_v172 main_v173 (addf : (⟨S64x1024, .f32⟩ : BufTy).Contents (Elt F) → (⟨S64x1024, .f32⟩ : BufTy).Contents (Elt F) → (⟨S64x1024, .f32⟩ : BufTy).Contents (Elt F)),
    StableHlo.nullary main_cst_39 (constant S_ .f32 0x3C23D70A#32),
    StableHlo.nullary main_call4_cst (constant S_ .f32 0x00000000#32),
    StableHlo.unary main_call4_cst main_call4_v0 (broadcastInDim S64x1024 ![] bcast_S_S64x1024 : (⟨S_, .f32⟩ : BufTy).Contents (Elt F) → (⟨S64x1024, .f32⟩ : BufTy).Contents (Elt F)),
    StableHlo.binary main_v173 main_call4_v0 main_call4_v1 (cmpf .oge : (⟨S64x1024, .f32⟩ : BufTy).Contents (Elt F) → (⟨S64x1024, .f32⟩ : BufTy).Contents (Elt F) → (⟨S64x1024, .i1⟩ : BufTy).Contents (Elt F)),
    StableHlo.unary main_cst_39 main_call4_v2 (id : (⟨S_, .f32⟩ : BufTy).Contents (Elt F) → (⟨S_, .f32⟩ : BufTy).Contents (Elt F)),
    StableHlo.unary main_call4_v2 main_call4_v3 (broadcastInDim S64x1024 ![] bcast_S_S64x1024 : (⟨S_, .f32⟩ : BufTy).Contents (Elt F) → (⟨S64x1024, .f32⟩ : BufTy).Contents (Elt F)),
    StableHlo.binary main_call4_v3 main_v173 main_call4_v4 (mulf : (⟨S64x1024, .f32⟩ : BufTy).Contents (Elt F) → (⟨S64x1024, .f32⟩ : BufTy).Contents (Elt F) → (⟨S64x1024, .f32⟩ : BufTy).Contents (Elt F)),
    StableHlo.ternary main_call4_v1 main_v173 main_call4_v4 main_v174 (select : (⟨S64x1024, .i1⟩ : BufTy).Contents (Elt F) → (⟨S64x1024, .f32⟩ : BufTy).Contents (Elt F) → (⟨S64x1024, .f32⟩ : BufTy).Contents (Elt F) → (⟨S64x1024, .f32⟩ : BufTy).Contents (Elt F)),
    StableHlo.binary main_v174 main_arg23 main_v175 ((fun l r => Host.dotGeneral dot_S64x1024_S1024x18_S64x18_1_0_0_1_n_n none l r) : (⟨S64x1024, .f32⟩ : BufTy).Contents (Elt F) → (⟨S1024x18, .f32⟩ : BufTy).Contents (Elt F) → (⟨S64x18, .f32⟩ : BufTy).Contents (Elt F)),
    StableHlo.unary main_arg24 main_v176 (broadcastInDim S1x18 ![1] bcast_S18_S1x18_1 : (⟨S18, .f32⟩ : BufTy).Contents (Elt F) → (⟨S1x18, .f32⟩ : BufTy).Contents (Elt F)),
    StableHlo.unary main_v176 main_v177 (broadcastInDim S64x18 ![0, 1] bcast_S1x18_S64x18_0_1 : (⟨S1x18, .f32⟩ : BufTy).Contents (Elt F) → (⟨S64x18, .f32⟩ : BufTy).Contents (Elt F)),
    StableHlo.binary main_v175 main_v177 main_v178 (addf : (⟨S64x18, .f32⟩ : BufTy).Contents (Elt F) → (⟨S64x18, .f32⟩ : BufTy).Contents (Elt F) → (⟨S64x18, .f32⟩ : BufTy).Contents (Elt F)) ]

/-- The first layer: every operation up to its activation. -/
abbrev L1 : List (HloOp τ sig (Elt F)) := P0 ++ P1a
/-- The second layer. -/
abbrev L2 : List (HloOp τ sig (Elt F)) := P1b ++ P2a
/-- The third layer. -/
abbrev L3 : List (HloOp τ sig (Elt F)) := P2b ++ P3a
/-- Pooling and the head. -/
abbrev LT : List (HloOp τ sig (Elt F)) := P3b

/-- @main's 251 operations, layer by layer. -/
abbrev ops : List (HloOp τ sig (Elt F)) := L1 ++ (L2 ++ (L3 ++ LT))

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

end Cert.ReferenceIdeal.HandRun

end
-- ==== Proof.RefRunMain.lean ====
/-
  @main is the straight line of its operations: each window is the sequence of its own list (the outlined
  functions' bodies unfolded at their calls, sequencing reassociated), and four sequences run in order are
  the sequence of the concatenation. Every operation touches TensorCore references only, and the signature scopes
  no buffer and no semaphore.
-/
import proofs.«114295_j84782654423394_1_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Window 0 has no call: it is its list's sequence by definition. -/
theorem part0_eq (c : Dev nD) : main_part0 (F := F) c = seq P0 := rfl

set_option maxRecDepth 4096 in
/-- Window 1: the call's body unfolded, the binds reassociated. -/
theorem part1_eq (c : Dev nD) : main_part1 (F := F) c = seq (P1a ++ P1b) := by
  simp only [main_part1, fn_leaky_relu.body, fn_where.body, List.cons_append, List.nil_append, seq, bind_assoc, pure_bind]
  rfl

set_option maxRecDepth 4096 in
/-- Window 2 likewise. -/
theorem part2_eq (c : Dev nD) : main_part2 (F := F) c = seq (P2a ++ P2b) := by
  simp only [main_part2, fn_leaky_relu.body, fn_where.body, List.cons_append, List.nil_append, seq, bind_assoc, pure_bind]
  rfl

set_option maxRecDepth 4096 in
/-- Window 3, with its three calls, likewise. -/
theorem part3_eq (c : Dev nD) : main_part3 (F := F) c = seq (P3a ++ P3b) := by
  simp only [main_part3, fn_leaky_relu.body, fn_where.body, fn_leaky_relu_0.body, fn_where_1.body, fn_leaky_relu_2.body,
    fn_where_3.body, List.cons_append, List.nil_append, seq, bind_assoc, pure_bind]
  rfl

/-- The two partitions list the same operations in the same order. -/
theorem windows_eq : (P0 ++ ((P1a ++ P1b) ++ ((P2a ++ P2b) ++ (P3a ++ P3b))) : List (HloOp τ sig (Elt F))) = ops := by
  simp only [ops, L1, L2, L3, LT, List.append_assoc]

/-- @main is the sequence of its operations. -/
theorem main_eq (c : Dev nD) : main (F := F) c = seq ops :=
  calc main (F := F) c
      = (main_part0 c >>= fun _ => main_part1 c >>= fun _ => main_part2 c >>= fun _ => main_part3 c) := rfl
    _ = (seq P0 >>= fun _ => seq (P1a ++ P1b) >>= fun _ => seq (P2a ++ P2b) >>= fun _ => seq (P3a ++ P3b)) := by
        rw [part0_eq, part1_eq, part2_eq, part3_eq]
    _ = seq (P0 ++ ((P1a ++ P1b) ++ ((P2a ++ P2b) ++ (P3a ++ P3b)))) := by
        rw [seq_append P0, seq_append (P1a ++ P1b), seq_append (P2a ++ P2b)]
    _ = seq ops := by rw [windows_eq]

theorem scopedRefs_eq : (Finset.univ.filter fun b : Ref sig .tc => b.isScoped) = ∅ := by decide
theorem scopedSems_eq : (Finset.univ.filter fun sm : SemLoc sig => sm.isScoped .tc) = ∅ := by decide

theorem P0_sub : (P0 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩
theorem P1a_sub : (P1a : List (HloOp τ sig (Elt F))).Forall fun op => op.bufs ⊆ tcRefs τ sig :=
  ⟨binary_bufs_sub .., nullary_bufs_sub .., nullary_bufs_sub .., unary_bufs_sub .., binary_bufs_sub .., unary_bufs_sub .., unary_bufs_sub .., binary_bufs_sub .., ternary_bufs_sub ..⟩
theorem P1b_sub : (P1b : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub ..⟩
theorem P2a_sub : (P2a : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem P2b_sub : (P2b : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub ..⟩
theorem P3a_sub : (P3a : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem P3b_sub : (P3b : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

/-- A property of every operation of two lists holds of every operation of their concatenation. -/
theorem forall_append {p : HloOp τ sig (Elt F) → Prop} {l₁ l₂ : List (HloOp τ sig (Elt F))}
    (h₁ : l₁.Forall p) (h₂ : l₂.Forall p) : (l₁ ++ l₂).Forall p :=
  List.forall_iff_forall_mem.mpr fun op h =>
    (List.mem_append.mp h).elim (List.forall_iff_forall_mem.mp h₁ op) (List.forall_iff_forall_mem.mp h₂ op)

/-- Every operation touches TensorCore references only. -/
theorem ops_sub : (ops : List (HloOp τ sig (Elt F))).Forall fun op => op.bufs ⊆ tcRefs τ sig :=
  forall_append (forall_append P0_sub P1a_sub)
    (forall_append (forall_append P1b_sub P2a_sub) (forall_append (forall_append P2b_sub P3a_sub) P3b_sub))

theorem P0_fresh : (P0 : List (HloOp τ sig (Elt F))).Forall fun op => op.fresh = ∅ := by
  simp only [List.Forall]; repeat' constructor
theorem P1a_fresh : (P1a : List (HloOp τ sig (Elt F))).Forall fun op => op.fresh = ∅ := by
  simp only [List.Forall]; repeat' constructor
theorem P1b_fresh : (P1b : List (HloOp τ sig (Elt F))).Forall fun op => op.fresh = ∅ := by
  simp only [List.Forall]; repeat' constructor
theorem P2a_fresh : (P2a : List (HloOp τ sig (Elt F))).Forall fun op => op.fresh = ∅ := by
  simp only [List.Forall]; repeat' constructor
theorem P2b_fresh : (P2b : List (HloOp τ sig (Elt F))).Forall fun op => op.fresh = ∅ := by
  simp only [List.Forall]; repeat' constructor
theorem P3a_fresh : (P3a : List (HloOp τ sig (Elt F))).Forall fun op => op.fresh = ∅ := by
  simp only [List.Forall]; repeat' constructor
theorem P3b_fresh : (P3b : List (HloOp τ sig (Elt F))).Forall fun op => op.fresh = ∅ := by
  simp only [List.Forall]; repeat' constructor

/-- Every operation determines its results. -/
theorem ops_fresh : ∀ op ∈ (ops : List (HloOp τ sig (Elt F))), op.fresh = ∅ :=
  List.forall_iff_forall_mem.mp (forall_append (forall_append P0_fresh P1a_fresh)
    (forall_append (forall_append P1b_fresh P2a_fresh) (forall_append (forall_append P2b_fresh P3a_fresh) P3b_fresh)))

end Cert.ReferenceIdeal.HandRun

end
-- ==== Proof.RefRunL1.lean ====
/-
  The first layer's operations: what they write, and their one output read as the first layer of the reference network.
-/
import proofs.«114295_j84782654423394_1_alg».proof.Proof.RefRunOps
import proofs.«114295_j84782654423394_1_alg».proof.Proof.RefSpec

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffers these operations write, one each. -/
abbrev L1_W : List (Ref sig .tc) :=
  [main_cst, main_v0, main_cst_0, main_v1, main_v2, main_v3, main_c, main_v4, main_v5, main_c_1, main_v6, main_v7, main_v8, main_v9, main_v10, main_cst_2, main_v11, main_v12, main_v13, main_cst_3, main_v14, main_v15, main_v16, main_v17, main_v18, main_v19, main_v20, main_v21, main_v22, main_v23, main_v24, main_cst_4, main_v25, main_cst_5, main_v26, main_v27, main_v28, main_v29, main_v30, main_v31, main_cst_6, main_v32, main_cst_7, main_v33, main_v34, main_v35, main_v36, main_v37, main_cst_8, main_v38, main_v39, main_v40, main_v41, main_v42, main_v43, main_v44, main_v45, main_v46, main_v47, main_v48, main_v49, main_cst_9, main_call0_cst, main_call0_v0, main_call0_v1, main_call0_v2, main_call0_v3, main_call0_v4, main_v50]

theorem L1_writes : (L1 : List (HloOp τ sig (Elt F))).Forall fun op =>
    op.writes ⊆ (L1_W.map (Proc.devRef (τ := τ) .tc)).toFinset := by
  simp only [L1, P0, P1a, List.cons_append, List.nil_append, List.Forall, nullary_writes, unary_writes, binary_writes, ternary_writes,
    Finset.singleton_subset_iff, List.mem_toFinset]
  repeat' apply And.intro
  all_goals exact List.mem_map_of_mem (by decide)

/-- A buffer none of them writes keeps its contents. -/
theorem L1_keep (V : Valuation τ sig (Elt F)) {r : Ref sig .tc} (h : r ∉ L1_W) :
    after L1 V (Proc.devRef .tc r) = V (Proc.devRef .tc r) :=
  after_of_writes_sub L1 V L1_writes h

set_option maxRecDepth 8192 in
set_option maxHeartbeats 4000000 in
/-- From any contents, the first layer's operations leave its activation buffer at the first layer of the node features, the edge lists and its five parameter arrays. -/
theorem L1_out (V : Valuation τ sig (Elt F)) :
    after L1 V (Proc.devRef .tc main_v50)
      = Cert.RefSpec.layer1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg13)) (V (Proc.devRef .tc main_arg14)) := by
  simp only [L1, P0, P1a, List.cons_append, List.nil_append]
  after_results_simp
  rfl

end Cert.ReferenceIdeal.HandRun

end
-- ==== Proof.RefRunL2.lean ====
/-
  The second layer's operations: what they write, and their one output read as one layer of the reference network.
-/
import proofs.«114295_j84782654423394_1_alg».proof.Proof.RefRunOps
import proofs.«114295_j84782654423394_1_alg».proof.Proof.RefSpec

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffers these operations write, one each. -/
abbrev L2_W : List (Ref sig .tc) :=
  [main_cst_10, main_v51, main_cst_11, main_v52, main_v53, main_v54, main_c_12, main_v55, main_v56, main_c_13, main_v57, main_v58, main_v59, main_v60, main_v61, main_cst_14, main_v62, main_v63, main_v64, main_cst_15, main_v65, main_v66, main_v67, main_v68, main_v69, main_v70, main_v71, main_v72, main_v73, main_v74, main_v75, main_cst_16, main_v76, main_cst_17, main_v77, main_v78, main_v79, main_v80, main_v81, main_v82, main_cst_18, main_v83, main_cst_19, main_v84, main_v85, main_v86, main_v87, main_v88, main_cst_20, main_v89, main_v90, main_v91, main_v92, main_v93, main_v94, main_v95, main_v96, main_v97, main_v98, main_v99, main_v100, main_cst_21, main_call1_cst, main_call1_v0, main_call1_v1, main_call1_v2, main_call1_v3, main_call1_v4, main_v101]

theorem L2_writes : (L2 : List (HloOp τ sig (Elt F))).Forall fun op =>
    op.writes ⊆ (L2_W.map (Proc.devRef (τ := τ) .tc)).toFinset := by
  simp only [L2, P1b, P2a, List.cons_append, List.nil_append, List.Forall, nullary_writes, unary_writes, binary_writes, ternary_writes,
    Finset.singleton_subset_iff, List.mem_toFinset]
  repeat' apply And.intro
  all_goals exact List.mem_map_of_mem (by decide)

/-- A buffer none of them writes keeps its contents. -/
theorem L2_keep (V : Valuation τ sig (Elt F)) {r : Ref sig .tc} (h : r ∉ L2_W) :
    after L2 V (Proc.devRef .tc r) = V (Proc.devRef .tc r) :=
  after_of_writes_sub L2 V L2_writes h

set_option maxRecDepth 8192 in
set_option maxHeartbeats 4000000 in
/-- From any contents, the second layer's operations leave its activation buffer at one layer applied to the first activation, the edge lists and its five parameter arrays. -/
theorem L2_out (V : Valuation τ sig (Elt F)) :
    after L2 V (Proc.devRef .tc main_v101)
      = Cert.RefSpec.layer (V (Proc.devRef .tc main_v50)) (V (Proc.devRef .tc main_arg1)) (V (Proc.devRef .tc main_arg2)) (V (Proc.devRef .tc main_arg7)) (V (Proc.devRef .tc main_arg8)) (V (Proc.devRef .tc main_arg9)) (V (Proc.devRef .tc main_arg15)) (V (Proc.devRef .tc main_arg16)) := by
  simp only [L2, P1b, P2a, List.cons_append, List.nil_append]
  after_results_simp
  rfl

end Cert.ReferenceIdeal.HandRun

end
-- ==== Proof.RefRunL3.lean ====
/-
  The third layer's operations: what they write, and their one output read as one layer of the reference network.
-/
import proofs.«114295_j84782654423394_1_alg».proof.Proof.RefRunOps
import proofs.«114295_j84782654423394_1_alg».proof.Proof.RefSpec

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffers these operations write, one each. -/
abbrev L3_W : List (Ref sig .tc) :=
  [main_cst_22, main_v102, main_cst_23, main_v103, main_v104, main_v105, main_c_24, main_v106, main_v107, main_c_25, main_v108, main_v109, main_v110, main_v111, main_v112, main_cst_26, main_v113, main_v114, main_v115, main_cst_27, main_v116, main_v117, main_v118, main_v119, main_v120, main_v121, main_v122, main_v123, main_v124, main_v125, main_v126, main_cst_28, main_v127, main_cst_29, main_v128, main_v129, main_v130, main_v131, main_v132, main_v133, main_cst_30, main_v134, main_cst_31, main_v135, main_v136, main_v137, main_v138, main_v139, main_cst_32, main_v140, main_v141, main_v142, main_v143, main_v144, main_v145, main_v146, main_v147, main_v148, main_v149, main_v150, main_v151, main_cst_33, main_call2_cst, main_call2_v0, main_call2_v1, main_call2_v2, main_call2_v3, main_call2_v4, main_v152]

theorem L3_writes : (L3 : List (HloOp τ sig (Elt F))).Forall fun op =>
    op.writes ⊆ (L3_W.map (Proc.devRef (τ := τ) .tc)).toFinset := by
  simp only [L3, P2b, P3a, List.cons_append, List.nil_append, List.Forall, nullary_writes, unary_writes, binary_writes, ternary_writes,
    Finset.singleton_subset_iff, List.mem_toFinset]
  repeat' apply And.intro
  all_goals exact List.mem_map_of_mem (by decide)

/-- A buffer none of them writes keeps its contents. -/
theorem L3_keep (V : Valuation τ sig (Elt F)) {r : Ref sig .tc} (h : r ∉ L3_W) :
    after L3 V (Proc.devRef .tc r) = V (Proc.devRef .tc r) :=
  after_of_writes_sub L3 V L3_writes h

set_option maxRecDepth 8192 in
set_option maxHeartbeats 4000000 in
/-- From any contents, the third layer's operations leave its activation buffer at one layer applied to the second activation, the edge lists and its five parameter arrays. -/
theorem L3_out (V : Valuation τ sig (Elt F)) :
    after L3 V (Proc.devRef .tc main_v152)
      = Cert.RefSpec.layer (V (Proc.devRef .tc main_v101)) (V (Proc.devRef .tc main_arg1)) (V (Proc.devRef .tc main_arg2)) (V (Proc.devRef .tc main_arg10)) (V (Proc.devRef .tc main_arg11)) (V (Proc.devRef .tc main_arg12)) (V (Proc.devRef .tc main_arg17)) (V (Proc.devRef .tc main_arg18)) := by
  simp only [L3, P2b, P3a, List.cons_append, List.nil_append]
  after_results_simp
  rfl

end Cert.ReferenceIdeal.HandRun

end
-- ==== Proof.RefRunLT.lean ====
/-
  Pooling and the perceptron head: what these operations write, and their one output read as the head of the per-graph means.
-/
import proofs.«114295_j84782654423394_1_alg».proof.Proof.RefRunOps
import proofs.«114295_j84782654423394_1_alg».proof.Proof.RefSpec

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffers these operations write, one each. -/
abbrev LT_W : List (Ref sig .tc) :=
  [main_cst_34, main_v153, main_cst_35, main_v154, main_v155, main_v156, main_cst_36, main_v157, main_v158, main_v159, main_cst_37, main_v160, main_v161, main_v162, main_v163, main_v164, main_v165, main_v166, main_v167, main_v168, main_cst_38, main_call3_cst, main_call3_v0, main_call3_v1, main_call3_v2, main_call3_v3, main_call3_v4, main_v169, main_v170, main_v171, main_v172, main_v173, main_cst_39, main_call4_cst, main_call4_v0, main_call4_v1, main_call4_v2, main_call4_v3, main_call4_v4, main_v174, main_v175, main_v176, main_v177, main_v178]

theorem LT_writes : (LT : List (HloOp τ sig (Elt F))).Forall fun op =>
    op.writes ⊆ (LT_W.map (Proc.devRef (τ := τ) .tc)).toFinset := by
  simp only [LT, P3b, List.cons_append, List.nil_append, List.Forall, nullary_writes, unary_writes, binary_writes, ternary_writes,
    Finset.singleton_subset_iff, List.mem_toFinset]
  repeat' apply And.intro
  all_goals exact List.mem_map_of_mem (by decide)

/-- A buffer none of them writes keeps its contents. -/
theorem LT_keep (V : Valuation τ sig (Elt F)) {r : Ref sig .tc} (h : r ∉ LT_W) :
    after LT V (Proc.devRef .tc r) = V (Proc.devRef .tc r) :=
  after_of_writes_sub LT V LT_writes h

set_option maxRecDepth 8192 in
set_option maxHeartbeats 4000000 in
/-- From any contents, the pooling and head operations leave the result buffer at the head applied to the per-graph mean of the third activation and the six head parameter arrays. -/
theorem LT_out (V : Valuation τ sig (Elt F)) :
    after LT V (Proc.devRef .tc main_v178)
      = Cert.RefSpec.head (Cert.RefSpec.pooled (V (Proc.devRef .tc main_v152)) (V (Proc.devRef .tc main_arg3)))
          (V (Proc.devRef .tc main_arg19)) (V (Proc.devRef .tc main_arg20)) (V (Proc.devRef .tc main_arg21))
          (V (Proc.devRef .tc main_arg22)) (V (Proc.devRef .tc main_arg23)) (V (Proc.devRef .tc main_arg24)) := by
  simp only [LT, P3b, List.cons_append, List.nil_append]
  after_results_simp
  rfl

end Cert.ReferenceIdeal.HandRun

end
-- ==== Proof.RefRun.lean ====
/-
  The run of the reference program: every weakly fair execution of @main terminates with the result buffer at the
  reference network of the 25 argument arrays and every argument unchanged.

  The fold over the whole list is the four layers' folds composed. Read from the last: the head's output is the head
  of the pooled third activation; the third activation is one layer of the second; the second one layer of the
  first; the first the first layer of the arguments. Each layer reads, besides the previous activation, only
  argument buffers, which no operation writes, so each intermediate valuation agrees with the launch contents there.
-/
import proofs.«114295_j84782654423394_1_alg».proof.Proof.RefRunMain
import proofs.«114295_j84782654423394_1_alg».proof.Proof.RefRunL1
import proofs.«114295_j84782654423394_1_alg».proof.Proof.RefRunL2
import proofs.«114295_j84782654423394_1_alg».proof.Proof.RefRunL3
import proofs.«114295_j84782654423394_1_alg».proof.Proof.RefRunLT

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- A buffer the first layer does not write, after it. -/
theorem keep1 (M : Valuation τ sig (Elt F)) {r : Ref sig .tc} (h1 : r ∉ L1_W) :
    after L1 M (Proc.devRef .tc r) = M (Proc.devRef .tc r) := L1_keep M h1

/-- A buffer the first two layers do not write, after them. -/
theorem keep2 (M : Valuation τ sig (Elt F)) {r : Ref sig .tc} (h1 : r ∉ L1_W) (h2 : r ∉ L2_W) :
    after L2 (after L1 M) (Proc.devRef .tc r) = M (Proc.devRef .tc r) :=
  (L2_keep _ h2).trans (keep1 M h1)

/-- A buffer the three layers do not write, after them. -/
theorem keep3 (M : Valuation τ sig (Elt F)) {r : Ref sig .tc} (h1 : r ∉ L1_W) (h2 : r ∉ L2_W) (h3 : r ∉ L3_W) :
    after L3 (after L2 (after L1 M)) (Proc.devRef .tc r) = M (Proc.devRef .tc r) :=
  (L3_keep _ h3).trans (keep2 M h1 h2)

/-- A buffer no operation writes, after the whole program. -/
theorem ops_keep (M : Valuation τ sig (Elt F)) {r : Ref sig .tc} (h1 : r ∉ L1_W) (h2 : r ∉ L2_W) (h3 : r ∉ L3_W)
    (hT : r ∉ LT_W) : after ops M (Proc.devRef .tc r) = M (Proc.devRef .tc r) := by
  show after (L1 ++ (L2 ++ (L3 ++ LT))) M _ = _
  rw [after_append L1, after_append L2, after_append L3]
  exact (LT_keep _ hT).trans (keep3 M h1 h2 h3)

/-- The result buffer after the whole program, from any contents: the reference network of the argument buffers'
    contents. -/
theorem ops_out (M : Valuation τ sig (Elt F)) :
    after ops M (Proc.devRef .tc main_v178)
      = Cert.RefSpec.result (M (Proc.devRef .tc main_arg0)) (M (Proc.devRef .tc main_arg1)) (M (Proc.devRef .tc main_arg2)) (M (Proc.devRef .tc main_arg3)) (M (Proc.devRef .tc main_arg4)) (M (Proc.devRef .tc main_arg5)) (M (Proc.devRef .tc main_arg6)) (M (Proc.devRef .tc main_arg7)) (M (Proc.devRef .tc main_arg8)) (M (Proc.devRef .tc main_arg9)) (M (Proc.devRef .tc main_arg10)) (M (Proc.devRef .tc main_arg11)) (M (Proc.devRef .tc main_arg12)) (M (Proc.devRef .tc main_arg13)) (M (Proc.devRef .tc main_arg14)) (M (Proc.devRef .tc main_arg15)) (M (Proc.devRef .tc main_arg16)) (M (Proc.devRef .tc main_arg17)) (M (Proc.devRef .tc main_arg18)) (M (Proc.devRef .tc main_arg19)) (M (Proc.devRef .tc main_arg20)) (M (Proc.devRef .tc main_arg21)) (M (Proc.devRef .tc main_arg22)) (M (Proc.devRef .tc main_arg23)) (M (Proc.devRef .tc main_arg24)) := by
  show after (L1 ++ (L2 ++ (L3 ++ LT))) M _ = _
  rw [after_append L1, after_append L2, after_append L3, LT_out, L3_out, L2_out, L1_out,
    keep3 M (r := main_arg3) (by decide) (by decide) (by decide),
    keep3 M (r := main_arg19) (by decide) (by decide) (by decide),
    keep3 M (r := main_arg20) (by decide) (by decide) (by decide),
    keep3 M (r := main_arg21) (by decide) (by decide) (by decide),
    keep3 M (r := main_arg22) (by decide) (by decide) (by decide),
    keep3 M (r := main_arg23) (by decide) (by decide) (by decide),
    keep3 M (r := main_arg24) (by decide) (by decide) (by decide),
    keep2 M (r := main_arg1) (by decide) (by decide),
    keep2 M (r := main_arg2) (by decide) (by decide),
    keep2 M (r := main_arg10) (by decide) (by decide),
    keep2 M (r := main_arg11) (by decide) (by decide),
    keep2 M (r := main_arg12) (by decide) (by decide),
    keep2 M (r := main_arg17) (by decide) (by decide),
    keep2 M (r := main_arg18) (by decide) (by decide),
    keep1 M (r := main_arg1) (by decide),
    keep1 M (r := main_arg2) (by decide),
    keep1 M (r := main_arg7) (by decide),
    keep1 M (r := main_arg8) (by decide),
    keep1 M (r := main_arg9) (by decide),
    keep1 M (r := main_arg15) (by decide),
    keep1 M (r := main_arg16) (by decide)]
  rfl

/-- On every device, for any float values, from any memory with zero counters: every weakly fair execution of
    @main terminates with the result buffer at the reference network of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v178)
          = Cert.RefSpec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c main_v178).trans (ops_out _),
      (h c main_arg0).trans (ops_keep _ (by decide) (by decide) (by decide) (by decide)),
      (h c main_arg1).trans (ops_keep _ (by decide) (by decide) (by decide) (by decide)),
      (h c main_arg2).trans (ops_keep _ (by decide) (by decide) (by decide) (by decide)),
      (h c main_arg3).trans (ops_keep _ (by decide) (by decide) (by decide) (by decide)),
      (h c main_arg4).trans (ops_keep _ (by decide) (by decide) (by decide) (by decide)),
      (h c main_arg5).trans (ops_keep _ (by decide) (by decide) (by decide) (by decide)),
      (h c main_arg6).trans (ops_keep _ (by decide) (by decide) (by decide) (by decide)),
      (h c main_arg7).trans (ops_keep _ (by decide) (by decide) (by decide) (by decide)),
      (h c main_arg8).trans (ops_keep _ (by decide) (by decide) (by decide) (by decide)),
      (h c main_arg9).trans (ops_keep _ (by decide) (by decide) (by decide) (by decide)),
      (h c main_arg10).trans (ops_keep _ (by decide) (by decide) (by decide) (by decide)),
      (h c main_arg11).trans (ops_keep _ (by decide) (by decide) (by decide) (by decide)),
      (h c main_arg12).trans (ops_keep _ (by decide) (by decide) (by decide) (by decide)),
      (h c main_arg13).trans (ops_keep _ (by decide) (by decide) (by decide) (by decide)),
      (h c main_arg14).trans (ops_keep _ (by decide) (by decide) (by decide) (by decide)),
      (h c main_arg15).trans (ops_keep _ (by decide) (by decide) (by decide) (by decide)),
      (h c main_arg16).trans (ops_keep _ (by decide) (by decide) (by decide) (by decide)),
      (h c main_arg17).trans (ops_keep _ (by decide) (by decide) (by decide) (by decide)),
      (h c main_arg18).trans (ops_keep _ (by decide) (by decide) (by decide) (by decide)),
      (h c main_arg19).trans (ops_keep _ (by decide) (by decide) (by decide) (by decide)),
      (h c main_arg20).trans (ops_keep _ (by decide) (by decide) (by decide) (by decide)),
      (h c main_arg21).trans (ops_keep _ (by decide) (by decide) (by decide) (by decide)),
      (h c main_arg22).trans (ops_keep _ (by decide) (by decide) (by decide) (by decide)),
      (h c main_arg23).trans (ops_keep _ (by decide) (by decide) (by decide) (by decide)),
      (h c main_arg24).trans (ops_keep _ (by decide) (by decide) (by decide) (by decide))⟩)
    (run_seq scopedRefs_eq scopedSems_eq defs main (fun _ => ops) main_eq (fun _ => ops_sub) m ρ (fun _ => ops_fresh))

end Cert.ReferenceIdeal.HandRun

end
-- ==== Proof.lean ====
/-
  The certificate: the kernel program and the reference network compute the same 64 × 18 result on the extended reals.

  Both programs are a three-layer graph network followed by a pooled three-layer perceptron. Per layer: each node's
  features are multiplied by the self weights, the mean of its in-neighbours' features (a gather along the edges, a
  scatter-sum at the destinations, a division by the in-degree floored at one) by the neighbour weights, a bias is added;
  the result is normalised by its column mean and variance (plus the stabiliser), scaled and shifted, and passed through
  the leaky rectifier. The kernel program does the two products, the bias, the normalisation and the rectifier in launched
  kernels over row tiles of 512 with operands narrowed to bfloat16, and the gather, the scatter-sums and the column sums on
  the host; the reference does everything on the host. At the ideal values narrowing is the identity, a tiled product
  accumulated into zero and a host contraction are the same sum, the statistics are the same host reductions of the same
  arrays, and the rectifier's two spellings (v > 0 ? v : v·s  against  v ≥ 0 ? v : s·v) agree at every extended real. No
  finiteness of the inputs is used: the two sides are the same expression entry by entry.

  The three frame claims: the two kernel programs' frames are the ones proved over the programs' segments; the reference's
  frame is its run with the result forgotten. The idealization rewrote nothing, so its claim is trivial.
-/
import proofs.«114295_j84782654423394_1_alg».proof.Defs
import proofs.«114295_j84782654423394_1_alg».proof.Proof.Gen.Kernel
import proofs.«114295_j84782654423394_1_alg».proof.Proof.Gen.Kernel.Frame
import proofs.«114295_j84782654423394_1_alg».proof.Proof.Gen.KernelIdeal
import proofs.«114295_j84782654423394_1_alg».proof.Proof.Gen.KernelIdeal.Frame
import proofs.«114295_j84782654423394_1_alg».proof.Proof.Gen.ReferenceIdeal
import proofs.«114295_j84782654423394_1_alg».proof.Proof.Gen.Pre_finite_inputs
import proofs.«114295_j84782654423394_1_alg».proof.Proof.KernelValue
import proofs.«114295_j84782654423394_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with its result forgotten. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- Both runs end with the result at the reference network's composed term of the arguments, and the arguments agree. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.HandRun.run (F := Ideal) m' ρ')
  obtain ⟨h0, h1, h2, h3, h4, h5, h6, h7, h8, h9, h10, h11, h12, h13, h14, h15, h16, h17, h18, h19, h20, h21, h22, h23, h24⟩ := hagree c
  rw [h0, h1, h2, h3, h4, h5, h6, h7, h8, h9, h10, h11, h12, h13, h14, h15, h16, h17, h18, h19, h20, h21, h22, h23, h24]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
